-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x39 : Shape := ⟨2, ![131072, 39]⟩
abbrev S507x16 : Shape := ⟨2, ![507, 16]⟩
abbrev S39 : Shape := ⟨1, ![39]⟩
abbrev S624x256 : Shape := ⟨2, ![624, 256]⟩
abbrev S1x256 : Shape := ⟨2, ![1, 256]⟩
abbrev S256x128 : Shape := ⟨2, ![256, 128]⟩
abbrev S1x128 : Shape := ⟨2, ![1, 128]⟩
abbrev S128x64 : Shape := ⟨2, ![128, 64]⟩
abbrev S1x64 : Shape := ⟨2, ![1, 64]⟩
abbrev S64x1 : Shape := ⟨2, ![64, 1]⟩
abbrev S1x1 : Shape := ⟨2, ![1, 1]⟩
abbrev S_ : Shape := ⟨0, ![]⟩
abbrev S1x39 : Shape := ⟨2, ![1, 39]⟩

class Facts : Prop where
  bcast_S_S507x16 : S_.BroadcastsInDim S507x16 (![] : Fin 0 → Fin S507x16.rank)
  reducesTo_S507x16_S_d0_1 : S507x16.ReducesTo [0, 1] S_
  h_S_ : 0 < S_.numel
  bcast_S_S624x256 : S_.BroadcastsInDim S624x256 (![] : Fin 0 → Fin S624x256.rank)
  reducesTo_S624x256_S_d0_1 : S624x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_
  bcast_S_S128x64 : S_.BroadcastsInDim S128x64 (![] : Fin 0 → Fin S128x64.rank)
  reducesTo_S128x64_S_d0_1 : S128x64.ReducesTo [0, 1] S_
  bcast_S_S1x64 : S_.BroadcastsInDim S1x64 (![] : Fin 0 → Fin S1x64.rank)
  reducesTo_S1x64_S_d0_1 : S1x64.ReducesTo [0, 1] S_
  bcast_S_S64x1 : S_.BroadcastsInDim S64x1 (![] : Fin 0 → Fin S64x1.rank)
  reducesTo_S64x1_S_d0_1 : S64x1.ReducesTo [0, 1] S_
  bcast_S_S1x1 : S_.BroadcastsInDim S1x1 (![] : Fin 0 → Fin S1x1.rank)
  reducesTo_S1x1_S_d0_1 : S1x1.ReducesTo [0, 1] S_
  bcast_S_S131072x39 : S_.BroadcastsInDim S131072x39 (![] : Fin 0 → Fin S131072x39.rank)
  reducesTo_S131072x39_S_d0_1 : S131072x39.ReducesTo [0, 1] S_
  bcast_S39_S1x39_1 : S39.BroadcastsInDim S1x39 (![1] : Fin 1 → Fin S1x39.rank)
  bcast_S1x39_S131072x39_0_1 : S1x39.BroadcastsInDim S131072x39 (![0, 1] : Fin 2 → Fin S131072x39.rank)

variable [Facts]

def fn_part3 {F : FTy → Type} [FloatOps F] (main_arg0 : IVec S131072x39 32) (main_arg2 : IVec S39 32) (main_v50 : IVec S_ 1) : IVec S_ 1 :=
  let main_v51 : IVec S1x39 32 := broadcastInDim S1x39 ![1] bcast_S39_S1x39_1 main_arg2
  let main_v52 : IVec S131072x39 32 := broadcastInDim S131072x39 ![0, 1] bcast_S1x39_S131072x39_0_1 main_v51
  let main_v53 : IVec S131072x39 32 := addi main_arg0 main_v52
  let main_c_19 : IVec S_ 32 := constantI S_ 32 0#32
  let main_v54 : IVec S131072x39 32 := broadcastInDim S131072x39 ![] bcast_S_S131072x39 main_c_19
  let main_v55 : IVec S131072x39 1 := cmpi .sge main_v53 main_v54
  let main_v56 : IVec S1x39 32 := broadcastInDim S1x39 ![1] bcast_S39_S1x39_1 main_arg2
  let main_v57 : IVec S131072x39 32 := broadcastInDim S131072x39 ![0, 1] bcast_S1x39_S131072x39_0_1 main_v56
  let main_v58 : IVec S131072x39 32 := addi main_arg0 main_v57
  let main_c_20 : IVec S_ 32 := constantI S_ 32 507#32
  let main_v59 : IVec S131072x39 32 := broadcastInDim S131072x39 ![] bcast_S_S131072x39 main_c_20
  let main_v60 : IVec S131072x39 1 := cmpi .slt main_v58 main_v59
  let main_v61 : IVec S131072x39 1 := andi main_v55 main_v60
  let main_c_21 : IVec S_ 1 := constantI S_ 1 1#1
  let main_v62 : IVec S_ 1 := (fun x v => Host.reduce IntOp.andi x v reducesTo_S131072x39_S_d0_1 h_S_) main_v61 main_c_21
  let main_v63 : IVec S_ 1 := andi main_v50 main_v62
  main_v63

def fn_part2 {F : FTy → Type} [FloatOps F] (main_arg0 : IVec S131072x39 32) (main_arg2 : IVec S39 32) (main_arg9 : FVec F S64x1 .f32) (main_arg10 : FVec F S1x1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1x1 .f32 := Host.absf main_arg10
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  let main_c_16 : IVec S_ 32 := constantI S_ 32 0#32
  let main_v44 : IVec S131072x39 32 := broadcastInDim S131072x39 ![] bcast_S_S131072x39 main_c_16
  let main_v45 : IVec S131072x39 1 := cmpi .sge main_arg0 main_v44
  let main_c_17 : IVec S_ 32 := constantI S_ 32 13#32
  let main_v46 : IVec S131072x39 32 := broadcastInDim S131072x39 ![] bcast_S_S131072x39 main_c_17
  let main_v47 : IVec S131072x39 1 := cmpi .slt main_arg0 main_v46
  let main_v48 : IVec S131072x39 1 := andi main_v45 main_v47
  let main_c_18 : IVec S_ 1 := constantI S_ 1 1#1
  let main_v49 : IVec S_ 1 := (fun x v => Host.reduce IntOp.andi x v reducesTo_S131072x39_S_d0_1 h_S_) main_v48 main_c_18
  let main_v50 : IVec S_ 1 := andi main_v43 main_v49
  fn_part3 (F := F) main_arg0 main_arg2 main_v50

def fn_part1 {F : FTy → Type} [FloatOps F] (main_arg0 : IVec S131072x39 32) (main_arg2 : IVec S39 32) (main_arg6 : FVec F S1x128 .f32) (main_arg7 : FVec F S128x64 .f32) (main_arg8 : FVec F S1x64 .f32) (main_arg9 : FVec F S64x1 .f32) (main_arg10 : FVec F S1x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S1x64 .f32 := Host.absf main_arg8
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg0 main_arg2 main_arg9 main_arg10 main_v33

def fn {F : FTy → Type} [FloatOps F] (main_arg0 : IVec S131072x39 32) (main_arg1 : FVec F S507x16 .f32) (main_arg2 : IVec S39 32) (main_arg3 : FVec F S624x256 .f32) (main_arg4 : FVec F S1x256 .f32) (main_arg5 : FVec F S256x128 .f32) (main_arg6 : FVec F S1x128 .f32) (main_arg7 : FVec F S128x64 .f32) (main_arg8 : FVec F S1x64 .f32) (main_arg9 : FVec F S64x1 .f32) (main_arg10 : FVec F S1x1 .f32) : IVec S_ 1 :=
  let main_v0 : FVec F S507x16 .f32 := Host.absf main_arg1
  let main_cst : FVec F S_ .f32 := constant S_ .f32 0x7F800000#32
  let main_v1 : FVec F S507x16 .f32 := broadcastInDim S507x16 ![] bcast_S_S507x16 main_cst
  let main_v2 : IVec S507x16 1 := cmpf .olt main_v0 main_v1
  let main_c : IVec S_ 1 := constantI S_ 1 1#1
  let main_v3 : IVec S_ 1 := (fun x v => Host.reduce IntOp.andi x v reducesTo_S507x16_S_d0_1 h_S_) main_v2 main_c
  let main_v4 : FVec F S624x256 .f32 := Host.absf main_arg3
  let main_cst_0 : FVec F S_ .f32 := constant S_ .f32 0x7F800000#32
  let main_v5 : FVec F S624x256 .f32 := broadcastInDim S624x256 ![] bcast_S_S624x256 main_cst_0
  let main_v6 : IVec S624x256 1 := cmpf .olt main_v4 main_v5
  let main_c_1 : IVec S_ 1 := constantI S_ 1 1#1
  let main_v7 : IVec S_ 1 := (fun x v => Host.reduce IntOp.andi x v reducesTo_S624x256_S_d0_1 h_S_) main_v6 main_c_1
  let main_v8 : IVec S_ 1 := andi main_v3 main_v7
  let main_v9 : FVec F S1x256 .f32 := Host.absf main_arg4
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg0 main_arg2 main_arg6 main_arg7 main_arg8 main_arg9 main_arg10 main_v13 main_v16
-- ==== Kernel.lean ====
abbrev S131072x39 : Shape := ⟨2, ![131072, 39]⟩
abbrev S507x16 : Shape := ⟨2, ![507, 16]⟩
abbrev S39 : Shape := ⟨1, ![39]⟩
abbrev S624x256 : Shape := ⟨2, ![624, 256]⟩
abbrev S1x256 : Shape := ⟨2, ![1, 256]⟩
abbrev S256x128 : Shape := ⟨2, ![256, 128]⟩
abbrev S1x128 : Shape := ⟨2, ![1, 128]⟩
abbrev S128x64 : Shape := ⟨2, ![128, 64]⟩
abbrev S1x64 : Shape := ⟨2, ![1, 64]⟩
abbrev S64x1 : Shape := ⟨2, ![64, 1]⟩
abbrev S1x1 : Shape := ⟨2, ![1, 1]⟩
abbrev S39x131072 : Shape := ⟨2, ![39, 131072]⟩
abbrev S_ : Shape := ⟨0, ![]⟩
abbrev S624 : Shape := ⟨1, ![624]⟩
abbrev S624x1 : Shape := ⟨2, ![624, 1]⟩
abbrev S624x16 : Shape := ⟨2, ![624, 16]⟩
abbrev S256x624 : Shape := ⟨2, ![256, 624]⟩
abbrev S256x1 : Shape := ⟨2, ![256, 1]⟩
abbrev S128x256 : Shape := ⟨2, ![128, 256]⟩
abbrev S128x1 : Shape := ⟨2, ![128, 1]⟩
abbrev S64x128 : Shape := ⟨2, ![64, 128]⟩
abbrev S1x131072 : Shape := ⟨2, ![1, 131072]⟩
abbrev S131072 : Shape := ⟨1, ![131072]⟩
abbrev S131072x1 : Shape := ⟨2, ![131072, 1]⟩
abbrev S16x256 : Shape := ⟨2, ![16, 256]⟩
abbrev S16x16 : Shape := ⟨2, ![16, 16]⟩
abbrev S256x16 : Shape := ⟨2, ![256, 16]⟩
abbrev S39x1024 : Shape := ⟨2, ![39, 1024]⟩
abbrev S1x1024 : Shape := ⟨2, ![1, 1024]⟩
abbrev S39x16x1024 : Shape := ⟨3, ![39, 16, 1024]⟩
abbrev S39x1x1024 : Shape := ⟨3, ![39, 1, 1024]⟩
abbrev S624x1024 : Shape := ⟨2, ![624, 1024]⟩
abbrev S256x1024 : Shape := ⟨2, ![256, 1024]⟩
abbrev S128x1024 : Shape := ⟨2, ![128, 1024]⟩
abbrev S64x1024 : Shape := ⟨2, ![64, 1024]⟩
abbrev S1024 : Shape := ⟨1, ![1024]⟩

abbrev nBuf : Space → Nat
  | .hbm => 92
  | .vmem => 15
  | .smem => 0
  | _ => 0

abbrev bufTy : (tb : Table) → Fin (tcTables nBuf tb) → BufTy
  | .hbm, ⟨0, _⟩ => ⟨S131072x39, .i32⟩
  | .hbm, ⟨1, _⟩ => ⟨S507x16, .f32⟩
  | .hbm, ⟨2, _⟩ => ⟨S39, .i32⟩
  | .hbm, ⟨3, _⟩ => ⟨S624x256, .f32⟩
  | .hbm, ⟨4, _⟩ => ⟨S1x256, .f32⟩
  | .hbm, ⟨5, _⟩ => ⟨S256x128, .f32⟩
  | .hbm, ⟨6, _⟩ => ⟨S1x128, .f32⟩
  | .hbm, ⟨7, _⟩ => ⟨S128x64, .f32⟩
  | .hbm, ⟨8, _⟩ => ⟨S1x64, .f32⟩
  | .hbm, ⟨9, _⟩ => ⟨S64x1, .f32⟩
  | .hbm, ⟨10, _⟩ => ⟨S1x1, .f32⟩
  | .hbm, ⟨11, _⟩ => ⟨S39x131072, .i32⟩
  | .hbm, ⟨12, _⟩ => ⟨S_, .i32⟩
  | .hbm, ⟨13, _⟩ => ⟨S_, .i32⟩
  | .hbm, ⟨14, _⟩ => ⟨S39x131072, .i32⟩
  | .hbm, ⟨15, _⟩ => ⟨S624, .i32⟩
  | .hbm, ⟨16, _⟩ => ⟨S_, .i32⟩
  | .hbm, ⟨17, _⟩ => ⟨S_, .i32⟩
  | .hbm, ⟨18, _⟩ => ⟨S624, .i32⟩
  | .hbm, ⟨19, _⟩ => ⟨S624, .i32⟩
  | .hbm, ⟨20, _⟩ => ⟨S624, .i32⟩
  | .hbm, ⟨21, _⟩ => ⟨S_, .i32⟩
  | .hbm, ⟨22, _⟩ => ⟨S624, .i32⟩
  | .hbm, ⟨23, _⟩ => ⟨S624, .i1⟩
  | .hbm, ⟨24, _⟩ => ⟨S624, .i32⟩
  | .hbm, ⟨25, _⟩ => ⟨S624, .i32⟩
  | .hbm, ⟨26, _⟩ => ⟨S_, .i32⟩
  | .hbm, ⟨27, _⟩ => ⟨S624, .i32⟩
  | .hbm, ⟨28, _⟩ => ⟨S624, .i1⟩
  | .hbm, ⟨29, _⟩ => ⟨S624, .i1⟩
  | .hbm, ⟨30, _⟩ => ⟨S_, .i32⟩
  | .hbm, ⟨31, _⟩ => ⟨S624, .i32⟩
  | .hbm, ⟨32, _⟩ => ⟨S624, .i32⟩
  | .hbm, ⟨33, _⟩ => ⟨S624, .i32⟩
  | .hbm, ⟨34, _⟩ => ⟨S_, .i32⟩
  | .hbm, ⟨35, _⟩ => ⟨S624, .i32⟩
  | .hbm, ⟨36, _⟩ => ⟨S624, .i1⟩
  | .hbm, ⟨37, _⟩ => ⟨S_, .i32⟩
  | .hbm, ⟨38, _⟩ => ⟨S624, .i32⟩
  | .hbm, ⟨39, _⟩ => ⟨S624, .i32⟩
  | .hbm, ⟨40, _⟩ => ⟨S624, .i32⟩
  | .hbm, ⟨41, _⟩ => ⟨S624x1, .i32⟩
  | .hbm, ⟨42, _⟩ => ⟨S624, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S624, .i32⟩
  | .hbm, ⟨50, _⟩ => ⟨S624, .i32⟩
  | .hbm, ⟨51, _⟩ => ⟨S_, .i32⟩
  | .hbm, ⟨52, _⟩ => ⟨S624, .i32⟩
  | .hbm, ⟨53, _⟩ => ⟨S624, .i1⟩
  | .hbm, ⟨54, _⟩ => ⟨S_, .i32⟩
  | .hbm, ⟨55, _⟩ => ⟨S624, .i32⟩
  | .hbm, ⟨56, _⟩ => ⟨S624, .i1⟩
  | .hbm, ⟨57, _⟩ => ⟨S_, .i32⟩
  | .hbm, ⟨58, _⟩ => ⟨S_, .i1⟩
  | .hbm, ⟨59, _⟩ => ⟨S624, .i1⟩
  | .hbm, ⟨60, _⟩ => ⟨S624, .i1⟩
  | .hbm, ⟨61, _⟩ => ⟨S624, .i1⟩
  | .hbm, ⟨62, _⟩ => ⟨S624, .i32⟩
  | .hbm, ⟨63, _⟩ => ⟨S624, .i32⟩
  | .hbm, ⟨64, _⟩ => ⟨S624, .i32⟩
  | .hbm, ⟨65, _⟩ => ⟨S624, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S624, .i32⟩
  | .hbm, ⟨70, _⟩ => ⟨S624, .i32⟩
  | .hbm, ⟨71, _⟩ => ⟨S_, .i32⟩
  | .hbm, ⟨72, _⟩ => ⟨S624, .i32⟩
  | .hbm, ⟨73, _⟩ => ⟨S624, .i32⟩
  | .hbm, ⟨74, _⟩ => ⟨S_, .i32⟩
  | .hbm, ⟨75, _⟩ => ⟨S624, .i32⟩
  | .hbm, ⟨76, _⟩ => ⟨S624, .i1⟩
  | .hbm, ⟨77, _⟩ => ⟨S_, .i32⟩
  | .hbm, ⟨78, _⟩ => ⟨S624, .i32⟩
  | .hbm, ⟨79, _⟩ => ⟨S624, .i32⟩
  | .hbm, ⟨80, _⟩ => ⟨S624, .i32⟩
  | .hbm, ⟨81, _⟩ => ⟨S624x1, .i32⟩
  | .hbm, ⟨82, _⟩ => ⟨S624x16, .f32⟩
  | .hbm, ⟨83, _⟩ => ⟨S256x624, .bf16⟩
  | .hbm, ⟨84, _⟩ => ⟨S256x1, .f32⟩
  | .hbm, ⟨85, _⟩ => ⟨S128x256, .f32⟩
  | .hbm, ⟨86, _⟩ => ⟨S128x1, .f32⟩
  | .hbm, ⟨87, _⟩ => ⟨S64x128, .f32⟩
  | .hbm, ⟨88, _⟩ => ⟨S64x1, .f32⟩
  | .hbm, ⟨89, _⟩ => ⟨S1x131072, .f32⟩
  | .hbm, ⟨90, _⟩ => ⟨S131072, .f32⟩
  | .hbm, ⟨91, _⟩ => ⟨S131072x1, .f32⟩
  | .local _ .vmem, ⟨0, _⟩ => ⟨S624x16, .f32⟩
  | .local _ .vmem, ⟨1, _⟩ => ⟨S624x256, .f32⟩
  | .local _ .vmem, ⟨2, _⟩ => ⟨S256x624, .bf16⟩
  | .local _ .vmem, ⟨3, _⟩ => ⟨S39x1024, .i32⟩
  | .local _ .vmem, ⟨4, _⟩ => ⟨S39x1024, .i32⟩
  | .local _ .vmem, ⟨5, _⟩ => ⟨S256x624, .bf16⟩
  | .local _ .vmem, ⟨6, _⟩ => ⟨S256x1, .f32⟩
  | .local _ .vmem, ⟨7, _⟩ => ⟨S128x256, .f32⟩
  | .local _ .vmem, ⟨8, _⟩ => ⟨S128x1, .f32⟩
  | .local _ .vmem, ⟨9, _⟩ => ⟨S64x128, .f32⟩
  | .local _ .vmem, ⟨10, _⟩ => ⟨S64x1, .f32⟩
  | .local _ .vmem, ⟨11, _⟩ => ⟨S64x1, .f32⟩
  | .local _ .vmem, ⟨12, _⟩ => ⟨S1x1, .f32⟩
  | .local _ .vmem, ⟨13, _⟩ => ⟨S1x1024, .f32⟩
  | .local _ .vmem, ⟨14, _⟩ => ⟨S1x1024, .f32⟩
  | _, _ => ⟨S131072x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_c : Ref sig .tc := ⟨.hbm, 12, rfl⟩
abbrev main_call0_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_c_0 : Ref sig .tc := ⟨.hbm, 16, rfl⟩
abbrev main_call0_call1_v0 : Ref sig .tc := ⟨.hbm, 17, rfl⟩
abbrev main_call0_call1_v1 : Ref sig .tc := ⟨.hbm, 18, rfl⟩
abbrev main_call0_call1_v2 : Ref sig .tc := ⟨.hbm, 19, rfl⟩
abbrev main_call0_call1_v3 : Ref sig .tc := ⟨.hbm, 20, rfl⟩
abbrev main_call0_call1_v4 : Ref sig .tc := ⟨.hbm, 21, rfl⟩
abbrev main_call0_call1_v5 : Ref sig .tc := ⟨.hbm, 22, rfl⟩
abbrev main_call0_call1_v6 : Ref sig .tc := ⟨.hbm, 23, rfl⟩
abbrev main_call0_call1_v7 : Ref sig .tc := ⟨.hbm, 24, rfl⟩
abbrev main_call0_call1_v8 : Ref sig .tc := ⟨.hbm, 25, rfl⟩
abbrev main_call0_call1_c : Ref sig .tc := ⟨.hbm, 26, rfl⟩
abbrev main_call0_call1_v9 : Ref sig .tc := ⟨.hbm, 27, rfl⟩
abbrev main_call0_call1_v10 : Ref sig .tc := ⟨.hbm, 28, rfl⟩
abbrev main_call0_call1_v11 : Ref sig .tc := ⟨.hbm, 29, rfl⟩
abbrev main_call0_call1_c_0 : Ref sig .tc := ⟨.hbm, 30, rfl⟩
abbrev main_call0_call1_v12 : Ref sig .tc := ⟨.hbm, 31, rfl⟩
abbrev main_call0_call1_v13 : Ref sig .tc := ⟨.hbm, 32, rfl⟩
abbrev main_call0_v3 : Ref sig .tc := ⟨.hbm, 33, rfl⟩
abbrev main_call0_c_1 : Ref sig .tc := ⟨.hbm, 34, rfl⟩
abbrev main_call0_v4 : Ref sig .tc := ⟨.hbm, 35, rfl⟩
abbrev main_call0_v5 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_c_3 : Ref sig .tc := ⟨.hbm, 43, rfl⟩
abbrev main_call0_call2_v0 : Ref sig .tc := ⟨.hbm, 44, rfl⟩
abbrev main_call0_call2_c : Ref sig .tc := ⟨.hbm, 45, rfl⟩
abbrev main_call0_call2_v1 : Ref sig .tc := ⟨.hbm, 46, rfl⟩
abbrev main_call0_call2_c_0 : Ref sig .tc := ⟨.hbm, 47, rfl⟩
abbrev main_call0_call2_v2 : Ref sig .tc := ⟨.hbm, 48, rfl⟩
abbrev main_call0_call2_v3 : Ref sig .tc := ⟨.hbm, 49, rfl⟩
abbrev main_call0_call2_v4 : Ref sig .tc := ⟨.hbm, 50, rfl⟩
abbrev main_call0_call2_c_1 : Ref sig .tc := ⟨.hbm, 51, rfl⟩
abbrev main_call0_call2_v5 : Ref sig .tc := ⟨.hbm, 52, rfl⟩
abbrev main_call0_call2_v6 : Ref sig .tc := ⟨.hbm, 53, rfl⟩
abbrev main_call0_call2_c_2 : Ref sig .tc := ⟨.hbm, 54, rfl⟩
abbrev main_call0_call2_v7 : Ref sig .tc := ⟨.hbm, 55, rfl⟩
abbrev main_call0_call2_v8 : Ref sig .tc := ⟨.hbm, 56, rfl⟩
abbrev main_call0_call2_c_3 : Ref sig .tc := ⟨.hbm, 57, rfl⟩
abbrev main_call0_call2_v9 : Ref sig .tc := ⟨.hbm, 58, rfl⟩
abbrev main_call0_call2_v10 : Ref sig .tc := ⟨.hbm, 59, rfl⟩
abbrev main_call0_call2_v11 : Ref sig .tc := ⟨.hbm, 60, rfl⟩
abbrev main_call0_call2_v12 : Ref sig .tc := ⟨.hbm, 61, rfl⟩
abbrev main_call0_call2_v13 : Ref sig .tc := ⟨.hbm, 62, rfl⟩
abbrev main_call0_call2_v14 : Ref sig .tc := ⟨.hbm, 63, rfl⟩
abbrev main_call0_v11 : Ref sig .tc := ⟨.hbm, 64, rfl⟩
abbrev main_call0_v12 : Ref sig .tc := ⟨.hbm, 65, rfl⟩
abbrev main_call0_c_4 : Ref sig .tc := ⟨.hbm, 66, rfl⟩
abbrev main_call0_c_5 : Ref sig .tc := ⟨.hbm, 67, rfl⟩
abbrev main_call0_call3_v0 : Ref sig .tc := ⟨.hbm, 68, rfl⟩
abbrev main_call0_call3_v1 : Ref sig .tc := ⟨.hbm, 69, rfl⟩
abbrev main_call0_call3_v2 : Ref sig .tc := ⟨.hbm, 70, rfl⟩
abbrev main_call0_call3_v3 : Ref sig .tc := ⟨.hbm, 71, rfl⟩
abbrev main_call0_call3_v4 : Ref sig .tc := ⟨.hbm, 72, rfl⟩
abbrev main_call0_v13 : Ref sig .tc := ⟨.hbm, 73, rfl⟩
abbrev main_call0_c_6 : Ref sig .tc := ⟨.hbm, 74, rfl⟩
abbrev main_call0_v14 : Ref sig .tc := ⟨.hbm, 75, rfl⟩
abbrev main_call0_v15 : Ref sig .tc := ⟨.hbm, 76, rfl⟩
abbrev main_call0_c_7 : Ref sig .tc := ⟨.hbm, 77, rfl⟩
abbrev main_call0_v16 : Ref sig .tc := ⟨.hbm, 78, rfl⟩
abbrev main_call0_v17 : Ref sig .tc := ⟨.hbm, 79, rfl⟩
abbrev main_call0_v18 : Ref sig .tc := ⟨.hbm, 80, rfl⟩
abbrev main_call0_v19 : Ref sig .tc := ⟨.hbm, 81, rfl⟩
abbrev main_call0_v20 : Ref sig .tc := ⟨.hbm, 82, rfl⟩
abbrev main_call0_v21 : Ref sig .tc := ⟨.hbm, 83, rfl⟩
abbrev main_call0_v22 : Ref sig .tc := ⟨.hbm, 84, rfl⟩
abbrev main_call0_v23 : Ref sig .tc := ⟨.hbm, 85, rfl⟩
abbrev main_call0_v24 : Ref sig .tc := ⟨.hbm, 86, rfl⟩
abbrev main_call0_v25 : Ref sig .tc := ⟨.hbm, 87, rfl⟩
abbrev main_call0_v26 : Ref sig .tc := ⟨.hbm, 88, rfl⟩
abbrev main_call0_v27 : Ref sig .tc := ⟨.hbm, 89, rfl⟩
abbrev main_call0_v28 : Ref sig .tc := ⟨.hbm, 90, rfl⟩
abbrev main_v0 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg9_1 : Ref sig .tc := ⟨.vmem, 14, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem9_1 : DmaSem sig := 14

abbrev nD : Nat := 1
abbrev τ : Topo := Topo.v7x

variable {F : FTy → Type} [FloatOps F]

abbrev grid0 : Pipeline.Grid := .none

abbrev stage0_0 : Fin 1 → Memref sig .tc .vmem S624x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S624x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x624 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S39x1024 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x624 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  transposes_S131072x39_S39x131072_1_0 : S131072x39.Transposes [1, 0] S39x131072
  pads_S39x131072_S39x131072_000_000 : S39x131072.Pads (![0, 0] : Fin 2 → Nat) ![0, 0] ![0, 0] S39x131072
  h_S_ : 0 < S_.numel
  bcast_S_S624 : S_.BroadcastsInDim S624 (![] : Fin 0 → Fin S624.rank)
  bcast_S624_S624x1_0 : S624.BroadcastsInDim S624x1 (![0] : Fin 1 → Fin S624x1.rank)
  transposes_S1x256_S256x1_1_0 : S1x256.Transposes [1, 0] S256x1
  transposes_S256x128_S128x256_1_0 : S256x128.Transposes [1, 0] S128x256
  transposes_S1x128_S128x1_1_0 : S1x128.Transposes [1, 0] S128x1
  transposes_S128x64_S64x128_1_0 : S128x64.Transposes [1, 0] S64x128
  transposes_S1x64_S64x1_1_0 : S1x64.Transposes [1, 0] S64x1
  shapeCasts_S1x131072_S131072 : S1x131072.ShapeCasts S131072
  shapeCasts_S131072_S131072x1 : S131072.ShapeCasts S131072x1
  inb_S624x256_S16x256_0_0 : ∀ a, (![0, 0] : Fin 2 → Nat) a + S16x256.size a ≤ S624x256.size a
  h_S16x256 : 0 < S16x256.numel
  inb_S624x16_S16x16_0_0 : ∀ a, (![0, 0] : Fin 2 → Nat) a + S16x16.size a ≤ S624x16.size a
  h_S16x16 : 0 < S16x16.numel
  shapeCasts_S16x16_S16x16 : S16x16.ShapeCasts S16x16
  bitsLt_bf16_f32 : FTy.bits .bf16 < FTy.bits .f32
  inb_S256x624_S256x16_0_0 : ∀ a, (![0, 0] : Fin 2 → Nat) a + S256x16.size a ≤ S256x624.size a
  h_S256x16 : 0 < S256x16.numel
  packedbf16_S256x624_S256x16_0_0 : (Rect.unit (s := S256x624) ![0, 0] S256x16.size inb_S256x624_S256x16_0_0).PackedRows (EltTy.packing .bf16)
  inb_S624x256_S16x256_16_0 : ∀ a, (![16, 0] : Fin 2 → Nat) a + S16x256.size a ≤ S624x256.size a
  inb_S624x16_S16x16_16_0 : ∀ a, (![16, 0] : Fin 2 → Nat) a + S16x16.size a ≤ S624x16.size a
  inb_S256x624_S256x16_0_16 : ∀ a, (![0, 16] : Fin 2 → Nat) a + S256x16.size a ≤ S256x624.size a
  packedbf16_S256x624_S256x16_0_16 : (Rect.unit (s := S256x624) ![0, 16] S256x16.size inb_S256x624_S256x16_0_16).PackedRows (EltTy.packing .bf16)
  inb_S624x256_S16x256_32_0 : ∀ a, (![32, 0] : Fin 2 → Nat) a + S16x256.size a ≤ S624x256.size a
  inb_S624x16_S16x16_32_0 : ∀ a, (![32, 0] : Fin 2 → Nat) a + S16x16.size a ≤ S624x16.size a
  inb_S256x624_S256x16_0_32 : ∀ a, (![0, 32] : Fin 2 → Nat) a + S256x16.size a ≤ S256x624.size a
  packedbf16_S256x624_S256x16_0_32 : (Rect.unit (s := S256x624) ![0, 32] S256x16.size inb_S256x624_S256x16_0_32).PackedRows (EltTy.packing .bf16)
  inb_S624x256_S16x256_48_0 : ∀ a, (![48, 0] : Fin 2 → Nat) a + S16x256.size a ≤ S624x256.size a
  inb_S624x16_S16x16_48_0 : ∀ a, (![48, 0] : Fin 2 → Nat) a + S16x16.size a ≤ S624x16.size a
  inb_S256x624_S256x16_0_48 : ∀ a, (![0, 48] : Fin 2 → Nat) a + S256x16.size a ≤ S256x624.size a
  packedbf16_S256x624_S256x16_0_48 : (Rect.unit (s := S256x624) ![0, 48] S256x16.size inb_S256x624_S256x16_0_48).PackedRows (EltTy.packing .bf16)
  inb_S624x256_S16x256_64_0 : ∀ a, (![64, 0] : Fin 2 → Nat) a + S16x256.size a ≤ S624x256.size a
  inb_S624x16_S16x16_64_0 : ∀ a, (![64, 0] : Fin 2 → Nat) a + S16x16.size a ≤ S624x16.size a
  inb_S256x624_S256x16_0_64 : ∀ a, (![0, 64] : Fin 2 → Nat) a + S256x16.size a ≤ S256x624.size a
  packedbf16_S256x624_S256x16_0_64 : (Rect.unit (s := S256x624) ![0, 64] S256x16.size inb_S256x624_S256x16_0_64).PackedRows (EltTy.packing .bf16)
  inb_S624x256_S16x256_80_0 : ∀ a, (![80, 0] : Fin 2 → Nat) a + S16x256.size a ≤ S624x256.size a
  inb_S624x16_S16x16_80_0 : ∀ a, (![80, 0] : Fin 2 → Nat) a + S16x16.size a ≤ S624x16.size a
  inb_S256x624_S256x16_0_80 : ∀ a, (![0, 80] : Fin 2 → Nat) a + S256x16.size a ≤ S256x624.size a
  packedbf16_S256x624_S256x16_0_80 : (Rect.unit (s := S256x624) ![0, 80] S256x16.size inb_S256x624_S256x16_0_80).PackedRows (EltTy.packing .bf16)
  inb_S624x256_S16x256_96_0 : ∀ a, (![96, 0] : Fin 2 → Nat) a + S16x256.size a ≤ S624x256.size a
  inb_S624x16_S16x16_96_0 : ∀ a, (![96, 0] : Fin 2 → Nat) a + S16x16.size a ≤ S624x16.size a
  inb_S256x624_S256x16_0_96 : ∀ a, (![0, 96] : Fin 2 → Nat) a + S256x16.size a ≤ S256x624.size a
  packedbf16_S256x624_S256x16_0_96 : (Rect.unit (s := S256x624) ![0, 96] S256x16.size inb_S256x624_S256x16_0_96).PackedRows (EltTy.packing .bf16)
  inb_S624x256_S16x256_112_0 : ∀ a, (![112, 0] : Fin 2 → Nat) a + S16x256.size a ≤ S624x256.size a
  inb_S624x16_S16x16_112_0 : ∀ a, (![112, 0] : Fin 2 → Nat) a + S16x16.size a ≤ S624x16.size a
  inb_S256x624_S256x16_0_112 : ∀ a, (![0, 112] : Fin 2 → Nat) a + S256x16.size a ≤ S256x624.size a
  packedbf16_S256x624_S256x16_0_112 : (Rect.unit (s := S256x624) ![0, 112] S256x16.size inb_S256x624_S256x16_0_112).PackedRows (EltTy.packing .bf16)
  inb_S624x256_S16x256_128_0 : ∀ a, (![128, 0] : Fin 2 → Nat) a + S16x256.size a ≤ S624x256.size a
  inb_S624x16_S16x16_128_0 : ∀ a, (![128, 0] : Fin 2 → Nat) a + S16x16.size a ≤ S624x16.size a
  inb_S256x624_S256x16_0_128 : ∀ a, (![0, 128] : Fin 2 → Nat) a + S256x16.size a ≤ S256x624.size a
  packedbf16_S256x624_S256x16_0_128 : (Rect.unit (s := S256x624) ![0, 128] S256x16.size inb_S256x624_S256x16_0_128).PackedRows (EltTy.packing .bf16)
  inb_S624x256_S16x256_144_0 : ∀ a, (![144, 0] : Fin 2 → Nat) a + S16x256.size a ≤ S624x256.size a
  inb_S624x16_S16x16_144_0 : ∀ a, (![144, 0] : Fin 2 → Nat) a + S16x16.size a ≤ S624x16.size a
  inb_S256x624_S256x16_0_144 : ∀ a, (![0, 144] : Fin 2 → Nat) a + S256x16.size a ≤ S256x624.size a
  packedbf16_S256x624_S256x16_0_144 : (Rect.unit (s := S256x624) ![0, 144] S256x16.size inb_S256x624_S256x16_0_144).PackedRows (EltTy.packing .bf16)
  inb_S624x256_S16x256_160_0 : ∀ a, (![160, 0] : Fin 2 → Nat) a + S16x256.size a ≤ S624x256.size a
  inb_S624x16_S16x16_160_0 : ∀ a, (![160, 0] : Fin 2 → Nat) a + S16x16.size a ≤ S624x16.size a
  inb_S256x624_S256x16_0_160 : ∀ a, (![0, 160] : Fin 2 → Nat) a + S256x16.size a ≤ S256x624.size a
  packedbf16_S256x624_S256x16_0_160 : (Rect.unit (s := S256x624) ![0, 160] S256x16.size inb_S256x624_S256x16_0_160).PackedRows (EltTy.packing .bf16)
  inb_S624x256_S16x256_176_0 : ∀ a, (![176, 0] : Fin 2 → Nat) a + S16x256.size a ≤ S624x256.size a
  inb_S624x16_S16x16_176_0 : ∀ a, (![176, 0] : Fin 2 → Nat) a + S16x16.size a ≤ S624x16.size a
  inb_S256x624_S256x16_0_176 : ∀ a, (![0, 176] : Fin 2 → Nat) a + S256x16.size a ≤ S256x624.size a
  packedbf16_S256x624_S256x16_0_176 : (Rect.unit (s := S256x624) ![0, 176] S256x16.size inb_S256x624_S256x16_0_176).PackedRows (EltTy.packing .bf16)
  inb_S624x256_S16x256_192_0 : ∀ a, (![192, 0] : Fin 2 → Nat) a + S16x256.size a ≤ S624x256.size a
  inb_S624x16_S16x16_192_0 : ∀ a, (![192, 0] : Fin 2 → Nat) a + S16x16.size a ≤ S624x16.size a
  inb_S256x624_S256x16_0_192 : ∀ a, (![0, 192] : Fin 2 → Nat) a + S256x16.size a ≤ S256x624.size a
  packedbf16_S256x624_S256x16_0_192 : (Rect.unit (s := S256x624) ![0, 192] S256x16.size inb_S256x624_S256x16_0_192).PackedRows (EltTy.packing .bf16)
  inb_S624x256_S16x256_208_0 : ∀ a, (![208, 0] : Fin 2 → Nat) a + S16x256.size a ≤ S624x256.size a
  inb_S624x16_S16x16_208_0 : ∀ a, (![208, 0] : Fin 2 → Nat) a + S16x16.size a ≤ S624x16.size a
  inb_S256x624_S256x16_0_208 : ∀ a, (![0, 208] : Fin 2 → Nat) a + S256x16.size a ≤ S256x624.size a
  packedbf16_S256x624_S256x16_0_208 : (Rect.unit (s := S256x624) ![0, 208] S256x16.size inb_S256x624_S256x16_0_208).PackedRows (EltTy.packing .bf16)
  inb_S624x256_S16x256_224_0 : ∀ a, (![224, 0] : Fin 2 → Nat) a + S16x256.size a ≤ S624x256.size a
  inb_S624x16_S16x16_224_0 : ∀ a, (![224, 0] : Fin 2 → Nat) a + S16x16.size a ≤ S624x16.size a
  inb_S256x624_S256x16_0_224 : ∀ a, (![0, 224] : Fin 2 → Nat) a + S256x16.size a ≤ S256x624.size a
  packedbf16_S256x624_S256x16_0_224 : (Rect.unit (s := S256x624) ![0, 224] S256x16.size inb_S256x624_S256x16_0_224).PackedRows (EltTy.packing .bf16)
  inb_S624x256_S16x256_240_0 : ∀ a, (![240, 0] : Fin 2 → Nat) a + S16x256.size a ≤ S624x256.size a
  inb_S624x16_S16x16_240_0 : ∀ a, (![240, 0] : Fin 2 → Nat) a + S16x16.size a ≤ S624x16.size a
  inb_S256x624_S256x16_0_240 : ∀ a, (![0, 240] : Fin 2 → Nat) a + S256x16.size a ≤ S256x624.size a
  packedbf16_S256x624_S256x16_0_240 : (Rect.unit (s := S256x624) ![0, 240] S256x16.size inb_S256x624_S256x16_0_240).PackedRows (EltTy.packing .bf16)
  inb_S624x256_S16x256_256_0 : ∀ a, (![256, 0] : Fin 2 → Nat) a + S16x256.size a ≤ S624x256.size a
  inb_S624x16_S16x16_256_0 : ∀ a, (![256, 0] : Fin 2 → Nat) a + S16x16.size a ≤ S624x16.size a
  inb_S256x624_S256x16_0_256 : ∀ a, (![0, 256] : Fin 2 → Nat) a + S256x16.size a ≤ S256x624.size a
  packedbf16_S256x624_S256x16_0_256 : (Rect.unit (s := S256x624) ![0, 256] S256x16.size inb_S256x624_S256x16_0_256).PackedRows (EltTy.packing .bf16)
  inb_S624x256_S16x256_272_0 : ∀ a, (![272, 0] : Fin 2 → Nat) a + S16x256.size a ≤ S624x256.size a
  inb_S624x16_S16x16_272_0 : ∀ a, (![272, 0] : Fin 2 → Nat) a + S16x16.size a ≤ S624x16.size a
  inb_S256x624_S256x16_0_272 : ∀ a, (![0, 272] : Fin 2 → Nat) a + S256x16.size a ≤ S256x624.size a
  packedbf16_S256x624_S256x16_0_272 : (Rect.unit (s := S256x624) ![0, 272] S256x16.size inb_S256x624_S256x16_0_272).PackedRows (EltTy.packing .bf16)
  inb_S624x256_S16x256_288_0 : ∀ a, (![288, 0] : Fin 2 → Nat) a + S16x256.size a ≤ S624x256.size a
  inb_S624x16_S16x16_288_0 : ∀ a, (![288, 0] : Fin 2 → Nat) a + S16x16.size a ≤ S624x16.size a
  inb_S256x624_S256x16_0_288 : ∀ a, (![0, 288] : Fin 2 → Nat) a + S256x16.size a ≤ S256x624.size a
  packedbf16_S256x624_S256x16_0_288 : (Rect.unit (s := S256x624) ![0, 288] S256x16.size inb_S256x624_S256x16_0_288).PackedRows (EltTy.packing .bf16)
  inb_S624x256_S16x256_304_0 : ∀ a, (![304, 0] : Fin 2 → Nat) a + S16x256.size a ≤ S624x256.size a
  inb_S624x16_S16x16_304_0 : ∀ a, (![304, 0] : Fin 2 → Nat) a + S16x16.size a ≤ S624x16.size a
  inb_S256x624_S256x16_0_304 : ∀ a, (![0, 304] : Fin 2 → Nat) a + S256x16.size a ≤ S256x624.size a
  packedbf16_S256x624_S256x16_0_304 : (Rect.unit (s := S256x624) ![0, 304] S256x16.size inb_S256x624_S256x16_0_304).PackedRows (EltTy.packing .bf16)
  inb_S624x256_S16x256_320_0 : ∀ a, (![320, 0] : Fin 2 → Nat) a + S16x256.size a ≤ S624x256.size a
  inb_S624x16_S16x16_320_0 : ∀ a, (![320, 0] : Fin 2 → Nat) a + S16x16.size a ≤ S624x16.size a
  inb_S256x624_S256x16_0_320 : ∀ a, (![0, 320] : Fin 2 → Nat) a + S256x16.size a ≤ S256x624.size a
  packedbf16_S256x624_S256x16_0_320 : (Rect.unit (s := S256x624) ![0, 320] S256x16.size inb_S256x624_S256x16_0_320).PackedRows (EltTy.packing .bf16)
  inb_S624x256_S16x256_336_0 : ∀ a, (![336, 0] : Fin 2 → Nat) a + S16x256.size a ≤ S624x256.size a
  inb_S624x16_S16x16_336_0 : ∀ a, (![336, 0] : Fin 2 → Nat) a + S16x16.size a ≤ S624x16.size a
  inb_S256x624_S256x16_0_336 : ∀ a, (![0, 336] : Fin 2 → Nat) a + S256x16.size a ≤ S256x624.size a
  packedbf16_S256x624_S256x16_0_336 : (Rect.unit (s := S256x624) ![0, 336] S256x16.size inb_S256x624_S256x16_0_336).PackedRows (EltTy.packing .bf16)
  inb_S624x256_S16x256_352_0 : ∀ a, (![352, 0] : Fin 2 → Nat) a + S16x256.size a ≤ S624x256.size a
  inb_S624x16_S16x16_352_0 : ∀ a, (![352, 0] : Fin 2 → Nat) a + S16x16.size a ≤ S624x16.size a
  inb_S256x624_S256x16_0_352 : ∀ a, (![0, 352] : Fin 2 → Nat) a + S256x16.size a ≤ S256x624.size a
  packedbf16_S256x624_S256x16_0_352 : (Rect.unit (s := S256x624) ![0, 352] S256x16.size inb_S256x624_S256x16_0_352).PackedRows (EltTy.packing .bf16)
  inb_S624x256_S16x256_368_0 : ∀ a, (![368, 0] : Fin 2 → Nat) a + S16x256.size a ≤ S624x256.size a
  inb_S624x16_S16x16_368_0 : ∀ a, (![368, 0] : Fin 2 → Nat) a + S16x16.size a ≤ S624x16.size a
  inb_S256x624_S256x16_0_368 : ∀ a, (![0, 368] : Fin 2 → Nat) a + S256x16.size a ≤ S256x624.size a
  packedbf16_S256x624_S256x16_0_368 : (Rect.unit (s := S256x624) ![0, 368] S256x16.size inb_S256x624_S256x16_0_368).PackedRows (EltTy.packing .bf16)
  inb_S624x256_S16x256_384_0 : ∀ a, (![384, 0] : Fin 2 → Nat) a + S16x256.size a ≤ S624x256.size a
  inb_S624x16_S16x16_384_0 : ∀ a, (![384, 0] : Fin 2 → Nat) a + S16x16.size a ≤ S624x16.size a
  inb_S256x624_S256x16_0_384 : ∀ a, (![0, 384] : Fin 2 → Nat) a + S256x16.size a ≤ S256x624.size a
  packedbf16_S256x624_S256x16_0_384 : (Rect.unit (s := S256x624) ![0, 384] S256x16.size inb_S256x624_S256x16_0_384).PackedRows (EltTy.packing .bf16)
  inb_S624x256_S16x256_400_0 : ∀ a, (![400, 0] : Fin 2 → Nat) a + S16x256.size a ≤ S624x256.size a
  inb_S624x16_S16x16_400_0 : ∀ a, (![400, 0] : Fin 2 → Nat) a + S16x16.size a ≤ S624x16.size a
  inb_S256x624_S256x16_0_400 : ∀ a, (![0, 400] : Fin 2 → Nat) a + S256x16.size a ≤ S256x624.size a
  packedbf16_S256x624_S256x16_0_400 : (Rect.unit (s := S256x624) ![0, 400] S256x16.size inb_S256x624_S256x16_0_400).PackedRows (EltTy.packing .bf16)
  inb_S624x256_S16x256_416_0 : ∀ a, (![416, 0] : Fin 2 → Nat) a + S16x256.size a ≤ S624x256.size a
  inb_S624x16_S16x16_416_0 : ∀ a, (![416, 0] : Fin 2 → Nat) a + S16x16.size a ≤ S624x16.size a
  inb_S256x624_S256x16_0_416 : ∀ a, (![0, 416] : Fin 2 → Nat) a + S256x16.size a ≤ S256x624.size a
  packedbf16_S256x624_S256x16_0_416 : (Rect.unit (s := S256x624) ![0, 416] S256x16.size inb_S256x624_S256x16_0_416).PackedRows (EltTy.packing .bf16)
  inb_S624x256_S16x256_432_0 : ∀ a, (![432, 0] : Fin 2 → Nat) a + S16x256.size a ≤ S624x256.size a
  inb_S624x16_S16x16_432_0 : ∀ a, (![432, 0] : Fin 2 → Nat) a + S16x16.size a ≤ S624x16.size a
  inb_S256x624_S256x16_0_432 : ∀ a, (![0, 432] : Fin 2 → Nat) a + S256x16.size a ≤ S256x624.size a
  packedbf16_S256x624_S256x16_0_432 : (Rect.unit (s := S256x624) ![0, 432] S256x16.size inb_S256x624_S256x16_0_432).PackedRows (EltTy.packing .bf16)
  inb_S624x256_S16x256_448_0 : ∀ a, (![448, 0] : Fin 2 → Nat) a + S16x256.size a ≤ S624x256.size a
  inb_S624x16_S16x16_448_0 : ∀ a, (![448, 0] : Fin 2 → Nat) a + S16x16.size a ≤ S624x16.size a
  inb_S256x624_S256x16_0_448 : ∀ a, (![0, 448] : Fin 2 → Nat) a + S256x16.size a ≤ S256x624.size a
  packedbf16_S256x624_S256x16_0_448 : (Rect.unit (s := S256x624) ![0, 448] S256x16.size inb_S256x624_S256x16_0_448).PackedRows (EltTy.packing .bf16)
  inb_S624x256_S16x256_464_0 : ∀ a, (![464, 0] : Fin 2 → Nat) a + S16x256.size a ≤ S624x256.size a
  inb_S624x16_S16x16_464_0 : ∀ a, (![464, 0] : Fin 2 → Nat) a + S16x16.size a ≤ S624x16.size a
  inb_S256x624_S256x16_0_464 : ∀ a, (![0, 464] : Fin 2 → Nat) a + S256x16.size a ≤ S256x624.size a
  packedbf16_S256x624_S256x16_0_464 : (Rect.unit (s := S256x624) ![0, 464] S256x16.size inb_S256x624_S256x16_0_464).PackedRows (EltTy.packing .bf16)
  inb_S624x256_S16x256_480_0 : ∀ a, (![480, 0] : Fin 2 → Nat) a + S16x256.size a ≤ S624x256.size a
  inb_S624x16_S16x16_480_0 : ∀ a, (![480, 0] : Fin 2 → Nat) a + S16x16.size a ≤ S624x16.size a
  inb_S256x624_S256x16_0_480 : ∀ a, (![0, 480] : Fin 2 → Nat) a + S256x16.size a ≤ S256x624.size a
  packedbf16_S256x624_S256x16_0_480 : (Rect.unit (s := S256x624) ![0, 480] S256x16.size inb_S256x624_S256x16_0_480).PackedRows (EltTy.packing .bf16)
  inb_S624x256_S16x256_496_0 : ∀ a, (![496, 0] : Fin 2 → Nat) a + S16x256.size a ≤ S624x256.size a
  inb_S624x16_S16x16_496_0 : ∀ a, (![496, 0] : Fin 2 → Nat) a + S16x16.size a ≤ S624x16.size a
  inb_S256x624_S256x16_0_496 : ∀ a, (![0, 496] : Fin 2 → Nat) a + S256x16.size a ≤ S256x624.size a
  packedbf16_S256x624_S256x16_0_496 : (Rect.unit (s := S256x624) ![0, 496] S256x16.size inb_S256x624_S256x16_0_496).PackedRows (EltTy.packing .bf16)
  inb_S624x256_S16x256_512_0 : ∀ a, (![512, 0] : Fin 2 → Nat) a + S16x256.size a ≤ S624x256.size a
  inb_S624x16_S16x16_512_0 : ∀ a, (![512, 0] : Fin 2 → Nat) a + S16x16.size a ≤ S624x16.size a
  inb_S256x624_S256x16_0_512 : ∀ a, (![0, 512] : Fin 2 → Nat) a + S256x16.size a ≤ S256x624.size a
  packedbf16_S256x624_S256x16_0_512 : (Rect.unit (s := S256x624) ![0, 512] S256x16.size inb_S256x624_S256x16_0_512).PackedRows (EltTy.packing .bf16)
  inb_S624x256_S16x256_528_0 : ∀ a, (![528, 0] : Fin 2 → Nat) a + S16x256.size a ≤ S624x256.size a
  inb_S624x16_S16x16_528_0 : ∀ a, (![528, 0] : Fin 2 → Nat) a + S16x16.size a ≤ S624x16.size a
  inb_S256x624_S256x16_0_528 : ∀ a, (![0, 528] : Fin 2 → Nat) a + S256x16.size a ≤ S256x624.size a
  packedbf16_S256x624_S256x16_0_528 : (Rect.unit (s := S256x624) ![0, 528] S256x16.size inb_S256x624_S256x16_0_528).PackedRows (EltTy.packing .bf16)
  inb_S624x256_S16x256_544_0 : ∀ a, (![544, 0] : Fin 2 → Nat) a + S16x256.size a ≤ S624x256.size a
  inb_S624x16_S16x16_544_0 : ∀ a, (![544, 0] : Fin 2 → Nat) a + S16x16.size a ≤ S624x16.size a
  inb_S256x624_S256x16_0_544 : ∀ a, (![0, 544] : Fin 2 → Nat) a + S256x16.size a ≤ S256x624.size a
  packedbf16_S256x624_S256x16_0_544 : (Rect.unit (s := S256x624) ![0, 544] S256x16.size inb_S256x624_S256x16_0_544).PackedRows (EltTy.packing .bf16)
  inb_S624x256_S16x256_560_0 : ∀ a, (![560, 0] : Fin 2 → Nat) a + S16x256.size a ≤ S624x256.size a
  inb_S624x16_S16x16_560_0 : ∀ a, (![560, 0] : Fin 2 → Nat) a + S16x16.size a ≤ S624x16.size a
  inb_S256x624_S256x16_0_560 : ∀ a, (![0, 560] : Fin 2 → Nat) a + S256x16.size a ≤ S256x624.size a
  packedbf16_S256x624_S256x16_0_560 : (Rect.unit (s := S256x624) ![0, 560] S256x16.size inb_S256x624_S256x16_0_560).PackedRows (EltTy.packing .bf16)
  inb_S624x256_S16x256_576_0 : ∀ a, (![576, 0] : Fin 2 → Nat) a + S16x256.size a ≤ S624x256.size a
  inb_S624x16_S16x16_576_0 : ∀ a, (![576, 0] : Fin 2 → Nat) a + S16x16.size a ≤ S624x16.size a
  inb_S256x624_S256x16_0_576 : ∀ a, (![0, 576] : Fin 2 → Nat) a + S256x16.size a ≤ S256x624.size a
  packedbf16_S256x624_S256x16_0_576 : (Rect.unit (s := S256x624) ![0, 576] S256x16.size inb_S256x624_S256x16_0_576).PackedRows (EltTy.packing .bf16)
  inb_S624x256_S16x256_592_0 : ∀ a, (![592, 0] : Fin 2 → Nat) a + S16x256.size a ≤ S624x256.size a
  inb_S624x16_S16x16_592_0 : ∀ a, (![592, 0] : Fin 2 → Nat) a + S16x16.size a ≤ S624x16.size a
  inb_S256x624_S256x16_0_592 : ∀ a, (![0, 592] : Fin 2 → Nat) a + S256x16.size a ≤ S256x624.size a
  packedbf16_S256x624_S256x16_0_592 : (Rect.unit (s := S256x624) ![0, 592] S256x16.size inb_S256x624_S256x16_0_592).PackedRows (EltTy.packing .bf16)
  inb_S624x256_S16x256_608_0 : ∀ a, (![608, 0] : Fin 2 → Nat) a + S16x256.size a ≤ S624x256.size a
  inb_S624x16_S16x16_608_0 : ∀ a, (![608, 0] : Fin 2 → Nat) a + S16x16.size a ≤ S624x16.size a
  inb_S256x624_S256x16_0_608 : ∀ a, (![0, 608] : Fin 2 → Nat) a + S256x16.size a ≤ S256x624.size a
  packedbf16_S256x624_S256x16_0_608 : (Rect.unit (s := S256x624) ![0, 608] S256x16.size inb_S256x624_S256x16_0_608).PackedRows (EltTy.packing .bf16)
  inb_S39x1024_S39x1024_0_0 : ∀ a, (![0, 0] : Fin 2 → Nat) a + S39x1024.size a ≤ S39x1024.size a
  h_S39x1024 : 0 < S39x1024.numel
  shapeCasts_S39x1024_S39x1024 : S39x1024.ShapeCasts S39x1024
  iota_S39x16x1024_d1_w32 : S39x16x1024.Iotas .tc 32 [1]
  shapeCasts_S39x1024_S39x1x1024 : S39x1024.ShapeCasts S39x1x1024
  broadcasts_S39x1x1024_S39x16x1024 : S39x1x1024.Broadcasts S39x16x1024
  natLt_1_32 : 1 < 32
  shapeCasts_S39x16x1024_S624x1024 : S39x16x1024.ShapeCasts S624x1024
  inb_S256x624_S256x624_0_0 : ∀ a, (![0, 0] : Fin 2 → Nat) a + S256x624.size a ≤ S256x624.size a
  h_S256x624 : 0 < S256x624.numel
  shapeCasts_S256x624_S256x624 : S256x624.ShapeCasts S256x624
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  reduces_S64x1024_S1024 : S64x1024.Reduces [0] S1024
  shapeCasts_S1024_S1x1024 : S1024.ShapeCasts S1x1024
  inb_S1x1_S1x1_0_0 : ∀ a, (![0, 0] : Fin 2 → Nat) a + S1x1.size a ≤ S1x1.size a
  h_S1x1 : 0 < S1x1.numel
  broadcasts_S1x1_S1x1024 : S1x1.Broadcasts S1x1024
  inb_S1x1024_S1x1024_0_0 : ∀ a, (![0, 0] : Fin 2 → Nat) a + S1x1024.size a ≤ S1x1024.size a
  h_S1x1024 : 0 < S1x1024.numel
  gather_S39_S624x1_S624_n_0_n_n_0_1_1_wf : GatherDims.WF S39 S624x1 S624 [] [0] [] [0] [] 1 ![1]
  gather_S507x16_S624x1_S624x16_1_0_n_n_0_1_116_wf : GatherDims.WF S507x16 S624x1 S624x16 [1] [0] [] [0] [] 1 ![1, 16]
  dot_S16x256_S16x16_S256x16_0_1_1_0_n_n_wf : DotDims.WF S16x256 S16x16 S256x16 [0] [1] [1] [0] [] []
  dot_S256x624_S624x1024_S256x1024_1_0_0_1_n_n_wf : DotDims.WF S256x624 S624x1024 S256x1024 [1] [0] [0] [1] [] []
  dot_S128x256_S256x1024_S128x1024_1_0_0_1_n_n_wf : DotDims.WF S128x256 S256x1024 S128x1024 [1] [0] [0] [1] [] []
  dot_S64x128_S128x1024_S64x1024_1_0_0_1_n_n_wf : DotDims.WF S64x128 S128x1024 S64x1024 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S39x1024.size a ≤ S39x131072.size a
  hwx1_0 : ∀ i : grid1.Coords, EltTy.bits .i32 = 32 ∨ (Rect.block (s := S39x131072) S39x1024.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x624.size a ≤ S256x624.size a
  hwx1_1 : ∀ i : grid1.Coords, EltTy.bits .bf16 = 32 ∨ (Rect.block (s := S256x624) S256x624.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S128x1.size a
  hwx1_4 : ∀ i : grid1.Coords, EltTy.bits .f32 = 32 ∨ (Rect.block (s := S128x1) S128x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x128.size a ≤ S64x128.size a
  hwx1_5 : ∀ i : grid1.Coords, EltTy.bits .f32 = 32 ∨ (Rect.block (s := S64x128) S64x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x1.size a ≤ S64x1.size a
  hwx1_7 : ∀ i : grid1.Coords, EltTy.bits .f32 = 32 ∨ (Rect.block (s := S64x1) S64x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x131072.size a
  hwx1_9 : ∀ i : grid1.Coords, EltTy.bits .f32 = 32 ∨ (Rect.block (s := S1x131072) S1x1024.size (cc1_transform_9 i) (hinb1_9 i)).WholeWords (EltTy.packing .f32)

variable [Facts₀]

def gather_S39_S624x1_S624_n_0_n_n_0_1_1 : GatherDims S39 S624x1 S624 where
  offsetDims := []
  collapsedSliceDims := [0]
  operandBatchingDims := []
  startIndicesBatchingDims := []
  startIndexMap := [0]
  indexVectorDim := 1
  sliceSizes := ![1]
  wf := gather_S39_S624x1_S624_n_0_n_n_0_1_1_wf
def gather_S507x16_S624x1_S624x16_1_0_n_n_0_1_116 : GatherDims S507x16 S624x1 S624x16 where
  offsetDims := [1]
  collapsedSliceDims := [0]
  operandBatchingDims := []
  startIndicesBatchingDims := []
  startIndexMap := [0]
  indexVectorDim := 1
  sliceSizes := ![1, 16]
  wf := gather_S507x16_S624x1_S624x16_1_0_n_n_0_1_116_wf
def dot_S16x256_S16x16_S256x16_0_1_1_0_n_n : DotDims S16x256 S16x16 S256x16 where
  lhsContracting := [0]
  rhsContracting := [1]
  lhsNonContracting := [1]
  rhsNonContracting := [0]
  lhsBatch := []
  rhsBatch := []
  wf := dot_S16x256_S16x16_S256x16_0_1_1_0_n_n_wf
def dot_S256x624_S624x1024_S256x1024_1_0_0_1_n_n : DotDims S256x624 S624x1024 S256x1024 where
  lhsContracting := [1]
  rhsContracting := [0]
  lhsNonContracting := [0]
  rhsNonContracting := [1]
  lhsBatch := []
  rhsBatch := []
  wf := dot_S256x624_S624x1024_S256x1024_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf

abbrev win0_0 : Pipeline.Window sig grid0 :=
  Pipeline.Window.whole (Memref.whole main_call0_v20) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_call0_v21) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v1) S39x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v21) S256x624.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v22) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v23) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v24) S128x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v25) S64x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v26) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S64x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_call0_v27) S1x1024.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S131072x39 : Shape := ⟨2, ![131072, 39]⟩
abbrev S507x16 : Shape := ⟨2, ![507, 16]⟩
abbrev S39 : Shape := ⟨1, ![39]⟩
abbrev S624x256 : Shape := ⟨2, ![624, 256]⟩
abbrev S1x256 : Shape := ⟨2, ![1, 256]⟩
abbrev S256x128 : Shape := ⟨2, ![256, 128]⟩
abbrev S1x128 : Shape := ⟨2, ![1, 128]⟩
abbrev S128x64 : Shape := ⟨2, ![128, 64]⟩
abbrev S1x64 : Shape := ⟨2, ![1, 64]⟩
abbrev S64x1 : Shape := ⟨2, ![64, 1]⟩
abbrev S1x1 : Shape := ⟨2, ![1, 1]⟩
abbrev S1x39 : Shape := ⟨2, ![1, 39]⟩
abbrev S39x131072 : Shape := ⟨2, ![39, 131072]⟩
abbrev S_ : Shape := ⟨0, ![]⟩
abbrev S512x16 : Shape := ⟨2, ![512, 16]⟩
abbrev S16x512 : Shape := ⟨2, ![16, 512]⟩
abbrev S256x624 : Shape := ⟨2, ![256, 624]⟩
abbrev S256x39x16 : Shape := ⟨3, ![256, 39, 16]⟩
abbrev S39x256x16 : Shape := ⟨3, ![39, 256, 16]⟩
abbrev S128x256 : Shape := ⟨2, ![128, 256]⟩
abbrev S64x128 : Shape := ⟨2, ![64, 128]⟩
abbrev S256x1 : Shape := ⟨2, ![256, 1]⟩
abbrev S128x1 : Shape := ⟨2, ![128, 1]⟩
abbrev S1x131072 : Shape := ⟨2, ![1, 131072]⟩
abbrev S131072 : Shape := ⟨1, ![131072]⟩
abbrev S131072x1 : Shape := ⟨2, ![131072, 1]⟩
abbrev S39x1024 : Shape := ⟨2, ![39, 1024]⟩
abbrev S1x1024 : Shape := ⟨2, ![1, 1024]⟩
abbrev S512x1024 : Shape := ⟨2, ![512, 1024]⟩
abbrev S256x1024 : Shape := ⟨2, ![256, 1024]⟩
abbrev S16x1024 : Shape := ⟨2, ![16, 1024]⟩
abbrev S1x256x16 : Shape := ⟨3, ![1, 256, 16]⟩
abbrev S256x16 : Shape := ⟨2, ![256, 16]⟩
abbrev S128x1024 : Shape := ⟨2, ![128, 1024]⟩
abbrev S64x1024 : Shape := ⟨2, ![64, 1024]⟩
abbrev S1024 : Shape := ⟨1, ![1024]⟩

abbrev nBuf : Space → Nat
  | .hbm => 33
  | .vmem => 13
  | .smem => 0
  | _ => 0

abbrev bufTy : (tb : Table) → Fin (tcTables nBuf tb) → BufTy
  | .hbm, ⟨0, _⟩ => ⟨S131072x39, .i32⟩
  | .hbm, ⟨1, _⟩ => ⟨S507x16, .f32⟩
  | .hbm, ⟨2, _⟩ => ⟨S39, .i32⟩
  | .hbm, ⟨3, _⟩ => ⟨S624x256, .f32⟩
  | .hbm, ⟨4, _⟩ => ⟨S1x256, .f32⟩
  | .hbm, ⟨5, _⟩ => ⟨S256x128, .f32⟩
  | .hbm, ⟨6, _⟩ => ⟨S1x128, .f32⟩
  | .hbm, ⟨7, _⟩ => ⟨S128x64, .f32⟩
  | .hbm, ⟨8, _⟩ => ⟨S1x64, .f32⟩
  | .hbm, ⟨9, _⟩ => ⟨S64x1, .f32⟩
  | .hbm, ⟨10, _⟩ => ⟨S1x1, .f32⟩
  | .hbm, ⟨11, _⟩ => ⟨S1x39, .i32⟩
  | .hbm, ⟨12, _⟩ => ⟨S131072x39, .i32⟩
  | .hbm, ⟨13, _⟩ => ⟨S131072x39, .i32⟩
  | .hbm, ⟨14, _⟩ => ⟨S39x131072, .i32⟩
  | .hbm, ⟨15, _⟩ => ⟨S_, .i32⟩
  | .hbm, ⟨16, _⟩ => ⟨S_, .i32⟩
  | .hbm, ⟨17, _⟩ => ⟨S39x131072, .i32⟩
  | .hbm, ⟨18, _⟩ => ⟨S_, .i32⟩
  | .hbm, ⟨19, _⟩ => ⟨S_, .f32⟩
  | .hbm, ⟨20, _⟩ => ⟨S512x16, .f32⟩
  | .hbm, ⟨21, _⟩ => ⟨S16x512, .f32⟩
  | .hbm, ⟨22, _⟩ => ⟨S256x624, .f32⟩
  | .hbm, ⟨23, _⟩ => ⟨S256x39x16, .f32⟩
  | .hbm, ⟨24, _⟩ => ⟨S39x256x16, .f32⟩
  | .hbm, ⟨25, _⟩ => ⟨S128x256, .f32⟩
  | .hbm, ⟨26, _⟩ => ⟨S64x128, .f32⟩
  | .hbm, ⟨27, _⟩ => ⟨S256x1, .f32⟩
  | .hbm, ⟨28, _⟩ => ⟨S128x1, .f32⟩
  | .hbm, ⟨29, _⟩ => ⟨S64x1, .f32⟩
  | .hbm, ⟨30, _⟩ => ⟨S1x131072, .f32⟩
  | .hbm, ⟨31, _⟩ => ⟨S131072, .f32⟩
  | .hbm, ⟨32, _⟩ => ⟨S131072x1, .f32⟩
  | .local _ .vmem, ⟨0, _⟩ => ⟨S39x1024, .i32⟩
  | .local _ .vmem, ⟨1, _⟩ => ⟨S39x1024, .i32⟩
  | .local _ .vmem, ⟨2, _⟩ => ⟨S16x512, .f32⟩
  | .local _ .vmem, ⟨3, _⟩ => ⟨S39x256x16, .f32⟩
  | .local _ .vmem, ⟨4, _⟩ => ⟨S256x1, .f32⟩
  | .local _ .vmem, ⟨5, _⟩ => ⟨S128x256, .f32⟩
  | .local _ .vmem, ⟨6, _⟩ => ⟨S128x1, .f32⟩
  | .local _ .vmem, ⟨7, _⟩ => ⟨S64x128, .f32⟩
  | .local _ .vmem, ⟨8, _⟩ => ⟨S64x1, .f32⟩
  | .local _ .vmem, ⟨9, _⟩ => ⟨S64x1, .f32⟩
  | .local _ .vmem, ⟨10, _⟩ => ⟨S1x1, .f32⟩
  | .local _ .vmem, ⟨11, _⟩ => ⟨S1x1024, .f32⟩
  | .local _ .vmem, ⟨12, _⟩ => ⟨S1x1024, .f32⟩
  | _, _ => ⟨S131072x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_c : Ref sig .tc := ⟨.hbm, 15, rfl⟩
abbrev main_call0_call0_v0 : Ref sig .tc := ⟨.hbm, 16, rfl⟩
abbrev main_call0_v4 : Ref sig .tc := ⟨.hbm, 17, rfl⟩
abbrev main_call0_c_0 : Ref sig .tc := ⟨.hbm, 18, rfl⟩
abbrev main_call0_call1_v0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S39x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S39x256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S39_S1x39_1 : S39.BroadcastsInDim S1x39 (![1] : Fin 1 → Fin S1x39.rank)
  bcast_S1x39_S131072x39_0_1 : S1x39.BroadcastsInDim S131072x39 (![0, 1] : Fin 2 → Fin S131072x39.rank)
  transposes_S131072x39_S39x131072_1_0 : S131072x39.Transposes [1, 0] S39x131072
  pads_S39x131072_S39x131072_000_000 : S39x131072.Pads (![0, 0] : Fin 2 → Nat) ![0, 0] ![0, 0] S39x131072
  h_S_ : 0 < S_.numel
  pads_S507x16_S512x16_050_000 : S507x16.Pads (![0, 0] : Fin 2 → Nat) ![5, 0] ![0, 0] S512x16
  transposes_S512x16_S16x512_1_0 : S512x16.Transposes [1, 0] S16x512
  transposes_S624x256_S256x624_1_0 : S624x256.Transposes [1, 0] S256x624
  shapeCasts_S256x624_S256x39x16 : S256x624.ShapeCasts S256x39x16
  transposes_S256x39x16_S39x256x16_1_0_2 : S256x39x16.Transposes [1, 0, 2] S39x256x16
  transposes_S256x128_S128x256_1_0 : S256x128.Transposes [1, 0] S128x256
  transposes_S128x64_S64x128_1_0 : S128x64.Transposes [1, 0] S64x128
  transposes_S1x256_S256x1_1_0 : S1x256.Transposes [1, 0] S256x1
  transposes_S1x128_S128x1_1_0 : S1x128.Transposes [1, 0] S128x1
  transposes_S1x64_S64x1_1_0 : S1x64.Transposes [1, 0] S64x1
  shapeCasts_S1x131072_S131072 : S1x131072.ShapeCasts S131072
  shapeCasts_S131072_S131072x1 : S131072.ShapeCasts S131072x1
  inb_S39x1024_S39x1024_0_0 : ∀ a, (![0, 0] : Fin 2 → Nat) a + S39x1024.size a ≤ S39x1024.size a
  h_S39x1024 : 0 < S39x1024.numel
  shapeCasts_S39x1024_S39x1024 : S39x1024.ShapeCasts S39x1024
  inb_S16x512_S16x512_0_0 : ∀ a, (![0, 0] : Fin 2 → Nat) a + S16x512.size a ≤ S16x512.size a
  h_S16x512 : 0 < S16x512.numel
  shapeCasts_S16x512_S16x512 : S16x512.ShapeCasts S16x512
  iota_S512x1024_d0_w32 : S512x1024.Iotas .tc 32 [0]
  slices_S39x1024_o0_0_S1x1024 : S39x1024.Slices ![0, 0] S1x1024
  broadcasts_S1x1024_S512x1024 : S1x1024.Broadcasts S512x1024
  natLt_1_32 : 1 < 32
  inb_S39x256x16_S1x256x16_0_0_0 : ∀ a, (![0, 0, 0] : Fin 3 → Nat) a + S1x256x16.size a ≤ S39x256x16.size a
  h_S1x256x16 : 0 < S1x256x16.numel
  shapeCasts_S1x256x16_S256x16 : S1x256x16.ShapeCasts S256x16
  slices_S39x1024_o1_0_S1x1024 : S39x1024.Slices ![1, 0] S1x1024
  inb_S39x256x16_S1x256x16_1_0_0 : ∀ a, (![1, 0, 0] : Fin 3 → Nat) a + S1x256x16.size a ≤ S39x256x16.size a
  slices_S39x1024_o2_0_S1x1024 : S39x1024.Slices ![2, 0] S1x1024
  inb_S39x256x16_S1x256x16_2_0_0 : ∀ a, (![2, 0, 0] : Fin 3 → Nat) a + S1x256x16.size a ≤ S39x256x16.size a
  slices_S39x1024_o3_0_S1x1024 : S39x1024.Slices ![3, 0] S1x1024
  inb_S39x256x16_S1x256x16_3_0_0 : ∀ a, (![3, 0, 0] : Fin 3 → Nat) a + S1x256x16.size a ≤ S39x256x16.size a
  slices_S39x1024_o4_0_S1x1024 : S39x1024.Slices ![4, 0] S1x1024
  inb_S39x256x16_S1x256x16_4_0_0 : ∀ a, (![4, 0, 0] : Fin 3 → Nat) a + S1x256x16.size a ≤ S39x256x16.size a
  slices_S39x1024_o5_0_S1x1024 : S39x1024.Slices ![5, 0] S1x1024
  inb_S39x256x16_S1x256x16_5_0_0 : ∀ a, (![5, 0, 0] : Fin 3 → Nat) a + S1x256x16.size a ≤ S39x256x16.size a
  slices_S39x1024_o6_0_S1x1024 : S39x1024.Slices ![6, 0] S1x1024
  inb_S39x256x16_S1x256x16_6_0_0 : ∀ a, (![6, 0, 0] : Fin 3 → Nat) a + S1x256x16.size a ≤ S39x256x16.size a
  slices_S39x1024_o7_0_S1x1024 : S39x1024.Slices ![7, 0] S1x1024
  inb_S39x256x16_S1x256x16_7_0_0 : ∀ a, (![7, 0, 0] : Fin 3 → Nat) a + S1x256x16.size a ≤ S39x256x16.size a
  slices_S39x1024_o8_0_S1x1024 : S39x1024.Slices ![8, 0] S1x1024
  inb_S39x256x16_S1x256x16_8_0_0 : ∀ a, (![8, 0, 0] : Fin 3 → Nat) a + S1x256x16.size a ≤ S39x256x16.size a
  slices_S39x1024_o9_0_S1x1024 : S39x1024.Slices ![9, 0] S1x1024
  inb_S39x256x16_S1x256x16_9_0_0 : ∀ a, (![9, 0, 0] : Fin 3 → Nat) a + S1x256x16.size a ≤ S39x256x16.size a
  slices_S39x1024_o10_0_S1x1024 : S39x1024.Slices ![10, 0] S1x1024
  inb_S39x256x16_S1x256x16_10_0_0 : ∀ a, (![10, 0, 0] : Fin 3 → Nat) a + S1x256x16.size a ≤ S39x256x16.size a
  slices_S39x1024_o11_0_S1x1024 : S39x1024.Slices ![11, 0] S1x1024
  inb_S39x256x16_S1x256x16_11_0_0 : ∀ a, (![11, 0, 0] : Fin 3 → Nat) a + S1x256x16.size a ≤ S39x256x16.size a
  slices_S39x1024_o12_0_S1x1024 : S39x1024.Slices ![12, 0] S1x1024
  inb_S39x256x16_S1x256x16_12_0_0 : ∀ a, (![12, 0, 0] : Fin 3 → Nat) a + S1x256x16.size a ≤ S39x256x16.size a
  slices_S39x1024_o13_0_S1x1024 : S39x1024.Slices ![13, 0] S1x1024
  inb_S39x256x16_S1x256x16_13_0_0 : ∀ a, (![13, 0, 0] : Fin 3 → Nat) a + S1x256x16.size a ≤ S39x256x16.size a
  slices_S39x1024_o14_0_S1x1024 : S39x1024.Slices ![14, 0] S1x1024
  inb_S39x256x16_S1x256x16_14_0_0 : ∀ a, (![14, 0, 0] : Fin 3 → Nat) a + S1x256x16.size a ≤ S39x256x16.size a
  slices_S39x1024_o15_0_S1x1024 : S39x1024.Slices ![15, 0] S1x1024
  inb_S39x256x16_S1x256x16_15_0_0 : ∀ a, (![15, 0, 0] : Fin 3 → Nat) a + S1x256x16.size a ≤ S39x256x16.size a
  slices_S39x1024_o16_0_S1x1024 : S39x1024.Slices ![16, 0] S1x1024
  inb_S39x256x16_S1x256x16_16_0_0 : ∀ a, (![16, 0, 0] : Fin 3 → Nat) a + S1x256x16.size a ≤ S39x256x16.size a
  slices_S39x1024_o17_0_S1x1024 : S39x1024.Slices ![17, 0] S1x1024
  inb_S39x256x16_S1x256x16_17_0_0 : ∀ a, (![17, 0, 0] : Fin 3 → Nat) a + S1x256x16.size a ≤ S39x256x16.size a
  slices_S39x1024_o18_0_S1x1024 : S39x1024.Slices ![18, 0] S1x1024
  inb_S39x256x16_S1x256x16_18_0_0 : ∀ a, (![18, 0, 0] : Fin 3 → Nat) a + S1x256x16.size a ≤ S39x256x16.size a
  slices_S39x1024_o19_0_S1x1024 : S39x1024.Slices ![19, 0] S1x1024
  inb_S39x256x16_S1x256x16_19_0_0 : ∀ a, (![19, 0, 0] : Fin 3 → Nat) a + S1x256x16.size a ≤ S39x256x16.size a
  slices_S39x1024_o20_0_S1x1024 : S39x1024.Slices ![20, 0] S1x1024
  inb_S39x256x16_S1x256x16_20_0_0 : ∀ a, (![20, 0, 0] : Fin 3 → Nat) a + S1x256x16.size a ≤ S39x256x16.size a
  slices_S39x1024_o21_0_S1x1024 : S39x1024.Slices ![21, 0] S1x1024
  inb_S39x256x16_S1x256x16_21_0_0 : ∀ a, (![21, 0, 0] : Fin 3 → Nat) a + S1x256x16.size a ≤ S39x256x16.size a
  slices_S39x1024_o22_0_S1x1024 : S39x1024.Slices ![22, 0] S1x1024
  inb_S39x256x16_S1x256x16_22_0_0 : ∀ a, (![22, 0, 0] : Fin 3 → Nat) a + S1x256x16.size a ≤ S39x256x16.size a
  slices_S39x1024_o23_0_S1x1024 : S39x1024.Slices ![23, 0] S1x1024
  inb_S39x256x16_S1x256x16_23_0_0 : ∀ a, (![23, 0, 0] : Fin 3 → Nat) a + S1x256x16.size a ≤ S39x256x16.size a
  slices_S39x1024_o24_0_S1x1024 : S39x1024.Slices ![24, 0] S1x1024
  inb_S39x256x16_S1x256x16_24_0_0 : ∀ a, (![24, 0, 0] : Fin 3 → Nat) a + S1x256x16.size a ≤ S39x256x16.size a
  slices_S39x1024_o25_0_S1x1024 : S39x1024.Slices ![25, 0] S1x1024
  inb_S39x256x16_S1x256x16_25_0_0 : ∀ a, (![25, 0, 0] : Fin 3 → Nat) a + S1x256x16.size a ≤ S39x256x16.size a
  slices_S39x1024_o26_0_S1x1024 : S39x1024.Slices ![26, 0] S1x1024
  inb_S39x256x16_S1x256x16_26_0_0 : ∀ a, (![26, 0, 0] : Fin 3 → Nat) a + S1x256x16.size a ≤ S39x256x16.size a
  slices_S39x1024_o27_0_S1x1024 : S39x1024.Slices ![27, 0] S1x1024
  inb_S39x256x16_S1x256x16_27_0_0 : ∀ a, (![27, 0, 0] : Fin 3 → Nat) a + S1x256x16.size a ≤ S39x256x16.size a
  slices_S39x1024_o28_0_S1x1024 : S39x1024.Slices ![28, 0] S1x1024
  inb_S39x256x16_S1x256x16_28_0_0 : ∀ a, (![28, 0, 0] : Fin 3 → Nat) a + S1x256x16.size a ≤ S39x256x16.size a
  slices_S39x1024_o29_0_S1x1024 : S39x1024.Slices ![29, 0] S1x1024
  inb_S39x256x16_S1x256x16_29_0_0 : ∀ a, (![29, 0, 0] : Fin 3 → Nat) a + S1x256x16.size a ≤ S39x256x16.size a
  slices_S39x1024_o30_0_S1x1024 : S39x1024.Slices ![30, 0] S1x1024
  inb_S39x256x16_S1x256x16_30_0_0 : ∀ a, (![30, 0, 0] : Fin 3 → Nat) a + S1x256x16.size a ≤ S39x256x16.size a
  slices_S39x1024_o31_0_S1x1024 : S39x1024.Slices ![31, 0] S1x1024
  inb_S39x256x16_S1x256x16_31_0_0 : ∀ a, (![31, 0, 0] : Fin 3 → Nat) a + S1x256x16.size a ≤ S39x256x16.size a
  slices_S39x1024_o32_0_S1x1024 : S39x1024.Slices ![32, 0] S1x1024
  inb_S39x256x16_S1x256x16_32_0_0 : ∀ a, (![32, 0, 0] : Fin 3 → Nat) a + S1x256x16.size a ≤ S39x256x16.size a
  slices_S39x1024_o33_0_S1x1024 : S39x1024.Slices ![33, 0] S1x1024
  inb_S39x256x16_S1x256x16_33_0_0 : ∀ a, (![33, 0, 0] : Fin 3 → Nat) a + S1x256x16.size a ≤ S39x256x16.size a
  slices_S39x1024_o34_0_S1x1024 : S39x1024.Slices ![34, 0] S1x1024
  inb_S39x256x16_S1x256x16_34_0_0 : ∀ a, (![34, 0, 0] : Fin 3 → Nat) a + S1x256x16.size a ≤ S39x256x16.size a
  slices_S39x1024_o35_0_S1x1024 : S39x1024.Slices ![35, 0] S1x1024
  inb_S39x256x16_S1x256x16_35_0_0 : ∀ a, (![35, 0, 0] : Fin 3 → Nat) a + S1x256x16.size a ≤ S39x256x16.size a
  slices_S39x1024_o36_0_S1x1024 : S39x1024.Slices ![36, 0] S1x1024
  inb_S39x256x16_S1x256x16_36_0_0 : ∀ a, (![36, 0, 0] : Fin 3 → Nat) a + S1x256x16.size a ≤ S39x256x16.size a
  slices_S39x1024_o37_0_S1x1024 : S39x1024.Slices ![37, 0] S1x1024
  inb_S39x256x16_S1x256x16_37_0_0 : ∀ a, (![37, 0, 0] : Fin 3 → Nat) a + S1x256x16.size a ≤ S39x256x16.size a
  slices_S39x1024_o38_0_S1x1024 : S39x1024.Slices ![38, 0] S1x1024
  inb_S39x256x16_S1x256x16_38_0_0 : ∀ a, (![38, 0, 0] : Fin 3 → Nat) a + S1x256x16.size a ≤ S39x256x16.size a
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1024 : S128x1.Broadcasts S128x1024
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  reduces_S64x1024_S1024 : S64x1024.Reduces [0] S1024
  shapeCasts_S1024_S1x1024 : S1024.ShapeCasts S1x1024
  inb_S1x1_S1x1_0_0 : ∀ a, (![0, 0] : Fin 2 → Nat) a + S1x1.size a ≤ S1x1.size a
  h_S1x1 : 0 < S1x1.numel
  broadcasts_S1x1_S1x1024 : S1x1.Broadcasts S1x1024
  inb_S1x1024_S1x1024_0_0 : ∀ a, (![0, 0] : Fin 2 → Nat) a + S1x1024.size a ≤ S1x1024.size a
  h_S1x1024 : 0 < S1x1024.numel
  dot_S16x512_S512x1024_S16x1024_1_0_0_1_n_n_wf : DotDims.WF S16x512 S512x1024 S16x1024 [1] [0] [0] [1] [] []
  dot_S256x16_S16x1024_S256x1024_1_0_0_1_n_n_wf : DotDims.WF S256x16 S16x1024 S256x1024 [1] [0] [0] [1] [] []
  dot_S128x256_S256x1024_S128x1024_1_0_0_1_n_n_wf : DotDims.WF S128x256 S256x1024 S128x1024 [1] [0] [0] [1] [] []
  dot_S64x128_S128x1024_S64x1024_1_0_0_1_n_n_wf : DotDims.WF S64x128 S128x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S39x1024.size a ≤ S39x131072.size a
  hwx0_0 : ∀ i : grid0.Coords, EltTy.bits .i32 = 32 ∨ (Rect.block (s := S39x131072) S39x1024.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S39x256x16.size a ≤ S39x256x16.size a
  hwx0_2 : ∀ i : grid0.Coords, EltTy.bits .f32 = 32 ∨ (Rect.block (s := S39x256x16) S39x256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x131072.size a
  hwx0_10 : ∀ i : grid0.Coords, EltTy.bits .f32 = 32 ∨ (Rect.block (s := S1x131072) S1x1024.size (cc0_transform_10 i) (hinb0_10 i)).WholeWords (EltTy.packing .f32)

variable [Facts₀]

def dot_S16x512_S512x1024_S16x1024_1_0_0_1_n_n : DotDims S16x512 S512x1024 S16x1024 where
  lhsContracting := [1]
  rhsContracting := [0]
  lhsNonContracting := [0]
  rhsNonContracting := [1]
  lhsBatch := []
  rhsBatch := []
  wf := dot_S16x512_S512x1024_S16x1024_1_0_0_1_n_n_wf
def dot_S256x16_S16x1024_S256x1024_1_0_0_1_n_n : DotDims S256x16 S16x1024 S256x1024 where
  lhsContracting := [1]
  rhsContracting := [0]
  lhsNonContracting := [0]
  rhsNonContracting := [1]
  lhsBatch := []
  rhsBatch := []
  wf := dot_S256x16_S16x1024_S256x1024_1_0_0_1_n_n_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf
def dot_S64x128_S128x1024_S64x1024_1_0_0_1_n_n : DotDims S64x128 S128x1024 S64x1024 where
  lhsContracting := [1]
  rhsContracting := [0]
  lhsNonContracting := [0]
  rhsNonContracting := [1]
  lhsBatch := []
  rhsBatch := []
  wf := dot_S64x128_S128x1024_S64x1024_1_0_0_1_n_n_wf

abbrev win0_0 : Pipeline.Window sig grid0 :=
  Pipeline.Window.ofSpec (Memref.whole main_call0_v4) S39x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S16x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S39x256x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v12) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v10) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v13) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v11) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v14) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v15) S1x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== Proof.KRun.lean ====
/-
  The idealized kernel's run with its result named: every weakly fair execution of @main from a memory with zero
  counters terminates, and in every final state the result buffer holds what the last stretch of host operations
  leaves there (the fold of @main's five segments from the launch memory, read at the result), while the eleven
  argument arrays are as launched.
-/
import proofs.«142501_g2000002412256652_pallasbulk_1227_4_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its five segments (host operations, the table region, host operations, the network region,
    host operations), the last thread state read against the final state at every unscoped buffer: the result buffer at
    the fold's value, each argument walked back to the launch memory. -/
theorem run_named : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.RunValue

end
-- ==== Proof.KBlocks.lean ====
/-
  Region 1 of the idealized kernel (the network on column blocks of 1024 batch rows), read as values at the buffer
  contents the region is entered with.

  The grid has 128 points. Point t reads columns 1024 t … 1024 t + 1023 of the [39, 131072] index array and the eight
  resident arrays whole (the table, the three transposed biases, the two transposed weight matrices, the last layer's
  column and its bias), and writes columns 1024 t … 1024 t + 1023 of the [1, 131072] result row: one store of the
  body's arithmetic applied to those blocks. So the result row after the run is, at column b, entry b % 1024 of the
  body's arithmetic on block b / 1024.
-/
import proofs.«142501_g2000002412256652_pallasbulk_1227_4_alg».proof.Proof.Gen.KernelIdeal.Frame
import Idealize.ShloMosaic.Lib.Pipeline.Value
import Idealize.ShloMosaic.Lib.ValueIdx

set_option maxRecDepth 16384

noncomputable section

namespace Cert.KernelIdeal.BlockValue

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Columns 1024 t … 1024 t + 1023 of the index array. -/
def idxBlk (A : S39x131072.Idx → Elt F .i32) (t : Fin 128) : Vec F S39x1024 .i32 :=
  fun y => A (ix2 (⟨(y 0).val, (y 0).isLt⟩ : Fin 39) (⟨1024 * t.val + (y 1).val, by have : (y 1).val < 1024 := (y 1).isLt; omega⟩ : Fin 131072))

/-- The output block of point t: the body's arithmetic on the point's blocks. -/
def outBlk (A0 : S39x131072.Idx → Elt F .i32) (A1 : Vec F S256x624 .bf16) (A2 : Vec F S256x1 .f32) (A3 : Vec F S128x256 .f32)
    (A4 : Vec F S128x1 .f32) (A5 : Vec F S64x128 .f32) (A6 : Vec F S64x1 .f32) (A7 : Vec F S64x1 .f32) (A8 : Vec F S1x1 .f32)
    (t : Fin 128) : Vec F S1x1024 .f32 :=
  k1_pay1 (k1_pay2 (idxBlk A0 t) A1 A2 A3 A4 A5 A6) A7 A8

/-- The result row: column b is entry b % 1024 of block b / 1024. -/
def row (B : Fin 128 → Vec F S1x1024 .f32) : S1x131072.Idx → Elt F .f32 :=
  fun i => B ⟨(i 1).val / 1024, by have : (i 1).val < 131072 := (i 1).isLt; omega⟩ (ix2 (0 : Fin 1) (⟨(i 1).val % 1024, Nat.mod_lt _ (by norm_num)⟩ : Fin 1024))

/-- The printed index maps over the grid: the index array's and the result row's blocks move along axis 1 with the
    point, every other window stays at block (0, 0). -/
theorem idx_facts : ∀ t : Fin cfg1.N, win1_0.index t (0 : Fin 2) = 0 ∧ win1_0.index t (1 : Fin 2) = t.val
    ∧ win1_9.index t (0 : Fin 2) = 0 ∧ win1_9.index t (1 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem tlt (t : Fin cfg1.N) : t.val < 128 := by have h1 := t.isLt; have h2 : cfg1.N = 128 := N_1; omega

/-- The index window's block at point t is columns 1024 t … of its array. -/
theorem iblk_idx (c : Dev nD) (t : Fin cfg1.N) :
    (iblk1 V c 0 t : Vec F S39x1024 .i32) = idxBlk (V c main_call0_v1) ⟨t.val, tlt t⟩ := by
  obtain ⟨e0, e1, -⟩ := idx_facts t
  funext y
  unfold iblk1 idxBlk
  rw [View.read_apply]
  show V c main_call0_v1 _ = V c main_call0_v1 _
  congr 1
  funext a
  apply Fin.ext
  match a with
  | ⟨0, _⟩ => show win1_0.index t (0 : Fin 2) * 39 + 1 * (y 0).val = (y 0).val; rw [e0]; omega
  | ⟨1, _⟩ => show win1_0.index t (1 : Fin 2) * 1024 + 1 * (y 1).val = 1024 * t.val + (y 1).val; rw [e1]; omega

/-- Window 1 is resident: its block at every point is its whole array. -/
theorem iblk_res1 (c : Dev nD) (t : Fin cfg1.N) : (iblk1 V c 1 t : Vec F S256x624 .bf16) = V c main_call0_v21 := by
  have hf := idx_facts t
  have e0 : win1_1.index t (0 : Fin 2) = 0 := by tauto
  have e1 : win1_1.index t (1 : Fin 2) = 0 := by tauto
  funext y
  unfold iblk1
  rw [View.read_apply]
  show V c main_call0_v21 _ = V c main_call0_v21 y
  congr 1
  funext a
  apply Fin.ext
  match a with
  | ⟨0, _⟩ => show win1_1.index t (0 : Fin 2) * 256 + 1 * (y 0).val = (y 0).val; rw [e0]; omega
  | ⟨1, _⟩ => show win1_1.index t (1 : Fin 2) * 624 + 1 * (y 1).val = (y 1).val; rw [e1]; omega

/-- Window 2 is resident: its block at every point is its whole array. -/
theorem iblk_res2 (c : Dev nD) (t : Fin cfg1.N) : (iblk1 V c 2 t : Vec F S256x1 .f32) = V c main_call0_v22 := by
  have hf := idx_facts t
  have e0 : win1_2.index t (0 : Fin 2) = 0 := by tauto
  have e1 : win1_2.index t (1 : Fin 2) = 0 := by tauto
  funext y
  unfold iblk1
  rw [View.read_apply]
  show V c main_call0_v22 _ = V c main_call0_v22 y
  congr 1
  funext a
  apply Fin.ext
  match a with
  | ⟨0, _⟩ => show win1_2.index t (0 : Fin 2) * 256 + 1 * (y 0).val = (y 0).val; rw [e0]; omega
  | ⟨1, _⟩ => show win1_2.index t (1 : Fin 2) * 1 + 1 * (y 1).val = (y 1).val; rw [e1]; omega

/-- Window 3 is resident: its block at every point is its whole array. -/
theorem iblk_res3 (c : Dev nD) (t : Fin cfg1.N) : (iblk1 V c 3 t : Vec F S128x256 .f32) = V c main_call0_v23 := by
  have hf := idx_facts t
  have e0 : win1_3.index t (0 : Fin 2) = 0 := by tauto
  have e1 : win1_3.index t (1 : Fin 2) = 0 := by tauto
  funext y
  unfold iblk1
  rw [View.read_apply]
  show V c main_call0_v23 _ = V c main_call0_v23 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 256 + 1 * (y 1).val = (y 1).val; rw [e1]; omega

/-- Window 4 is resident: its block at every point is its whole array. -/
theorem iblk_res4 (c : Dev nD) (t : Fin cfg1.N) : (iblk1 V c 4 t : Vec F S128x1 .f32) = V c main_call0_v24 := by
  have hf := idx_facts t
  have e0 : win1_4.index t (0 : Fin 2) = 0 := by tauto
  have e1 : win1_4.index t (1 : Fin 2) = 0 := by tauto
  funext y
  unfold iblk1
  rw [View.read_apply]
  show V c main_call0_v24 _ = V c main_call0_v24 y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 1 + 1 * (y 1).val = (y 1).val; rw [e1]; omega

/-- Window 5 is resident: its block at every point is its whole array. -/
theorem iblk_res5 (c : Dev nD) (t : Fin cfg1.N) : (iblk1 V c 5 t : Vec F S64x128 .f32) = V c main_call0_v25 := by
  have hf := idx_facts t
  have e0 : win1_5.index t (0 : Fin 2) = 0 := by tauto
  have e1 : win1_5.index t (1 : Fin 2) = 0 := by tauto
  funext y
  unfold iblk1
  rw [View.read_apply]
  show V c main_call0_v25 _ = V c main_call0_v25 y
  congr 1
  funext a
  apply Fin.ext
  match a with
  | ⟨0, _⟩ => show win1_5.index t (0 : Fin 2) * 64 + 1 * (y 0).val = (y 0).val; rw [e0]; omega
  | ⟨1, _⟩ => show win1_5.index t (1 : Fin 2) * 128 + 1 * (y 1).val = (y 1).val; rw [e1]; omega

/-- Window 6 is resident: its block at every point is its whole array. -/
theorem iblk_res6 (c : Dev nD) (t : Fin cfg1.N) : (iblk1 V c 6 t : Vec F S64x1 .f32) = V c main_call0_v26 := by
  have hf := idx_facts t
  have e0 : win1_6.index t (0 : Fin 2) = 0 := by tauto
  have e1 : win1_6.index t (1 : Fin 2) = 0 := by tauto
  funext y
  unfold iblk1
  rw [View.read_apply]
  show V c main_call0_v26 _ = V c main_call0_v26 y
  congr 1
  funext a
  apply Fin.ext
  match a with
  | ⟨0, _⟩ => show win1_6.index t (0 : Fin 2) * 64 + 1 * (y 0).val = (y 0).val; rw [e0]; omega
  | ⟨1, _⟩ => show win1_6.index t (1 : Fin 2) * 1 + 1 * (y 1).val = (y 1).val; rw [e1]; omega

/-- Window 7 is resident: its block at every point is its whole array. -/
theorem iblk_res7 (c : Dev nD) (t : Fin cfg1.N) : (iblk1 V c 7 t : Vec F S64x1 .f32) = V c main_arg9 := by
  have hf := idx_facts t
  have e0 : win1_7.index t (0 : Fin 2) = 0 := by tauto
  have e1 : win1_7.index t (1 : Fin 2) = 0 := by tauto
  funext y
  unfold iblk1
  rw [View.read_apply]
  show V c main_arg9 _ = V c main_arg9 y
  congr 1
  funext a
  apply Fin.ext
  match a with
  | ⟨0, _⟩ => show win1_7.index t (0 : Fin 2) * 64 + 1 * (y 0).val = (y 0).val; rw [e0]; omega
  | ⟨1, _⟩ => show win1_7.index t (1 : Fin 2) * 1 + 1 * (y 1).val = (y 1).val; rw [e1]; omega

/-- Window 8 is resident: its block at every point is its whole array. -/
theorem iblk_res8 (c : Dev nD) (t : Fin cfg1.N) : (iblk1 V c 8 t : Vec F S1x1 .f32) = V c main_arg10 := by
  have hf := idx_facts t
  have e0 : win1_8.index t (0 : Fin 2) = 0 := by tauto
  have e1 : win1_8.index t (1 : Fin 2) = 0 := by tauto
  funext y
  unfold iblk1
  rw [View.read_apply]
  show V c main_arg10 _ = V c main_arg10 y
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 1 + 1 * (y 1).val = (y 1).val; rw [e1]; omega

/-- The result row of region 1 as a function of the arrays the region finds. -/
def arr9 (c : Dev nD) : S1x131072.Idx → Elt F .f32 :=
  row fun t => outBlk (V c main_call0_v1) (V c main_call0_v21) (V c main_call0_v22) (V c main_call0_v23) (V c main_call0_v24)
    (V c main_call0_v25) (V c main_call0_v26) (V c main_arg9) (V c main_arg10) t

/-- What point t writes back is block t of the result row. -/
theorem flushed_eq (c : Dev nD) (t : Fin cfg1.N) :
    (dat1 V c).flushed 9 t = ((cfg1.win 9).blk t).view.read (Elt F) (arr9 V c) := by
  show (cfg1.win 9).cut (grid1.coords t) ((dat1 V c).after 9 t) = _
  rw [after1_9]
  unfold out1_9
  rw [View.canon_unit_zero hz]
  simp only [View.ld_unit_zero (S := S39x1024) hz, View.ld_unit_zero (S := S256x624) hz, View.ld_unit_zero (S := S256x1) hz,
    View.ld_unit_zero (S := S128x256) hz, View.ld_unit_zero (S := S128x1) hz, View.ld_unit_zero (S := S64x128) hz,
    View.ld_unit_zero (S := S64x1) hz, View.ld_unit_zero (S := S1x1) hz]
  rw [iblk_idx V c t, iblk_res1 V c t, iblk_res2 V c t, iblk_res3 V c t, iblk_res4 V c t, iblk_res5 V c t, iblk_res6 V c t,
    iblk_res7 V c t, iblk_res8 V c t]
  obtain ⟨-, -, e0, e1, -⟩ := idx_facts t
  funext j
  rw [View.read_apply]
  have hj0 : (j 0).val = 0 := by have : (j 0).val < 1 := (j 0).isLt; omega
  have hj1 : (j 1).val < 1024 := (j 1).isLt
  have ht := tlt t
  have hemb : ((((cfg1.win 9).blk t).view.emb j) 1).val = 1024 * t.val + (j 1).val := by
    show win1_9.index t (1 : Fin 2) * 1024 + 1 * (j 1).val = _
    rw [e1]; omega
  unfold arr9 row
  dsimp only
  have hq : (⟨((((cfg1.win 9).blk t).view.emb j) 1).val / 1024, by rw [hemb]; omega⟩ : Fin 128) = ⟨t.val, ht⟩ :=
    Fin.ext (by show ((((cfg1.win 9).blk t).view.emb j) 1).val / 1024 = t.val; rw [hemb]; omega)
  have hr : (ix2 (0 : Fin 1) (⟨((((cfg1.win 9).blk t).view.emb j) 1).val % 1024, Nat.mod_lt _ (by norm_num)⟩ : Fin 1024) : S1x1024.Idx) = j := by
    funext a
    apply Fin.ext
    match a with
    | ⟨0, _⟩ => show (0 : Nat) = (j 0).val; omega
    | ⟨1, _⟩ => show ((((cfg1.win 9).blk t).view.emb j) 1).val % 1024 = (j 1).val; rw [hemb]; omega
  rw [hq, hr]
  rfl

/-- An index of the result row is in point t's block iff each coordinate is in the block's range. -/
theorem mem_blk (t : Fin cfg1.N) (i : S1x131072.Idx) :
    i ∈ ((cfg1.win 9).blk t).view.set ↔ ∀ a : Fin 2, win1_9.index t a * S1x1024.size a ≤ (i a).val ∧ (i a).val < win1_9.index t a * S1x1024.size a + S1x1024.size a := by
  show i ∈ ((View.whole main_call0_v27).slice (win1_9.rect t)).set ↔ _
  rw [View.set_slice_whole, Rect.mem_set_unit]
  exact Iff.rfl

/-- Every point of the grid is some block's index along axis 1. -/
theorem idx_onto : ∀ q : Fin 128, ∃ t : Fin cfg1.N, win1_9.index t = ![0, q.val] :=
  (by decide +kernel : ∀ q : Fin 128, ∃ t : Fin grid1.N, win1_9.index t = ![0, q.val])

/-- The result row after the region: the blocks tile it, so it is the function of the entry arrays everywhere. -/
theorem arrAt9 (c : Dev nD) : (dat1 V c).arrAt 9 cfg1.N = arr9 V c :=
  (dat1 V c).arrAt_eq_of_cover 9 (arr9 V c) (fun t _ => flushed_eq V c t) fun i => by
    have hi0 : (i 0).val < 1 := (i 0).isLt
    have hi1 : (i 1).val < 131072 := (i 1).isLt
    obtain ⟨t, ht⟩ := idx_onto ⟨(i 1).val / 1024, by omega⟩
    have q0 : win1_9.index t (0 : Fin 2) = 0 := congrFun ht 0
    have q1 : win1_9.index t (1 : Fin 2) = (i 1).val / 1024 := congrFun ht 1
    refine ⟨t, flush1_9 t, ?_⟩
    rw [mem_blk]
    intro a
    match a with
    | ⟨0, _⟩ => show win1_9.index t (0 : Fin 2) * 1 ≤ (i 0).val ∧ (i 0).val < win1_9.index t (0 : Fin 2) * 1 + 1; omega
    | ⟨1, _⟩ => show win1_9.index t (1 : Fin 2) * 1024 ≤ (i 1).val ∧ (i 1).val < win1_9.index t (1 : Fin 2) * 1024 + 1024; omega

end Cert.KernelIdeal.BlockValue

end
-- ==== Proof.Spec.lean ====
/-
  The mathematics both programs compute, stated once over plain arrays.

  A row b of the batch carries 39 categorical values x(b, f). Layer 1 of the network, before the bias, is
      h1(b)(h) = Σ_f Σ_d W1(16 f + d, h) · E(x(b, f) + off(f), d),
  the embedding rows of the 39 fields pushed through the first weight matrix. The two programs reach it differently:
  one multiplies a per-(field, category) table T(h, 16 f + v) = Σ_d W1(16 f + d, h) · E(row(16 f + v), d) against a
  624-wide indicator of (field, local category); the other multiplies, field by field, the zero-padded transposed
  embedding table against a 512-wide indicator of the global row x + off and then the field's 16 × 256 slice of W1.
  Both work on column blocks of 1024 batch rows (128 blocks); the layers after the first are the same function of
  the block in both programs and are never opened here.
-/
import Idealize.ShloMosaic.PureOps.Ideal
import Idealize.ShloMosaic.Lib.ValueIdx

noncomputable section

namespace Cert.Spec

open Idealize.ShloMosaic Idealize.ShloMosaic.ValueIdx

/-- The indicator of a decidable proposition as an extended real. -/
def hot (p : Prop) [Decidable p] : EReal := if p then 1 else 0

/-- A matrix read transposed. -/
def tr {α : Type} {a b : Nat} (M : (⟨2, ![a, b]⟩ : Shape).Idx → α) : (⟨2, ![b, a]⟩ : Shape).Idx → α :=
  fun i => M (ix2 (i 1) (i 0))

/-- Batch row `1024 t + j` of block `t`. -/
def brow (t : Fin 128) (j : Fin 1024) : Fin 131072 := ⟨1024 * t.val + j.val, by omega⟩

/-- Column `16 f + d` of the 624 = 39 · 16 layer-1 inputs. -/
def fcol (f : Fin 39) (d : Fin 16) : Fin 624 := ⟨16 * f.val + d.val, by omega⟩

/-- The per-(field, category) table: entry (h, c), c = 16 f + v, is Σ_d W1(16 f + d, h) · e2(c, d), where e2 is the
    embedding table re-laid one 16-row window per field. -/
def tableOf (e2 : (⟨2, ![624, 16]⟩ : Shape).Idx → EReal) (W1 : (⟨2, ![624, 256]⟩ : Shape).Idx → EReal) :
    (⟨2, ![256, 624]⟩ : Shape).Idx → EReal :=
  fun i => ∑ d : Fin 16, W1 (ix2 (fcol ⟨(i 1).val / 16, by have : (i 1).val < 624 := (i 1).isLt; omega⟩ d) (i 0)) * e2 (ix2 (i 1) d)

/-- Layer 1 (before the bias) of block `t`, the table form: entry (h, j) is Σ_c T(h, c) · [x(1024 t + j, c / 16) = c % 16]. -/
def layer1K (X : (⟨2, ![131072, 39]⟩ : Shape).Idx → BitVec 32) (T : (⟨2, ![256, 624]⟩ : Shape).Idx → EReal) (t : Fin 128) :
    (⟨2, ![256, 1024]⟩ : Shape).Idx → EReal :=
  fun i => ∑ c : Fin 624, T (ix2 (i 0) c) *
    hot (X (ix2 (brow t (i 1)) ⟨c.val / 16, by have := c.isLt; omega⟩) = BitVec.ofNat 32 (c.val % 16))

/-- The embedding table transposed and zero-padded from 507 to 512 rows: entry (d, u). -/
def padE (E : (⟨2, ![507, 16]⟩ : Shape).Idx → EReal) (d : Fin 16) (u : Fin 512) : EReal :=
  if h : u.val < 507 then E (ix2 ⟨u.val, h⟩ d) else 0

/-- Layer 1 (before the bias) of block `t`, the field-by-field form: entry (h, j) is
    Σ_f Σ_d W1(16 f + d, h) · Σ_u padE(d, u) · [u = x(1024 t + j, f) + off(f)] (the sum of words wraps as the machine's does). -/
def layer1R (X : (⟨2, ![131072, 39]⟩ : Shape).Idx → BitVec 32) (E : (⟨2, ![507, 16]⟩ : Shape).Idx → EReal)
    (O : (⟨1, ![39]⟩ : Shape).Idx → BitVec 32) (W1 : (⟨2, ![624, 256]⟩ : Shape).Idx → EReal) (t : Fin 128) :
    (⟨2, ![256, 1024]⟩ : Shape).Idx → EReal :=
  fun i => ∑ f : Fin 39, ∑ d : Fin 16, W1 (ix2 (fcol f d) (i 0)) *
    ∑ u : Fin 512, padE E d u * hot (BitVec.ofNat 32 u.val = X (ix2 (brow t (i 1)) f) + O (ix1 f))

/-- The result array [131072, 1] assembled from the 128 output blocks [1, 1024]: row b is entry b % 1024 of block b / 1024. -/
def resultOf (B : Fin 128 → (⟨2, ![1, 1024]⟩ : Shape).Idx → EReal) : (⟨2, ![131072, 1]⟩ : Shape).Idx → EReal :=
  fun i => B ⟨(i 0).val / 1024, by have : (i 0).val < 131072 := (i 0).isLt; omega⟩ (ix2 0 ⟨(i 0).val % 1024, Nat.mod_lt _ (by norm_num)⟩)

end Cert.Spec

end
-- ==== Proof.KTail.lean ====
/-
  The idealized kernel's result array, from the network region's result row.

  After the network region the host reshapes the [1, 131072] result row to [131072] and then to [131072, 1]: entry (b, 0) of
  the result is column b of the row, which the region left at entry b % 1024 of the output block of point b / 1024.
-/
import proofs.«142501_g2000002412256652_pallasbulk_1227_4_alg».proof.Proof.KBlocks
import proofs.«142501_g2000002412256652_pallasbulk_1227_4_alg».proof.Proof.Spec
import Idealize.ShloMosaic.Lib.StableHlo.Run

set_option maxRecDepth 16384

noncomputable section

namespace Cert.KernelIdeal.TailValue

open Cert.KernelIdeal Cert.KernelIdeal.Gen Cert.KernelIdeal.BlockValue
open Idealize.ShloMosaic Idealize.ShloMosaic.TcCoe Idealize.SL.Sem Idealize.ShloMosaic.ValueIdx Idealize.ShloMosaic.StableHlo

section AnyF
variable {F : FTy → Type} [FloatOps F]
variable (m : (ℓ : Loc nD τ sig) → Buf (Elt F) ℓ) (ρ : Dev nD → PrngReg)

/-- The two reshapes read at an index: entry (b, 0) of the result is column b of the result row. -/
theorem tail_eq (c : Dev nD) :
    (W5 m ρ c (Proc.devRef .tc main_v0) : S131072x1.Idx → Elt F .f32)
      = fun i => (W4 m ρ c (Proc.devRef .tc main_call0_v27) : S1x131072.Idx → Elt F .f32) (ix2 (0 : Fin 1) (⟨(i 0).val, (i 0).isLt⟩ : Fin 131072)) := by
  have e : (W5 m ρ c (Proc.devRef .tc main_v0) : S131072x1.Idx → Elt F .f32)
      = shapeCast S131072x1 (shapeCast S131072 (W4 m ρ c (Proc.devRef .tc main_call0_v27) : S1x131072.Idx → Elt F .f32) shapeCasts_S1x131072_S131072) shapeCasts_S131072_S131072x1 := by
    show StableHlo.after hostOps2 (W4 m ρ c) (Proc.devRef .tc main_v0) = _
    after_results
    rfl
  rw [e]
  funext i
  have hi0 : (i 0).val < 131072 := (i 0).isLt
  have hi1 : (i 1).val < 1 := (i 1).isLt
  refine (shapeCast_apply _ _ i (ix1 (⟨(i 0).val, hi0⟩ : Fin 131072)) ?_).trans
    (shapeCast_apply _ _ (ix1 (⟨(i 0).val, hi0⟩ : Fin 131072)) (ix2 (0 : Fin 1) (⟨(i 0).val, hi0⟩ : Fin 131072)) ?_)
  · rw [Shape.rowMajor_val_one, Shape.rowMajor_val_two]
    show (i 0).val = (i 0).val * 1 + (i 1).val
    omega
  · rw [Shape.rowMajor_val_one, Shape.rowMajor_val_two]
    show (0 : Nat) * 131072 + (i 0).val = (i 0).val
    omega

end AnyF

variable (m : (ℓ : Loc nD τ sig) → Buf (Elt Ideal) ℓ) (ρ : Dev nD → PrngReg)

/-- The result array is assembled from the 128 output blocks of the network region, each the body's arithmetic on what
    the region found in its windows' arrays. -/
theorem result_blocks (c : Dev nD) :
    (W5 m ρ c (Proc.devRef .tc main_v0) : S131072x1.Idx → EReal)
      = Cert.Spec.resultOf fun t => outBlk (F := Ideal) (V3 m ρ c main_call0_v1) (V3 m ρ c main_call0_v21) (V3 m ρ c main_call0_v22)
          (V3 m ρ c main_call0_v23) (V3 m ρ c main_call0_v24) (V3 m ρ c main_call0_v25) (V3 m ρ c main_call0_v26)
          (V3 m ρ c main_arg9) (V3 m ρ c main_arg10) t := by
  rw [tail_eq m ρ c]
  have e : (W4 m ρ c (Proc.devRef .tc main_call0_v27) : S1x131072.Idx → EReal) = arr9 (V3 m ρ) c :=
    (W4_arr m ρ c 9).trans (arrAt9 (V3 m ρ) c)
  rw [e]
  rfl

end Cert.KernelIdeal.TailValue

end
-- ==== Proof.KEntry.lean ====
/-
  What region 1 of the idealized kernel finds in its windows' arrays when it is entered, as functions of the launch memory.

  Between the table region and the network region the host transposes the three biases and the two weight matrices; nothing
  else is written. So the network region finds: the index array and the last layer's column and bias as the first stretch
  of host operations left them, the table as the table region left it, and each transposed array as the transpose of what
  the first stretch left in its source.
-/
import proofs.«142501_g2000002412256652_pallasbulk_1227_4_alg».proof.Proof.Gen.KernelIdeal.Frame
import proofs.«142501_g2000002412256652_pallasbulk_1227_4_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.EntryValue

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable {F : FTy → Type} [FloatOps F]
variable (m : (ℓ : Loc nD τ sig) → Buf (Elt F) ℓ) (ρ : Dev nD → PrngReg)

/-- The index array passes through the table region and the transposes untouched. -/
theorem entry_idx (c : Dev nD) : V3 m ρ c main_call0_v1 = V1 m ρ c main_call0_v1 := by
  have e : V3 m ρ c main_call0_v1 = W2 m ρ c (Proc.devRef .tc main_call0_v1) := by
    show StableHlo.after hostOps1 (W2 m ρ c) (Proc.devRef .tc main_call0_v1) = _
    after_results
  rw [e]
  exact W2_of_ne m ρ c main_call0_v1 (by decide)

/-- The last layer's column passes through untouched. -/
theorem entry_w4 (c : Dev nD) : V3 m ρ c main_arg9 = V1 m ρ c main_arg9 := by
  have e : V3 m ρ c main_arg9 = W2 m ρ c (Proc.devRef .tc main_arg9) := by
    show StableHlo.after hostOps1 (W2 m ρ c) (Proc.devRef .tc main_arg9) = _
    after_results
  rw [e]
  exact W2_of_ne m ρ c main_arg9 (by decide)

/-- The last layer's bias passes through untouched. -/
theorem entry_b4 (c : Dev nD) : V3 m ρ c main_arg10 = V1 m ρ c main_arg10 := by
  have e : V3 m ρ c main_arg10 = W2 m ρ c (Proc.devRef .tc main_arg10) := by
    show StableHlo.after hostOps1 (W2 m ρ c) (Proc.devRef .tc main_arg10) = _
    after_results
  rw [e]
  exact W2_of_ne m ρ c main_arg10 (by decide)

/-- The table is what the table region left in its output array. -/
theorem entry_table (c : Dev nD) : V3 m ρ c main_call0_v21 = (dat0 (V1 m ρ) c).arrAt 2 cfg0.N := by
  have e : V3 m ρ c main_call0_v21 = W2 m ρ c (Proc.devRef .tc main_call0_v21) := by
    show StableHlo.after hostOps1 (W2 m ρ c) (Proc.devRef .tc main_call0_v21) = _
    after_results
  rw [e]
  exact W2_arr m ρ c 2

/-- The first bias, transposed to a column. -/
theorem entry_b1 (c : Dev nD) :
    (V3 m ρ c main_call0_v22 : S256x1.Idx → Elt F .f32) = Cert.Spec.tr (a := 1) (b := 256) (V1 m ρ c main_arg4 : S1x256.Idx → Elt F .f32) := by
  have e : (V3 m ρ c main_call0_v22 : S256x1.Idx → Elt F .f32)
      = transpose S256x1 [1, 0] (W2 m ρ c (Proc.devRef .tc main_arg4) : S1x256.Idx → Elt F .f32) transposes_S1x256_S256x1_1_0 := by
    show StableHlo.after hostOps1 (W2 m ρ c) (Proc.devRef .tc main_call0_v22) = _
    after_results
    rfl
  rw [e, W2_of_ne m ρ c main_arg4 (by decide)]
  funext j
  refine transpose_apply _ _ _ j (ix2 (j 1) (j 0)) fun b => ?_
  match b with
  | ⟨0, _⟩ => rfl
  | ⟨1, _⟩ => rfl

/-- The second layer's weights, transposed. -/
theorem entry_w2 (c : Dev nD) :
    (V3 m ρ c main_call0_v23 : S128x256.Idx → Elt F .f32) = Cert.Spec.tr (a := 256) (b := 128) (V1 m ρ c main_arg5 : S256x128.Idx → Elt F .f32) := by
  have e : (V3 m ρ c main_call0_v23 : S128x256.Idx → Elt F .f32)
      = transpose S128x256 [1, 0] (W2 m ρ c (Proc.devRef .tc main_arg5) : S256x128.Idx → Elt F .f32) transposes_S256x128_S128x256_1_0 := by
    show StableHlo.after hostOps1 (W2 m ρ c) (Proc.devRef .tc main_call0_v23) = _
    after_results
    rfl
  rw [e, W2_of_ne m ρ c main_arg5 (by decide)]
  funext j
  refine transpose_apply _ _ _ j (ix2 (j 1) (j 0)) fun b => ?_
  match b with
  | ⟨0, _⟩ => rfl
  | ⟨1, _⟩ => rfl

/-- The second bias, transposed to a column. -/
theorem entry_b2 (c : Dev nD) :
    (V3 m ρ c main_call0_v24 : S128x1.Idx → Elt F .f32) = Cert.Spec.tr (a := 1) (b := 128) (V1 m ρ c main_arg6 : S1x128.Idx → Elt F .f32) := by
  have e : (V3 m ρ c main_call0_v24 : S128x1.Idx → Elt F .f32)
      = transpose S128x1 [1, 0] (W2 m ρ c (Proc.devRef .tc main_arg6) : S1x128.Idx → Elt F .f32) transposes_S1x128_S128x1_1_0 := by
    show StableHlo.after hostOps1 (W2 m ρ c) (Proc.devRef .tc main_call0_v24) = _
    after_results
    rfl
  rw [e, W2_of_ne m ρ c main_arg6 (by decide)]
  funext j
  refine transpose_apply _ _ _ j (ix2 (j 1) (j 0)) fun b => ?_
  match b with
  | ⟨0, _⟩ => rfl
  | ⟨1, _⟩ => rfl

/-- The third layer's weights, transposed. -/
theorem entry_w3 (c : Dev nD) :
    (V3 m ρ c main_call0_v25 : S64x128.Idx → Elt F .f32) = Cert.Spec.tr (a := 128) (b := 64) (V1 m ρ c main_arg7 : S128x64.Idx → Elt F .f32) := by
  have e : (V3 m ρ c main_call0_v25 : S64x128.Idx → Elt F .f32)
      = transpose S64x128 [1, 0] (W2 m ρ c (Proc.devRef .tc main_arg7) : S128x64.Idx → Elt F .f32) transposes_S128x64_S64x128_1_0 := by
    show StableHlo.after hostOps1 (W2 m ρ c) (Proc.devRef .tc main_call0_v25) = _
    after_results
    rfl
  rw [e, W2_of_ne m ρ c main_arg7 (by decide)]
  funext j
  refine transpose_apply _ _ _ j (ix2 (j 1) (j 0)) fun b => ?_
  match b with
  | ⟨0, _⟩ => rfl
  | ⟨1, _⟩ => rfl

/-- The third bias, transposed to a column. -/
theorem entry_b3 (c : Dev nD) :
    (V3 m ρ c main_call0_v26 : S64x1.Idx → Elt F .f32) = Cert.Spec.tr (a := 1) (b := 64) (V1 m ρ c main_arg8 : S1x64.Idx → Elt F .f32) := by
  have e : (V3 m ρ c main_call0_v26 : S64x1.Idx → Elt F .f32)
      = transpose S64x1 [1, 0] (W2 m ρ c (Proc.devRef .tc main_arg8) : S1x64.Idx → Elt F .f32) transposes_S1x64_S64x1_1_0 := by
    show StableHlo.after hostOps1 (W2 m ρ c) (Proc.devRef .tc main_call0_v26) = _
    after_results
    rfl
  rw [e, W2_of_ne m ρ c main_arg8 (by decide)]
  funext j
  refine transpose_apply _ _ _ j (ix2 (j 1) (j 0)) fun b => ?_
  match b with
  | ⟨0, _⟩ => rfl
  | ⟨1, _⟩ => rfl

end Cert.KernelIdeal.EntryValue

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.KLayer1.lean ====
/-
  The kernel's layer-1 block. The first twelve operations of the network kernel's body build, from the [39, 1024] block
  of categorical values and the [256, 624] block of the table, the [256, 1024] block of layer 1 before the bias: a
  624-row indicator matrix (row 16 f + v, column j is 1 exactly when x(f, j) = v) multiplied by the table. The rest of
  the body is, operation for operation, the reference's tail applied to that block.
-/
import proofs.«142501_g2000002412256652_pallasbulk_1227_4_alg».proof.Proof.Gen.KernelIdeal.Skeleton
import proofs.«142501_g2000002412256652_pallasbulk_1227_4_alg».proof.Proof.Gen.ReferenceIdeal.Skeleton
import proofs.«142501_g2000002412256652_pallasbulk_1227_4_alg».proof.Proof.Spec
import proofs.«142501_g2000002412256652_pallasbulk_1227_4_alg».proof.Proof.LibMatmulPlain
import Idealize.ShloMosaic.Lib.ValueIdx
import Idealize.ShloMosaic.Lib.Affine
import Idealize.ShloMosaic.Lib.Pipeline.Value
import Idealize.ShloMosaic.PureOps.Ideal.Laws

noncomputable section

namespace Cert.KernelIdeal.Layer1Value

open Idealize.ShloMosaic Idealize.ShloMosaic.ValueIdx
open Cert.KernelIdeal Cert.KernelIdeal.Gen

/-- Layer 1 before the bias, as the kernel's body computes it from the block of categorical values and the block of the
    table: the indicator of (field, local category) against the value, re-laid as 624 rows, under the table. -/
def L1 {F : FTy → Type} [FloatOps F] (v0 : Vec F S39x1024 .i32) (v10 : Vec F S256x624 .bf16) : FVec F S256x1024 .f32 :=
  have v1 : IVec S39x1024 32 := shapeCast S39x1024 v0 shapeCasts_S39x1024_S39x1024
  have v2 : IVec S39x16x1024 32 := iota .tc S39x16x1024 32 [1] iota_S39x16x1024_d1_w32
  have v3 : IVec S39x1x1024 32 := shapeCast S39x1x1024 v1 shapeCasts_S39x1024_S39x1x1024
  have v4 : IVec S39x16x1024 32 := broadcastTo S39x16x1024 v3 broadcasts_S39x1x1024_S39x16x1024
  have v5 : IVec S39x16x1024 1 := cmpi .eq v4 v2
  have v6 : IVec S39x16x1024 32 := extui 32 v5 natLt_1_32
  have v7 : FVec F S39x16x1024 .f32 := sitofp .f32 v6
  have v8 : FVec F S39x16x1024 .bf16 := truncf .bf16 v7 bitsLt_bf16_f32
  have v9 : FVec F S624x1024 .bf16 := shapeCast S624x1024 v8 shapeCasts_S39x16x1024_S624x1024
  have v11 : FVec F S256x624 .bf16 := shapeCast S256x624 v10 shapeCasts_S256x624_S256x624
  have cst : FVec F S256x1024 .f32 := constant S256x1024 .f32 0x00000000#32
  have v12 : FVec F S256x1024 .f32 := matmul dot_S256x624_S624x1024_S256x1024_1_0_0_1_n_n none v11 v9 cst
  v12

/-- The kernel's body is the reference's tail applied to the kernel's layer-1 block. -/
theorem pay_split {F : FTy → Type} [FloatOps F] (v0 : Vec F S39x1024 .i32) (v10 : Vec F S256x624 .bf16) (v13 : Vec F S256x1 .f32) (v19 : Vec F S128x256 .f32)
    (v22 : Vec F S128x1 .f32) (v28 : Vec F S64x128 .f32) (v31 : Vec F S64x1 .f32) (v37 : Vec F S64x1 .f32) (v42 : Vec F S1x1 .f32) :
    k1_pay1 (F := F) (k1_pay2 v0 v10 v13 v19 v22 v28 v31) v37 v42
      = Cert.ReferenceIdeal.Gen.k0_pay22 (F := F) (L1 v0 v10) v13 v19 v22 v28 v31 v37 v42 := by
  unfold k1_pay1 k1_pay2 Cert.ReferenceIdeal.Gen.k0_pay22 L1
  rfl

/-- A one-bit word that is not 1 is 0. -/
theorem bit_eq_zero : ∀ c : BitVec 1, c ≠ 1#1 → c = 0#1 := by decide

/-- The comparison bit of two words, widened to 32 bits and converted to a real, is the indicator of their equality. -/
theorem bit_real (a b : BitVec 32) :
    ((((IntOp.cmpi .eq a b).setWidth 32).toInt : ℝ) : EReal) = Cert.Spec.hot (a = b) := by
  unfold Cert.Spec.hot
  by_cases h : a = b
  · rw [if_pos h, IntOp.cmpi_eq.2 h]
    have e : ((1#1 : BitVec 1).setWidth 32).toInt = 1 := by decide
    rw [e]; norm_num
  · rw [if_neg h, bit_eq_zero _ (mt IntOp.cmpi_eq.1 h)]
    have e : ((0#1 : BitVec 1).setWidth 32).toInt = 0 := by decide
    rw [e]; norm_num

/-- Entry (f, v, j) of the indicator: 1 exactly when the categorical value x(f, j) is the local category v. The value
    block [39, 1024] is viewed [39, 1, 1024] and copied along the middle axis; the iota counts that axis. -/
theorem onehot_apply (v0 : Vec Ideal S39x1024 .i32) (f : Fin 39) (v : Fin 16) (j : Fin 1024) :
    (truncf .bf16 (sitofp .f32 (extui 32 (cmpi .eq
        (broadcastTo S39x16x1024 (shapeCast S39x1x1024 v0 shapeCasts_S39x1024_S39x1x1024) broadcasts_S39x1x1024_S39x16x1024)
        (iota .tc S39x16x1024 32 [1] iota_S39x16x1024_d1_w32)) natLt_1_32)) bitsLt_bf16_f32 : FVec Ideal S39x16x1024 .bf16) (ix3 f v j)
      = Cert.Spec.hot (v0 (ix2 f j) = BitVec.ofNat 32 v.val) := by
  show ((((IntOp.cmpi .eq
      (broadcastTo S39x16x1024 (shapeCast S39x1x1024 v0 shapeCasts_S39x1024_S39x1x1024) broadcasts_S39x1x1024_S39x16x1024 (ix3 f v j))
      (iota .tc S39x16x1024 32 [1] iota_S39x16x1024_d1_w32 (ix3 f v j))).setWidth 32).toInt : ℝ) : EReal) = _
  rw [bit_real, iota_single_apply]
  rw [broadcastTo_apply _ _ (ix3 f v j) (ix3 f (0 : Fin 1) j) (fun a => match a with | ⟨0, _⟩ => rfl | ⟨1, _⟩ => rfl | ⟨2, _⟩ => rfl)]
  rw [shapeCast_apply _ _ (ix3 f (0 : Fin 1) j) (ix2 f j) (by
    rw [Shape.rowMajor_val_two, Shape.rowMajor_val_three]
    show f.val * 1024 + j.val = (f.val * 1 + 0) * 1024 + j.val
    omega)]

/-- Entry (h, j) of the kernel's layer-1 block: the table's row h against the indicator column of batch column j. -/
theorem L1_apply (v0 : Vec Ideal S39x1024 .i32) (v10 : Vec Ideal S256x624 .bf16) (h : Fin 256) (j : Fin 1024) :
    L1 (F := Ideal) v0 v10 (ValueIdx.ix2 h j) = ∑ c : Fin 624, v10 (ValueIdx.ix2 h c) *
      Cert.Spec.hot (v0 (ValueIdx.ix2 (⟨c.val / 16, by have := c.isLt; omega⟩ : Fin 39) j) = BitVec.ofNat 32 (c.val % 16)) := by
  unfold L1
  dsimp only
  rw [shapeCast_self v10, shapeCast_self v0]
  refine (Cert.Lib.matmul_plain_zero_apply 256 624 1024 none v10 _ h j).trans ?_
  refine Finset.sum_congr rfl fun c _ => ?_
  congr 1
  have hc := c.isLt
  refine (shapeCast_apply _ _ (ix2 c j) (ix3 (⟨c.val / 16, by omega⟩ : Fin 39) (⟨c.val % 16, Nat.mod_lt _ (by norm_num)⟩ : Fin 16) j) ?_).trans ?_
  · rw [Shape.rowMajor_val_two, Shape.rowMajor_val_three]
    show (c.val / 16 * 16 + c.val % 16) * 1024 + j.val = c.val * 1024 + j.val
    omega
  · exact onehot_apply v0 _ _ j

end Cert.KernelIdeal.Layer1Value

end
-- ==== Proof.TabPiece.lean ====
/-
  One 256 × 16 column block of the table.

  The kernel body builds the table 16 columns at a time: for field f it multiplies rows 16 f … 16 f + 15 of the first
  weight matrix (a 16 × 256 slice, contracted along its rows) against rows 16 f … 16 f + 15 of the re-laid embedding
  table (a 16 × 16 slice, contracted along its columns), starting from zero, and stores the 256 × 16 product at columns
  16 f … 16 f + 15. Entry (h, v) of the product is Σ_d W1(16 f + d, h) · e2(16 f + v, d), which is entry (h, 16 f + v)
  of the table of the specification. This module reads one such product at an index.
-/
import proofs.«142501_g2000002412256652_pallasbulk_1227_4_alg».proof.Proof.Spec
import proofs.«142501_g2000002412256652_pallasbulk_1227_4_alg».proof.Proof.Gen.KernelIdeal.Frame
import Idealize.ShloMosaic.Lib.Pipeline.Value
import Idealize.ShloMosaic.PureOps.Ideal.Laws

noncomputable section

namespace Cert.KernelIdeal.TableValue

open Idealize.ShloMosaic Idealize.ShloMosaic.ValueIdx
open Cert.KernelIdeal Cert.KernelIdeal.Gen

/-- The dimension numbers of the block product: axis 0 of the weight slice against axis 1 of the embedding slice. -/
abbrev D := dot_S16x256_S16x16_S256x16_0_1_1_0_n_n

theorem lhs_0 (j : S256x16.Idx) (k : D.contr.Idx) : (D.lhsIdx j k 0 : ℕ) = k ⟨0, by decide⟩ := by
  simp [DotDims.lhsIdx, D, dot_S16x256_S16x16_S256x16_0_1_1_0_n_n]; rfl
theorem lhs_1 (j : S256x16.Idx) (k : D.contr.Idx) : (D.lhsIdx j k 1 : ℕ) = j 0 := by
  simp [DotDims.lhsIdx, D, dot_S16x256_S16x16_S256x16_0_1_1_0_n_n]; rfl
theorem rhs_0 (j : S256x16.Idx) (k : D.contr.Idx) : (D.rhsIdx j k 0 : ℕ) = j 1 := by
  simp [DotDims.rhsIdx, D, dot_S16x256_S16x16_S256x16_0_1_1_0_n_n]; rfl
theorem rhs_1 (j : S256x16.Idx) (k : D.contr.Idx) : (D.rhsIdx j k 1 : ℕ) = k ⟨0, by decide⟩ := by
  simp [DotDims.rhsIdx, D, dot_S16x256_S16x16_S256x16_0_1_1_0_n_n]; rfl

/-- The block product as the body writes it: the embedding slice recast to its own shape, the product into zeros,
    the result narrowed (the identity on extended reals). -/
def pay (w : Vec Ideal S16x256 .f32) (e : Vec Ideal S16x16 .f32) : FVec Ideal S256x16 .bf16 :=
  have e' : FVec Ideal S16x16 .f32 := shapeCast S16x16 e shapeCasts_S16x16_S16x16
  have z : FVec Ideal S256x16 .f32 := constant S256x16 .f32 0x00000000#32
  have p : FVec Ideal S256x16 .f32 := matmul (φ₁ := .f32) (φ₂ := .f32) D none w e' z
  truncf .bf16 p bitsLt_bf16_f32

/-- Entry (h, v) of the block product is Σ_d w(d, h) · e(v, d). -/
theorem pay_apply (w : Vec Ideal S16x256 .f32) (e : Vec Ideal S16x16 .f32) (h : Fin 256) (v : Fin 16) :
    pay w e (ix2 h v) = ∑ d : Fin 16, w (ix2 d h) * e (ix2 v d) := by
  unfold pay
  rw [truncf_apply, shapeCast_self]
  refine (Ideal.matmul_constant_zero_apply D none (φ₁ := .f32) (φ₂ := .f32) w e (ix2 h v)).trans ?_
  rw [← Equiv.sum_comp (contrEquiv1 D 16 rfl rfl).symm]
  refine Finset.sum_congr rfl fun d _ => ?_
  congr 2
  · funext a; apply Fin.ext
    match a with
    | ⟨0, _⟩ => exact (lhs_0 _ _).trans (contrEquiv1_symm_val D 16 rfl rfl d)
    | ⟨1, _⟩ => exact lhs_1 _ _
  · funext a; apply Fin.ext
    match a with
    | ⟨0, _⟩ => exact rhs_0 _ _
    | ⟨1, _⟩ => exact (rhs_1 _ _).trans (contrEquiv1_symm_val D 16 rfl rfl d)

end Cert.KernelIdeal.TableValue

end
-- ==== Proof.TabCanon.lean ====
/-
  The 39 column blocks are one table.

  Block f of the body's stores is the 256 × 16 product of the specification's table restricted to columns
  16 f … 16 f + 15: its weight slice is rows 16 f … 16 f + 15 of W1, its embedding slice rows 16 f … 16 f + 15 of e2,
  and column 16 f + v lies in field (16 f + v) / 16 = f. The blocks tile the 624 columns, so the buffer the stores
  leave reads, at every index, as the table.
-/
import proofs.«142501_g2000002412256652_pallasbulk_1227_4_alg».proof.Proof.Spec
import proofs.«142501_g2000002412256652_pallasbulk_1227_4_alg».proof.Proof.Gen.KernelIdeal.Frame
import proofs.«142501_g2000002412256652_pallasbulk_1227_4_alg».proof.Proof.TabPiece

noncomputable section

namespace Cert.KernelIdeal.TableValue

open Idealize.ShloMosaic Idealize.ShloMosaic.ValueIdx
open Cert.KernelIdeal Cert.KernelIdeal.Gen

/-- Block f, read at a local index, is the table at the index the block's rectangle sends it to. The offset o is
    16 f; the three in-bounds facts are whatever the rectangles carry. -/
theorem piece_apply (x0 : Vec Ideal S624x16 .f32) (x1 : Vec Ideal S624x256 .f32) (f : Fin 39) (o : Nat) (ho : o = 16 * f.val)
    (hw : ∀ a, (![o, 0] : Fin 2 → Nat) a + S16x256.size a ≤ S624x256.size a)
    (he : ∀ a, (![o, 0] : Fin 2 → Nat) a + S16x16.size a ≤ S624x16.size a)
    (hs : ∀ a, (![0, o] : Fin 2 → Nat) a + S256x16.size a ≤ S256x624.size a) (x : S256x16.Idx) :
    pay (View.ld x1 (Rect.unit (s := S624x256) ![o, 0] S16x256.size hw)) (View.ld x0 (Rect.unit (s := S624x16) ![o, 0] S16x16.size he)) x
      = Cert.Spec.tableOf x0 x1 ((Rect.unit (s := S256x624) ![0, o] S256x16.size hs).emb x) := by
  obtain ⟨h, v, rfl⟩ : ∃ (h : Fin 256) (v : Fin 16), x = ix2 h v := ⟨x 0, x 1, eq_ix2 x⟩
  rw [pay_apply]
  unfold Cert.Spec.tableOf
  refine Finset.sum_congr rfl fun d _ => ?_
  have hv := v.isLt
  have hd := d.isLt
  have hf := f.isLt
  refine congrArg₂ (· * ·) (congrArg x1 ?_) (congrArg x0 ?_)
  · funext a; apply Fin.ext
    match a with
    | ⟨0, _⟩ => show o + 1 * d.val = 16 * ((o + 1 * v.val) / 16) + d.val; omega
    | ⟨1, _⟩ => show 0 + 1 * h.val = 0 + 1 * h.val; rfl
  · funext a; apply Fin.ext
    match a with
    | ⟨0, _⟩ => show o + 1 * v.val = o + 1 * v.val; rfl
    | ⟨1, _⟩ => show 0 + 1 * d.val = d.val; omega

/-- No piece: nothing to check. -/
theorem pieces_nil {S : Shape} {e : EltTy} (G : S.Idx → Elt Ideal e) :
    ∀ p ∈ ([] : List (View.Piece (Elt Ideal) S e)), ∀ x : p.1.shape.Idx, p.2 x = G (p.1.emb x) :=
  fun _ hp => absurd hp List.not_mem_nil

/-- One more piece that is a block of G. -/
theorem pieces_cons {S : Shape} {e : EltTy} {G : S.Idx → Elt Ideal e} (r : Rect S) (w : r.shape.Idx → Elt Ideal e)
    {L : List (View.Piece (Elt Ideal) S e)} (h : ∀ x, w x = G (r.emb x))
    (hL : ∀ p ∈ L, ∀ x : p.1.shape.Idx, p.2 x = G (p.1.emb x)) :
    ∀ p ∈ ((⟨r, w⟩ : View.Piece (Elt Ideal) S e) :: L), ∀ x : p.1.shape.Idx, p.2 x = G (p.1.emb x) :=
  List.forall_mem_cons.mpr ⟨h, hL⟩

end Cert.KernelIdeal.TableValue

end
-- ==== Proof.TabRows.lean ====
/-
  The table of the body's 39 stores. Store f (f = 0 … 38) writes, at columns 16 f … 16 f + 15, the block product of
  weight rows 16 f … 16 f + 15 and embedding rows 16 f … 16 f + 15; each row below is the block lemma at that f.
-/
import proofs.«142501_g2000002412256652_pallasbulk_1227_4_alg».proof.Proof.TabCanon

noncomputable section

namespace Cert.KernelIdeal.TableValue

open Idealize.ShloMosaic Idealize.ShloMosaic.ValueIdx
open Cert.KernelIdeal Cert.KernelIdeal.Gen

variable (x0 : Vec Ideal S624x16 .f32) (x1 : Vec Ideal S624x256 .f32)

theorem row_0 (x : S256x16.Idx) : k0_pay2 (View.ld x1 r0_0) (View.ld x0 r0_1) x = Cert.Spec.tableOf x0 x1 (r0_2.emb x) :=
  piece_apply x0 x1 ⟨0, by decide⟩ 0 rfl _ _ _ x
theorem row_1 (x : S256x16.Idx) : k0_pay3 (View.ld x1 r0_3) (View.ld x0 r0_4) x = Cert.Spec.tableOf x0 x1 (r0_5.emb x) :=
  piece_apply x0 x1 ⟨1, by decide⟩ 16 rfl _ _ _ x
theorem row_2 (x : S256x16.Idx) : k0_pay4 (View.ld x1 r0_6) (View.ld x0 r0_7) x = Cert.Spec.tableOf x0 x1 (r0_8.emb x) :=
  piece_apply x0 x1 ⟨2, by decide⟩ 32 rfl _ _ _ x
theorem row_3 (x : S256x16.Idx) : k0_pay5 (View.ld x1 r0_9) (View.ld x0 r0_10) x = Cert.Spec.tableOf x0 x1 (r0_11.emb x) :=
  piece_apply x0 x1 ⟨3, by decide⟩ 48 rfl _ _ _ x
theorem row_4 (x : S256x16.Idx) : k0_pay6 (View.ld x1 r0_12) (View.ld x0 r0_13) x = Cert.Spec.tableOf x0 x1 (r0_14.emb x) :=
  piece_apply x0 x1 ⟨4, by decide⟩ 64 rfl _ _ _ x
theorem row_5 (x : S256x16.Idx) : k0_pay7 (View.ld x1 r0_15) (View.ld x0 r0_16) x = Cert.Spec.tableOf x0 x1 (r0_17.emb x) :=
  piece_apply x0 x1 ⟨5, by decide⟩ 80 rfl _ _ _ x
theorem row_6 (x : S256x16.Idx) : k0_pay8 (View.ld x1 r0_18) (View.ld x0 r0_19) x = Cert.Spec.tableOf x0 x1 (r0_20.emb x) :=
  piece_apply x0 x1 ⟨6, by decide⟩ 96 rfl _ _ _ x
theorem row_7 (x : S256x16.Idx) : k0_pay9 (View.ld x1 r0_21) (View.ld x0 r0_22) x = Cert.Spec.tableOf x0 x1 (r0_23.emb x) :=
  piece_apply x0 x1 ⟨7, by decide⟩ 112 rfl _ _ _ x
theorem row_8 (x : S256x16.Idx) : k0_pay11 (View.ld x1 r0_24) (k0_pay10 (View.ld x0 r0_25)) (constant S256x16 .f32 0x00000000#32) x = Cert.Spec.tableOf x0 x1 (r0_26.emb x) :=
  piece_apply x0 x1 ⟨8, by decide⟩ 128 rfl _ _ _ x
theorem row_9 (x : S256x16.Idx) : k0_pay12 (View.ld x1 r0_27) (View.ld x0 r0_28) x = Cert.Spec.tableOf x0 x1 (r0_29.emb x) :=
  piece_apply x0 x1 ⟨9, by decide⟩ 144 rfl _ _ _ x
theorem row_10 (x : S256x16.Idx) : k0_pay13 (View.ld x1 r0_30) (View.ld x0 r0_31) x = Cert.Spec.tableOf x0 x1 (r0_32.emb x) :=
  piece_apply x0 x1 ⟨10, by decide⟩ 160 rfl _ _ _ x
theorem row_11 (x : S256x16.Idx) : k0_pay14 (View.ld x1 r0_33) (View.ld x0 r0_34) x = Cert.Spec.tableOf x0 x1 (r0_35.emb x) :=
  piece_apply x0 x1 ⟨11, by decide⟩ 176 rfl _ _ _ x
theorem row_12 (x : S256x16.Idx) : k0_pay15 (View.ld x1 r0_36) (View.ld x0 r0_37) x = Cert.Spec.tableOf x0 x1 (r0_38.emb x) :=
  piece_apply x0 x1 ⟨12, by decide⟩ 192 rfl _ _ _ x
theorem row_13 (x : S256x16.Idx) : k0_pay16 (View.ld x1 r0_39) (View.ld x0 r0_40) x = Cert.Spec.tableOf x0 x1 (r0_41.emb x) :=
  piece_apply x0 x1 ⟨13, by decide⟩ 208 rfl _ _ _ x
theorem row_14 (x : S256x16.Idx) : k0_pay17 (View.ld x1 r0_42) (View.ld x0 r0_43) x = Cert.Spec.tableOf x0 x1 (r0_44.emb x) :=
  piece_apply x0 x1 ⟨14, by decide⟩ 224 rfl _ _ _ x
theorem row_15 (x : S256x16.Idx) : k0_pay18 (View.ld x1 r0_45) (View.ld x0 r0_46) x = Cert.Spec.tableOf x0 x1 (r0_47.emb x) :=
  piece_apply x0 x1 ⟨15, by decide⟩ 240 rfl _ _ _ x
theorem row_16 (x : S256x16.Idx) : k0_pay19 (View.ld x1 r0_48) (View.ld x0 r0_49) x = Cert.Spec.tableOf x0 x1 (r0_50.emb x) :=
  piece_apply x0 x1 ⟨16, by decide⟩ 256 rfl _ _ _ x
theorem row_17 (x : S256x16.Idx) : k0_pay20 (View.ld x1 r0_51) (View.ld x0 r0_52) x = Cert.Spec.tableOf x0 x1 (r0_53.emb x) :=
  piece_apply x0 x1 ⟨17, by decide⟩ 272 rfl _ _ _ x
theorem row_18 (x : S256x16.Idx) : k0_pay21 (View.ld x1 r0_54) (View.ld x0 r0_55) x = Cert.Spec.tableOf x0 x1 (r0_56.emb x) :=
  piece_apply x0 x1 ⟨18, by decide⟩ 288 rfl _ _ _ x
theorem row_19 (x : S256x16.Idx) : k0_pay22 (View.ld x1 r0_57) (View.ld x0 r0_58) x = Cert.Spec.tableOf x0 x1 (r0_59.emb x) :=
  piece_apply x0 x1 ⟨19, by decide⟩ 304 rfl _ _ _ x
theorem row_20 (x : S256x16.Idx) : k0_pay23 (View.ld x1 r0_60) (View.ld x0 r0_61) x = Cert.Spec.tableOf x0 x1 (r0_62.emb x) :=
  piece_apply x0 x1 ⟨20, by decide⟩ 320 rfl _ _ _ x
theorem row_21 (x : S256x16.Idx) : k0_pay24 (View.ld x1 r0_63) (View.ld x0 r0_64) x = Cert.Spec.tableOf x0 x1 (r0_65.emb x) :=
  piece_apply x0 x1 ⟨21, by decide⟩ 336 rfl _ _ _ x
theorem row_22 (x : S256x16.Idx) : k0_pay25 (View.ld x1 r0_66) (View.ld x0 r0_67) x = Cert.Spec.tableOf x0 x1 (r0_68.emb x) :=
  piece_apply x0 x1 ⟨22, by decide⟩ 352 rfl _ _ _ x
theorem row_23 (x : S256x16.Idx) : k0_pay26 (View.ld x1 r0_69) (View.ld x0 r0_70) x = Cert.Spec.tableOf x0 x1 (r0_71.emb x) :=
  piece_apply x0 x1 ⟨23, by decide⟩ 368 rfl _ _ _ x
theorem row_24 (x : S256x16.Idx) : k0_pay27 (View.ld x1 r0_72) (View.ld x0 r0_73) x = Cert.Spec.tableOf x0 x1 (r0_74.emb x) :=
  piece_apply x0 x1 ⟨24, by decide⟩ 384 rfl _ _ _ x
theorem row_25 (x : S256x16.Idx) : k0_pay28 (View.ld x1 r0_75) (View.ld x0 r0_76) x = Cert.Spec.tableOf x0 x1 (r0_77.emb x) :=
  piece_apply x0 x1 ⟨25, by decide⟩ 400 rfl _ _ _ x
theorem row_26 (x : S256x16.Idx) : k0_pay29 (View.ld x1 r0_78) (View.ld x0 r0_79) x = Cert.Spec.tableOf x0 x1 (r0_80.emb x) :=
  piece_apply x0 x1 ⟨26, by decide⟩ 416 rfl _ _ _ x
theorem row_27 (x : S256x16.Idx) : k0_pay30 (View.ld x1 r0_81) (View.ld x0 r0_82) x = Cert.Spec.tableOf x0 x1 (r0_83.emb x) :=
  piece_apply x0 x1 ⟨27, by decide⟩ 432 rfl _ _ _ x
theorem row_28 (x : S256x16.Idx) : k0_pay31 (View.ld x1 r0_84) (View.ld x0 r0_85) x = Cert.Spec.tableOf x0 x1 (r0_86.emb x) :=
  piece_apply x0 x1 ⟨28, by decide⟩ 448 rfl _ _ _ x
theorem row_29 (x : S256x16.Idx) : k0_pay32 (View.ld x1 r0_87) (View.ld x0 r0_88) x = Cert.Spec.tableOf x0 x1 (r0_89.emb x) :=
  piece_apply x0 x1 ⟨29, by decide⟩ 464 rfl _ _ _ x
theorem row_30 (x : S256x16.Idx) : k0_pay33 (View.ld x1 r0_90) (View.ld x0 r0_91) x = Cert.Spec.tableOf x0 x1 (r0_92.emb x) :=
  piece_apply x0 x1 ⟨30, by decide⟩ 480 rfl _ _ _ x
theorem row_31 (x : S256x16.Idx) : k0_pay34 (View.ld x1 r0_93) (View.ld x0 r0_94) x = Cert.Spec.tableOf x0 x1 (r0_95.emb x) :=
  piece_apply x0 x1 ⟨31, by decide⟩ 496 rfl _ _ _ x
theorem row_32 (x : S256x16.Idx) : k0_pay35 (View.ld x1 r0_96) (View.ld x0 r0_97) x = Cert.Spec.tableOf x0 x1 (r0_98.emb x) :=
  piece_apply x0 x1 ⟨32, by decide⟩ 512 rfl _ _ _ x
theorem row_33 (x : S256x16.Idx) : k0_pay36 (View.ld x1 r0_99) (View.ld x0 r0_100) x = Cert.Spec.tableOf x0 x1 (r0_101.emb x) :=
  piece_apply x0 x1 ⟨33, by decide⟩ 528 rfl _ _ _ x
theorem row_34 (x : S256x16.Idx) : k0_pay37 (View.ld x1 r0_102) (View.ld x0 r0_103) x = Cert.Spec.tableOf x0 x1 (r0_104.emb x) :=
  piece_apply x0 x1 ⟨34, by decide⟩ 544 rfl _ _ _ x
theorem row_35 (x : S256x16.Idx) : k0_pay38 (View.ld x1 r0_105) (View.ld x0 r0_106) x = Cert.Spec.tableOf x0 x1 (r0_107.emb x) :=
  piece_apply x0 x1 ⟨35, by decide⟩ 560 rfl _ _ _ x
theorem row_36 (x : S256x16.Idx) : k0_pay39 (View.ld x1 r0_108) (View.ld x0 r0_109) x = Cert.Spec.tableOf x0 x1 (r0_110.emb x) :=
  piece_apply x0 x1 ⟨36, by decide⟩ 576 rfl _ _ _ x
theorem row_37 (x : S256x16.Idx) : k0_pay40 (View.ld x1 r0_111) (View.ld x0 r0_112) x = Cert.Spec.tableOf x0 x1 (r0_113.emb x) :=
  piece_apply x0 x1 ⟨37, by decide⟩ 592 rfl _ _ _ x
theorem row_38 (x : S256x16.Idx) : k0_pay1 (View.ld x1 r0_114) (k0_pay41 (View.ld x0 r0_115)) (constant S256x16 .f32 0x00000000#32) x = Cert.Spec.tableOf x0 x1 (r0_116.emb x) :=
  piece_apply x0 x1 ⟨38, by decide⟩ 608 rfl _ _ _ x

end Cert.KernelIdeal.TableValue

end
-- ==== Proof.TabTable.lean ====
/-
  The table the first region leaves.

  The region has one point and every window's block is its whole array. So the two inputs the body finds are the
  re-laid embedding table e2 and the first weight matrix as the region finds them, the buffer its 39 stores leave is
  the specification's table of those two (the blocks tile the 624 columns), and the one write-back copies that buffer
  over the whole output array.
-/
import proofs.«142501_g2000002412256652_pallasbulk_1227_4_alg».proof.Proof.Spec
import proofs.«142501_g2000002412256652_pallasbulk_1227_4_alg».proof.Proof.Gen.KernelIdeal.Frame
import proofs.«142501_g2000002412256652_pallasbulk_1227_4_alg».proof.Proof.TabRows
import Idealize.ShloMosaic.Lib.Pipeline.Value

noncomputable section

namespace Cert.KernelIdeal.TableValue

open Idealize.ShloMosaic Idealize.ShloMosaic.TcCoe Idealize.ShloMosaic.ValueIdx Idealize.SL.Sem
open Idealize.ShloMosaic.Pipeline (Dat)
open Cert.KernelIdeal Cert.KernelIdeal.Gen

/-- The buffer after the 39 stores is the table of the two inputs: every store's payload is its block of the table
    (the rows of the instance table, last store first as the frame lists them), and the blocks cover the buffer. -/
theorem out_eq (x0 : Vec Ideal S624x16 .f32) (x1 : Vec Ideal S624x256 .f32) :
    out0_2 (F := Ideal) x0 x1 = Cert.Spec.tableOf x0 x1 := by
  funext y
  unfold out0_2
  refine View.canon_apply_of_pieces (Val := Elt Ideal) (S := S256x624) (e := .bf16) (Cert.Spec.tableOf x0 x1) _ ?_ y (cover0_2 _ _ _ _ _ _ _ _ _ _ _ _ _ _ _ _ _ _ _ _ _ _ _ _ _ _ _ _ _ _ _ _ _ _ _ _ _ _ _ y)
  exact (pieces_cons _ _ (row_38 x0 x1)
      (pieces_cons _ _ (row_37 x0 x1)
      (pieces_cons _ _ (row_36 x0 x1)
      (pieces_cons _ _ (row_35 x0 x1)
      (pieces_cons _ _ (row_34 x0 x1)
      (pieces_cons _ _ (row_33 x0 x1)
      (pieces_cons _ _ (row_32 x0 x1)
      (pieces_cons _ _ (row_31 x0 x1)
      (pieces_cons _ _ (row_30 x0 x1)
      (pieces_cons _ _ (row_29 x0 x1)
      (pieces_cons _ _ (row_28 x0 x1)
      (pieces_cons _ _ (row_27 x0 x1)
      (pieces_cons _ _ (row_26 x0 x1)
      (pieces_cons _ _ (row_25 x0 x1)
      (pieces_cons _ _ (row_24 x0 x1)
      (pieces_cons _ _ (row_23 x0 x1)
      (pieces_cons _ _ (row_22 x0 x1)
      (pieces_cons _ _ (row_21 x0 x1)
      (pieces_cons _ _ (row_20 x0 x1)
      (pieces_cons _ _ (row_19 x0 x1)
      (pieces_cons _ _ (row_18 x0 x1)
      (pieces_cons _ _ (row_17 x0 x1)
      (pieces_cons _ _ (row_16 x0 x1)
      (pieces_cons _ _ (row_15 x0 x1)
      (pieces_cons _ _ (row_14 x0 x1)
      (pieces_cons _ _ (row_13 x0 x1)
      (pieces_cons _ _ (row_12 x0 x1)
      (pieces_cons _ _ (row_11 x0 x1)
      (pieces_cons _ _ (row_10 x0 x1)
      (pieces_cons _ _ (row_9 x0 x1)
      (pieces_cons _ _ (row_8 x0 x1)
      (pieces_cons _ _ (row_7 x0 x1)
      (pieces_cons _ _ (row_6 x0 x1)
      (pieces_cons _ _ (row_5 x0 x1)
      (pieces_cons _ _ (row_4 x0 x1)
      (pieces_cons _ _ (row_3 x0 x1)
      (pieces_cons _ _ (row_2 x0 x1)
      (pieces_cons _ _ (row_1 x0 x1)
      (pieces_cons _ _ (row_0 x0 x1)
      (pieces_nil _))))))))))))))))))))))))))))))))))))))))

section Region
variable (V : (c : Dev nD) → (b : Ref sig .tc) → Buf (Elt Ideal) ((c : Thread nD τ).loc b))

/-- The embedding window's block is the whole re-laid embedding table as the region finds it. -/
theorem iblk_e2 (c : Dev nD) (t : Fin cfg0.N) :
    (iblk0 V c 0 t : Vec Ideal S624x16 .f32) = V c main_call0_v20 := by
  obtain rfl := fin_N0 t
  unfold iblk0
  have hz : (fun a => win0_0.index t0_0 a * main_call0_v20.ty.shape.size a) = fun _ => 0 :=
    funext fun a => by fin_cases a <;> decide
  exact Memref.read_access_unit_zero (Elt Ideal) main_call0_v20 hz (fun a => by rw [congrFun hz a]; simp) (V c main_call0_v20)

/-- The weight window's block is the whole first weight matrix as the region finds it. -/
theorem iblk_w1 (c : Dev nD) (t : Fin cfg0.N) :
    (iblk0 V c 1 t : Vec Ideal S624x256 .f32) = V c main_arg3 := by
  obtain rfl := fin_N0 t
  unfold iblk0
  have hz : (fun a => win0_1.index t0_0 a * main_arg3.ty.shape.size a) = fun _ => 0 :=
    funext fun a => by fin_cases a <;> decide
  exact Memref.read_access_unit_zero (Elt Ideal) main_arg3 hz (fun a => by rw [congrFun hz a]; simp) (V c main_arg3)

/-- What the one point writes back is the table of the two arrays, read through the output's whole-array block. -/
theorem flushed_eq (c : Dev nD) (t : Fin cfg0.N) :
    (dat0 V c).flushed 2 t
      = ((cfg0.win 2).blk t).view.read (Elt Ideal) (Cert.Spec.tableOf (V c main_call0_v20) (V c main_arg3)) := by
  show (cfg0.win 2).cut (grid0.coords t) ((dat0 V c).after 2 t) = _
  rw [after0_2, out_eq, iblk_e2, iblk_w1]
  obtain rfl := fin_N0 t
  have hz : (fun a => win0_2.index t0_0 a * main_call0_v21.ty.shape.size a) = fun _ => 0 :=
    funext fun a => by fin_cases a <;> decide
  exact (Memref.read_access_unit_zero (Elt Ideal) main_call0_v21 hz (fun a => by rw [congrFun hz a]; simp)
    (Cert.Spec.tableOf (V c main_call0_v20) (V c main_arg3))).symm

/-- THE TABLE, at any entry contents: after the region the output array is the specification's table of the re-laid
    embedding table and the first weight matrix as the region found them. -/
theorem table_eq_of (c : Dev nD) :
    (dat0 V c).arrAt 2 cfg0.N = Cert.Spec.tableOf (V c main_call0_v20) (V c main_arg3) :=
  (dat0 V c).arrAt_eq_of_cover 2 (Cert.Spec.tableOf (V c main_call0_v20) (V c main_arg3)) (fun t _ => flushed_eq V c t) fun i =>
    ⟨t0_0, flush0_2 t0_0, by
      show i ∈ ((View.whole main_call0_v21).slice (win0_2.rect t0_0)).set
      rw [View.set_slice_whole, Rect.mem_set_unit]
      intro a
      have h0 : (i 0 : Nat) < 256 := (i 0).isLt
      have h1 : (i 1 : Nat) < 624 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide +kernel, show win0_2.xsize (grid0.coords t0_0) 0 = 256 from by decide +kernel]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide +kernel, show win0_2.xsize (grid0.coords t0_0) 1 = 624 from by decide +kernel]; omega⟩

end Region

/-- THE TABLE of the run: region 0 is entered at the contents the host operations before it leave. -/
theorem table_eq (m : (ℓ : Loc nD τ sig) → Buf (Elt Ideal) ℓ) (ρ : Dev nD → PrngReg) (c : Dev nD) :
    (dat0 (V1 m ρ) c).arrAt 2 cfg0.N = Cert.Spec.tableOf (V1 m ρ c main_call0_v20) (V1 m ρ c main_arg3) :=
  table_eq_of (V1 m ρ) c

end Cert.KernelIdeal.TableValue

end
-- ==== Proof.TabArgs.lean ====
/-
  What the host operations before the first region leave in the buffers the two regions read directly: the batch of
  categorical values transposed (field on the rows, batch row on the columns; the padding that follows has width zero),
  and the eight weight and bias arguments, which no host operation writes.
-/
import proofs.«142501_g2000002412256652_pallasbulk_1227_4_alg».proof.Proof.Spec
import proofs.«142501_g2000002412256652_pallasbulk_1227_4_alg».proof.Proof.Gen.KernelIdeal.Frame
import Idealize.ShloMosaic.Lib.Pipeline.Value
import Idealize.ShloMosaic.Lib.ValueLayout
import Idealize.ShloMosaic.Lib.KernelVsHost

noncomputable section

namespace Cert.KernelIdeal.TableValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The transposed batch of categorical values, as the host operations leave it: the transpose of x, padded by
    nothing. -/
theorem idxT_term (c : Dev nD) :
    (V1 m ρ c main_call0_v1 : S39x131072.Idx → BitVec 32)
      = pad S39x131072 ![0, 0] ![0, 0] ![0, 0]
          (transpose S39x131072 [1, 0] (m ((c : Thread nD τ).loc main_arg0)) transposes_S131072x39_S39x131072_1_0)
          (constantI S_ 32 0#32) pads_S39x131072_S39x131072_000_000 h_S_ := by
  show StableHlo.after hostOps0 (W0 m ρ c) (Proc.devRef .tc main_call0_v1) = _
  after_results_simp
  rfl

/-- Entry (f, b) of the transposed batch is x(b, f). -/
theorem idxT_eq (c : Dev nD) :
    (V1 m ρ c main_call0_v1 : S39x131072.Idx → BitVec 32)
      = fun i => m ((c : Thread nD τ).loc main_arg0) (ValueIdx.ix2 (i 1) (i 0)) := by
  rw [idxT_term]
  funext i
  obtain ⟨f, b, rfl⟩ : ∃ (f : Fin 39) (b : Fin 131072), i = ix2 f b := ⟨i 0, i 1, eq_ix2 i⟩
  refine (pad_apply_of_inside _ _ _ _ _ _ _ (ix2 f b) (ix2 f b) fun a => ?_).trans ?_
  · match a with
    | ⟨0, _⟩ => show f.val = 0 + f.val * (0 + 1); omega
    | ⟨1, _⟩ => show b.val = 0 + b.val * (0 + 1); omega
  · exact transpose_ix2_apply _ _ f b

/-! ## The arguments reach the region as launched: no host operation before it writes one -/

/-- The goal "the fold of the host operations at this buffer is the launch memory there", for a buffer that none of
    them writes: each operation's result buffer is another reference. -/
local macro "untouched_by_host" : tactic =>
  `(tactic| (
    refine (StableHlo.after_of_forall_not_mem _ _ (List.forall_iff_forall_mem.mp ?_)).trans rfl
    simp only [hostOps0, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The first weight matrix. -/
theorem V1_arg3 (c : Dev nD) : V1 m ρ c main_arg3 = m ((c : Thread nD τ).loc main_arg3) := by
  show StableHlo.after hostOps0 (W0 m ρ c) (Proc.devRef .tc main_arg3) = _
  untouched_by_host

/-- The first bias. -/
theorem V1_arg4 (c : Dev nD) : V1 m ρ c main_arg4 = m ((c : Thread nD τ).loc main_arg4) := by
  show StableHlo.after hostOps0 (W0 m ρ c) (Proc.devRef .tc main_arg4) = _
  untouched_by_host

/-- The second weight matrix. -/
theorem V1_arg5 (c : Dev nD) : V1 m ρ c main_arg5 = m ((c : Thread nD τ).loc main_arg5) := by
  show StableHlo.after hostOps0 (W0 m ρ c) (Proc.devRef .tc main_arg5) = _
  untouched_by_host

/-- The second bias. -/
theorem V1_arg6 (c : Dev nD) : V1 m ρ c main_arg6 = m ((c : Thread nD τ).loc main_arg6) := by
  show StableHlo.after hostOps0 (W0 m ρ c) (Proc.devRef .tc main_arg6) = _
  untouched_by_host

/-- The third weight matrix. -/
theorem V1_arg7 (c : Dev nD) : V1 m ρ c main_arg7 = m ((c : Thread nD τ).loc main_arg7) := by
  show StableHlo.after hostOps0 (W0 m ρ c) (Proc.devRef .tc main_arg7) = _
  untouched_by_host

/-- The third bias. -/
theorem V1_arg8 (c : Dev nD) : V1 m ρ c main_arg8 = m ((c : Thread nD τ).loc main_arg8) := by
  show StableHlo.after hostOps0 (W0 m ρ c) (Proc.devRef .tc main_arg8) = _
  untouched_by_host

/-- The last weight column. -/
theorem V1_arg9 (c : Dev nD) : V1 m ρ c main_arg9 = m ((c : Thread nD τ).loc main_arg9) := by
  show StableHlo.after hostOps0 (W0 m ρ c) (Proc.devRef .tc main_arg9) = _
  untouched_by_host

/-- The last bias. -/
theorem V1_arg10 (c : Dev nD) : V1 m ρ c main_arg10 = m ((c : Thread nD τ).loc main_arg10) := by
  show StableHlo.after hostOps0 (W0 m ρ c) (Proc.devRef .tc main_arg10) = _
  untouched_by_host

end Cert.KernelIdeal.TableValue

end
-- ==== Proof.LibGatherRows.lean ====
/-
  A row gather read at an index. The operand is a table of `N` rows (of `C` entries, or of single entries), the
  start indices one word per result row; result row `e` is the table's row at that word, read as a signed integer
  and clamped into `[0, N - 1]`. Stated for every dimension-numbers record whose fields have the values such a
  gather carries, so that it applies to records defined under different names.
-/
import Idealize.ShloMosaic.PureOps.Ideal
import Idealize.ShloMosaic.Lib.ValueIdx

noncomputable section

namespace Cert.Lib

open Idealize.ShloMosaic Idealize.ShloMosaic.ValueIdx

section Gather
variable {α : Type}

/-- A row gather's dimension numbers over a table `[N, C]`, start indices `[E, 1]` and result `[E, C]`. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather with those dimension numbers, read at `(e, q)`. -/
theorem gather_rowsDims_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowsDims N E C wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowsDims N E C wf).start (ix2 e q) idx 0 + (rowsDims N E C wf).batchCoord (ix2 e q) 0
        + (rowsDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e q) ⟨List.idxOf (0 : Fin 2) (rowsDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsDims N E C wf).start (ix2 e q) idx 1 + (rowsDims N E C wf).batchCoord (ix2 e q) 1
        + (rowsDims N E C wf).offCoord (ix2 e q) 1 = q.val
    rw [GatherDims.batchCoord_eq_zero _ _ _ List.not_mem_nil]
    have hs : (rowsDims N E C wf).start (ix2 e q) idx 1 = 0 := by
      unfold GatherDims.start
      rw [dif_neg (show (1 : Fin 2) ∉ ([0] : List (Fin 2)) by decide)]
    rw [hs]
    simp only [Nat.add_zero, Nat.zero_add]
    rfl

/-- THE ROW GATHER READ AT `(e, q)`, for every record with a row gather's field values: the table's row at the start
    word `idx[e, 0]`, read signed and clamped into `[0, N - 1]`, at column `q`. -/
theorem gather_rows_apply {N E C w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (q : Fin C) :
    Host.gather d x idx (ix2 e q)
      = x (ix2 ⟨min (idx (ix2 e 0)).toInt.toNat (N - 1), by omega⟩ q) := by
  obtain ⟨od, csd, obd, sibd, sim, ivd, ss, wf⟩ := d
  dsimp only at h1 h2 h3 h4 h5 h6 h7
  subst h1 h2 h3 h4 h5 h6 h7
  exact gather_rowsDims_apply hN wf x idx e q

/-- An entry gather's dimension numbers over a table `[N]`, start indices `[E, 1]` and result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The entry gather with those dimension numbers, read at `e`. -/
theorem gather_vecDims_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecDims N E wf).start (ix1 e) idx 0 + (vecDims N E wf).batchCoord (ix1 e) 0
      + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE ENTRY GATHER READ AT `e`, for every record with an entry gather's field values: the table's entry at the
    start word `idx[e, 0]`, read signed and clamped into `[0, N - 1]`. -/
theorem gather_vec_apply {N E w : Nat} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, csd, obd, sibd, sim, ivd, ss, wf⟩ := d
  dsimp only at h1 h2 h3 h4 h5 h6 h7
  subst h1 h2 h3 h4 h5 h6 h7
  exact gather_vecDims_apply hN wf x idx e

end Gather

end Cert.Lib

end
-- ==== Proof.LibEdgeIndex.lean ====
/-
  GENERAL LEMMAS: the row gather and the row scatter of a graph computation, read at an entry.

  A graph computation with `N` nodes, `E` edges and `C` feature columns reads a node array at the edges' end points
  (`x[idx]` on rows: edge `e` takes row `idx[e]` of `x`) and adds edge rows back into node rows (a segment sum: edge row
  `e` is added into node row `idx[e]`). Both are index computations with dimension numbers; this file reads them at one
  entry. The gather of rows (and of a flat vector) is the operand at the start index, read signed and clamped into
  `[0, N − 1]`; an update row of the scatter lands on node row `p` only if its start index, read signed and NOT clamped,
  is `p`, and then on the same column. Last, two facts about a 32-bit word whose signed value is a node number below
  `2^31`: the "add `N` when negative" select leaves it alone, and clamping it into `[0, N − 1]` does nothing.
-/
import Idealize.ShloMosaic.Lib.ValueIdx
import Idealize.ShloMosaic.PureOps.Ideal

namespace Cert.Lib

open Idealize.ShloMosaic Idealize.ShloMosaic.ValueIdx

section RowsGather
variable {α : Type}

/-- The dimension numbers of a gather of whole rows: operand `[N, C]`, start indices `[E, 1]` (one row number per
    edge), result `[E, C]`; the row axis is collapsed and indexed, the column axis is the one offset axis with a full
    slice `C`. Their conditions `wf` are decided on a program's literal shapes. -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand's entry in column `k` of the row whose number is the start index
    `idx[e, 0]`, read as a signed integer and clamped into `[0, N − 1]`. -/
theorem rowsGather_apply {N E C w : Nat} (hN : 0 < N)
    (wf : GatherDims.WF ⟨2, ![N, C]⟩ ⟨2, ![E, 1]⟩ ⟨2, ![E, C]⟩ [1] [0] [] [0] [] 1 ![1, C])
    (a : (⟨2, ![N, C]⟩ : Shape).Idx → α) (I : IVec ⟨2, ![E, 1]⟩ w) (e : Fin E) (k : Fin C) :
    Host.gather (rowsGather N E C wf) a I (ix2 e k)
      = a (ix2 ⟨min (I (ix2 e (0 : Fin 1))).toInt.toNat (N - 1), by omega⟩ k) := by
  unfold Host.gather
  congr 1
  funext b
  refine Fin.ext ?_
  match b with
  | ⟨0, _⟩ =>
    show (rowsGather N E C wf).start (ix2 e k) I 0 + (rowsGather N E C wf).batchCoord (ix2 e k) 0
      + (rowsGather N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N E C wf).startIndexMap from List.mem_singleton.mpr rfl)]
    have hsi : (rowsGather N E C wf).siIdx (ix2 e k) ⟨List.idxOf (0 : Fin 2) (rowsGather N E C wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨1, _⟩ =>
    show (rowsGather N E C wf).start (ix2 e k) I 1 + (rowsGather N E C wf).batchCoord (ix2 e k) 1
      + (rowsGather N E C wf).offCoord (ix2 e k) 1 = _
    rw [GatherDims.batchCoord_eq_zero _ _ _ List.not_mem_nil]
    unfold GatherDims.start
    rw [dif_neg (show ¬ (1 : Fin 2) ∈ (rowsGather N E C wf).startIndexMap from
      (by decide : ¬ (1 : Fin 2) ∈ [(0 : Fin 2)]))]
    simp only [Nat.add_zero, Nat.zero_add]
    rfl

end RowsGather

section VecGather
variable {α : Type}

/-- The dimension numbers of a gather of single entries of a flat vector: operand `[N]`, start indices `[E, 1]` (one
    position per edge), result `[E]`; the one operand axis is collapsed and indexed, and the result has no offset
    axis. Their conditions `wf` are decided on a program's literal shapes. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand's entry at the start index `idx[e, 0]`, read as a signed integer and
    clamped into `[0, N − 1]`. -/
theorem vecGather_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (I : IVec ⟨2, ![E, 1]⟩ w) (e : Fin E) :
    Host.gather (vecGather N E wf) v I (ix1 e)
      = v (ix1 ⟨min (I (ix2 e (0 : Fin 1))).toInt.toNat (N - 1), by omega⟩) := by
  unfold Host.gather
  congr 1
  funext b
  obtain rfl : b = 0 := Subsingleton.elim _ _
  refine Fin.ext ?_
  show (vecGather N E wf).start (ix1 e) I 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]
  rfl

end VecGather

section RowsScatter

/-- The dimension numbers of a scatter of whole rows: operand `[N, C]`, scatter indices `[E, 1]` (one row number per
    edge), updates `[E, C]`; the row axis is the inserted, indexed one, the column axis is the one window axis. Their
    conditions `wf` are decided on a program's literal shapes. -/
abbrev rowsScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE ROW LANDS: the update entry `(e, k')` lands on the operand entry `(p, k)` only when the columns
    agree and the start index `idx[e, 0]`, read as a signed integer and NOT clamped, is the row number `p` itself. -/
theorem rowsScatter_lands {N E C w : Nat}
    (wf : ScatterDims.WF ⟨2, ![N, C]⟩ ⟨2, ![E, 1]⟩ ⟨2, ![E, C]⟩ [1] [0] [0] 1)
    (I : IVec ⟨2, ![E, 1]⟩ w) (e : Fin E) (k' : Fin C) (p : Fin N) (k : Fin C)
    (h : (rowsScatter N E C wf).resultIdx? (ix2 e k') I = some (ix2 p k)) :
    k' = k ∧ (I (ix2 e (0 : Fin 1))).toInt = (p.val : Int) := by
  have hsi : (rowsScatter N E C wf).siIdx (ix2 e k') ⟨List.idxOf (0 : Fin 2) (rowsScatter N E C wf).scatterDimsToOperandDims,
      List.idxOf_lt_length_iff.2 (List.mem_singleton.mpr rfl)⟩ = ix2 e (0 : Fin 1) := by
    funext c; refine Fin.ext ?_
    match c with
    | ⟨0, _⟩ => rfl
    | ⟨1, _⟩ => rfl
  have hs0 : (rowsScatter N E C wf).start (ix2 e k') I 0 = (I (ix2 e (0 : Fin 1))).toInt := by
    unfold ScatterDims.start
    rw [dif_pos (show (0 : Fin 2) ∈ (rowsScatter N E C wf).scatterDimsToOperandDims from List.mem_singleton.mpr rfl), hsi]
  have hs1 : (rowsScatter N E C wf).start (ix2 e k') I 1 = 0 := by
    unfold ScatterDims.start
    rw [dif_neg (show ¬ (1 : Fin 2) ∈ (rowsScatter N E C wf).scatterDimsToOperandDims from
      (by decide : ¬ (1 : Fin 2) ∈ [(0 : Fin 2)]))]
  have hw0 : (rowsScatter N E C wf).window (ix2 e k') 0 = 0 := rfl
  have hw1 : (rowsScatter N E C wf).window (ix2 e k') 1 = k'.val := rfl
  unfold ScatterDims.resultIdx? at h
  split at h
  · rename_i hall
    have hfun := Option.some.inj h
    have h0 := congrArg Fin.val (congrFun hfun 0)
    have h1 := congrArg Fin.val (congrFun hfun 1)
    have hb0 := hall 0
    simp only [hs0, hw0] at h0 hb0
    simp only [hs1, hw1] at h1
    refine ⟨Fin.ext ?_, ?_⟩
    · change k'.val = k.val
      change ((0 : Int) + (k'.val : Int)).toNat = k.val at h1
      omega
    · change ((I (ix2 e (0 : Fin 1))).toInt + ((0 : Nat) : Int)).toNat = p.val at h0
      omega
  · exact absurd h (by simp)

end RowsScatter

section Words

/-- A vector integer comparison at an index compares the elements. -/
theorem cmpi_apply {s : Shape} {w : Nat} (c : CmpIPredicate) (a b : IVec s w) (i : s.Idx) :
    cmpi c a b i = IntOp.cmpi c (a i) (b i) := rfl

/-- THE NEGATIVE-INDEX WRAP DOES NOTHING TO A NODE NUMBER: a 32-bit word `x` whose signed value is a natural number
    `p` is not below zero, so the select "if `x < 0` (signed) then `y` else `x`" is `x`, whatever `y` is. Stated on one
    element: a vector comparison read at an index is this comparison of the elements (`cmpi_apply` above), and a vector
    select read at an index is this select of the elements (`select_apply`). -/
theorem select_slt_zero_of_toInt {x y : BitVec 32} {p : Nat} (hx : x.toInt = (p : Int)) :
    Scalar.select (IntOp.cmpi .slt x 0#32) y x = x := by
  have hslt : x.slt 0#32 = false := by
    rw [BitVec.slt, hx]
    simp
  show (if BitVec.ofBool (x.slt 0#32) = 1 then y else x) = x
  rw [hslt]
  rfl

/-- CLAMPING A NODE NUMBER DOES NOTHING: a word whose signed value is a natural number `p` below `N`, read signed and
    clamped into `[0, N − 1]`, is `p`. -/
theorem clamp_of_toInt {w : Nat} {x : BitVec w} {p N : Nat} (hp : p < N) (hx : x.toInt = (p : Int)) :
    min x.toInt.toNat (N - 1) = p := by
  rw [hx, Int.toNat_natCast]
  omega

/-- A natural number below `2^31`, written as a 32-bit word, has itself as its signed value (a node number below
    `N ≤ 2^31` is one). -/
theorem toInt_ofNat_of_lt {p : Nat} (hp : p < 2 ^ 31) : (BitVec.ofNat 32 p).toInt = (p : Int) := by
  have h2 : 2 * (BitVec.ofNat 32 p).toNat < 2 ^ 32 := by
    rw [BitVec.toNat_ofNat]
    have := Nat.mod_le p (2 ^ 32)
    omega
  rw [BitVec.toInt_eq_toNat_of_lt h2, BitVec.toNat_ofNat, Nat.mod_eq_of_lt (by omega)]

end Words

end Cert.Lib
-- ==== Proof.TabHost.lean ====
/-
  The embedding window of the first region, read off the host operations before it.

  The wrapper re-lays the embedding table one 16-row window per field: window row c = 16 f + v takes the table's row
  off(f) + v, the sum taken on 32-bit words and clipped to the table's rows 0 … 506. The printed operations spell this
  as: the numbers 0 … 623; their floor quotient and remainder by 16 (the quotient and remainder toward zero with their
  sign corrections, none of which applies to a number below 624); a gather of the 39 offsets at the quotient (behind a
  wrap of negative indices, which does not apply either); the sum; the clip as a maximum with 0 and a minimum with 506;
  a second wrap of negative indices (a clipped word is not negative); and the row gather of the table, which reads a
  start word signed and clamps it to the 507 rows (a clipped word is already in range). This module names the stages,
  shows that the region's entry contents are their composition, and reads the composition at an index.
-/
import proofs.«142501_g2000002412256652_pallasbulk_1227_4_alg».proof.Proof.Spec
import proofs.«142501_g2000002412256652_pallasbulk_1227_4_alg».proof.Proof.Gen.KernelIdeal.Frame
import proofs.«142501_g2000002412256652_pallasbulk_1227_4_alg».proof.Proof.LibGatherRows
import proofs.«142501_g2000002412256652_pallasbulk_1227_4_alg».proof.Proof.LibEdgeIndex
import Idealize.ShloMosaic.Lib.Pipeline.Value

noncomputable section

namespace Cert.KernelIdeal.TableValue

open Idealize.ShloMosaic Idealize.ShloMosaic.TcCoe Idealize.ShloMosaic.ValueIdx Idealize.SL.Sem
open Cert.KernelIdeal Cert.KernelIdeal.Gen

/-! ## The host operations' term, in named stages -/

/-- The window rows 0 … 623 as words. -/
def colW : IVec S624 32 := iotaInDim S624 32 0

/-- A scalar word copied to every window row. -/
abbrev splat {w : Nat} (x : IVec S_ w) : IVec S624 w := broadcastInDim S624 ![] bcast_S_S624 x

/-- The field of a window row, c / 16 rounded down: the quotient toward zero, less one where the signs differ and the
    remainder is not zero. -/
def fieldW : IVec S624 32 :=
  select
    (andi (cmpi .ne (signi colW) (splat (signi (constantI S_ 32 16#32))))
      (cmpi .ne (Host.remsi colW (splat (constantI S_ 32 16#32))) (splat (constantI S_ 32 0#32))))
    (subi (Host.divsi colW (splat (constantI S_ 32 16#32))) (splat (constantI S_ 32 1#32)))
    (Host.divsi colW (splat (constantI S_ 32 16#32)))

/-- The field as an index into the 39 offsets: a negative one counted from the end. -/
def fieldIdxW : IVec S624 32 :=
  select (cmpi .slt fieldW (splat (constantI S_ 32 0#32))) (addi fieldW (splat (constantI S_ 32 39#32))) fieldW

/-- The offset of each window row's field. -/
def offW (O : IVec S39 32) : IVec S624 32 :=
  Host.gather gather_S39_S624x1_S624_n_0_n_n_0_1_1 O (broadcastInDim S624x1 ![0] bcast_S624_S624x1_0 fieldIdxW)

/-- The divisor of the remainder: 16, or 1 were it zero. -/
def divisorW : IVec S_ 32 :=
  select (cmpi .eq (constantI S_ 32 16#32) (constantI S_ 32 0#32)) (constantI S_ 32 1#32) (constantI S_ 32 16#32)

/-- The local category of a window row, c mod 16 with the divisor's sign: the remainder toward zero, plus the divisor
    where the signs differ and the remainder is not zero. -/
def catW : IVec S624 32 :=
  select
    (andi
      (cmpi .ne (cmpi .slt (Host.remsi colW (splat divisorW)) (splat (constantI S_ 32 0#32)))
        (splat (cmpi .slt divisorW (constantI S_ 32 0#32))))
      (cmpi .ne (Host.remsi colW (splat divisorW)) (splat (constantI S_ 32 0#32))))
    (addi (Host.remsi colW (splat divisorW)) (splat divisorW))
    (Host.remsi colW (splat divisorW))

/-- Offset plus local category, clipped to the embedding table's rows 0 … 506. -/
def clipW (O : IVec S39 32) : IVec S624 32 :=
  minsi (splat (constantI S_ 32 506#32)) (maxsi (splat (constantI S_ 32 0#32)) (addi (offW O) catW))

/-- The clipped row as an index into the 507 rows: a negative one counted from the end. -/
def rowW (O : IVec S39 32) : IVec S624 32 :=
  select (cmpi .slt (clipW O) (splat (constantI S_ 32 0#32))) (addi (clipW O) (splat (constantI S_ 32 507#32))) (clipW O)

/-- The embedding table re-laid one 16-row window per field. -/
def e2Of (E : S507x16.Idx → EReal) (O : IVec S39 32) : S624x16.Idx → EReal :=
  Host.gather gather_S507x16_S624x1_S624x16_1_0_n_n_0_1_116 E (broadcastInDim S624x1 ![0] bcast_S624_S624x1_0 (rowW O))

section Run
variable (m : (ℓ : Loc nD τ sig) → Buf (Elt Ideal) ℓ) (ρ : Dev nD → PrngReg)

/-- What the host operations leave in the first region's embedding window. -/
theorem e2_term (c : Dev nD) :
    (V1 m ρ c main_call0_v20 : S624x16.Idx → EReal)
      = e2Of (m ((c : Thread nD τ).loc main_arg1)) (m ((c : Thread nD τ).loc main_arg2)) := by
  show StableHlo.after hostOps0 (W0 m ρ c) (Proc.devRef .tc main_call0_v20) = _
  after_results_simp
  simp only [StableHlo.TRef.toBuf, StableHlo.TRef.ofBuf, cast_eq, id]
  unfold e2Of rowW clipW offW fieldIdxW fieldW catW divisorW colW
  exact congrArg₂ (Host.gather gather_S507x16_S624x1_S624x16_1_0_n_n_0_1_116) rfl rfl

end Run

/-! ## The stages at a window row

For a window row c below 624 the word of c is the number c, its quotient and remainder by 16 toward zero are c / 16 and
c % 16, and no sign correction applies: each is a finite check over the 624 rows. -/

theorem fieldIdxW_apply : ∀ c : Fin 624, fieldIdxW (ix1 c) = BitVec.ofNat 32 (c.val / 16) := by decide +kernel

theorem catW_apply : ∀ c : Fin 624, catW (ix1 c) = BitVec.ofNat 32 (c.val % 16) := by decide +kernel

/-- The field, as a word, read signed and clamped to the 39 offsets, is the field. -/
theorem field_clamp : ∀ c : Fin 624, min (BitVec.ofNat 32 (c.val / 16)).toInt.toNat (39 - 1) = c.val / 16 := by
  decide +kernel

/-- A column of start indices made from a vector of words holds, in row c, the vector's word c. -/
theorem column_apply (x : IVec S624 32) (c : Fin 624) :
    broadcastInDim S624x1 ![0] bcast_S624_S624x1_0 x (ix2 c 0) = x (ix1 c) :=
  broadcastInDim_apply _ _ _ _ _ fun a => match a with | ⟨0, _⟩ => rfl

/-- The offset gathered for window row c is the offset of field c / 16. -/
theorem offW_apply (O : IVec S39 32) (c : Fin 624) :
    offW O (ix1 c) = O (ix1 ⟨c.val / 16, by have := c.isLt; omega⟩) := by
  unfold offW
  refine (Cert.Lib.gather_vec_apply (N := 39) (E := 624) (by decide) gather_S39_S624x1_S624_n_0_n_n_0_1_1
    rfl rfl rfl rfl rfl rfl rfl O _ c).trans ?_
  refine congrArg O (congrArg ix1 (Fin.ext ?_))
  show min ((broadcastInDim S624x1 ![0] bcast_S624_S624x1_0 fieldIdxW (ix2 c 0)).toInt.toNat) (39 - 1) = c.val / 16
  rw [column_apply, fieldIdxW_apply]
  exact field_clamp c

/-- The row word of window row c: the offset of its field plus its local category, as 32-bit words, clipped to the
    embedding table's rows 0 … 506. -/
def rowWord (O : (⟨1, ![39]⟩ : Shape).Idx → BitVec 32) (c : Fin 624) : BitVec 32 :=
  IntOp.minsi 506#32 (IntOp.maxsi 0#32 (O (ix1 ⟨c.val / 16, by have := c.isLt; omega⟩) + BitVec.ofNat 32 (c.val % 16)))

/-- THE EMBEDDING ROW the host operations select for window row c: the row word, read signed and clamped to the table's
    507 rows (after the clip the clamp changes nothing). -/
def rowK (O : (⟨1, ![39]⟩ : Shape).Idx → BitVec 32) (c : Fin 624) : Fin 507 :=
  ⟨min (rowWord O c).toInt.toNat 506, by omega⟩

theorem clipW_apply (O : IVec S39 32) (c : Fin 624) : clipW O (ix1 c) = rowWord O c := by
  show IntOp.minsi 506#32 (IntOp.maxsi 0#32 (IntOp.addi (offW O (ix1 c)) (catW (ix1 c)))) = _
  rw [offW_apply, catW_apply]
  rfl

/-- A word clipped to [0, 506] reads, signed, as a number of that range. -/
theorem clip_range (s : BitVec 32) :
    0 ≤ (IntOp.minsi 506#32 (IntOp.maxsi 0#32 s)).toInt ∧ (IntOp.minsi 506#32 (IntOp.maxsi 0#32 s)).toInt ≤ 506 := by
  have h506 : (506#32 : BitVec 32).toInt = 506 := by decide
  have h0 : (0#32 : BitVec 32).toInt = 0 := by decide
  unfold IntOp.minsi IntOp.maxsi
  split_ifs with h1 h2 h3 <;> simp only [BitVec.slt_iff_toInt_lt, not_lt] at * <;> omega

/-- A word that reads, signed, as a number of [0, 506] is left alone by the clip. -/
theorem clip_of_range (s : BitVec 32) (h0 : 0 ≤ s.toInt) (h1 : s.toInt < 507) :
    IntOp.minsi 506#32 (IntOp.maxsi 0#32 s) = s := by
  have h506 : (506#32 : BitVec 32).toInt = 506 := by decide
  have hz : (0#32 : BitVec 32).toInt = 0 := by decide
  unfold IntOp.minsi IntOp.maxsi
  split_ifs with h2 h3 h4 <;> simp only [BitVec.slt_iff_toInt_lt, not_lt] at * <;> first | rfl | (exfalso; omega)

/-- The wrap of a negative index leaves the clipped word alone. -/
theorem rowW_apply (O : IVec S39 32) (c : Fin 624) : rowW O (ix1 c) = rowWord O c := by
  show Scalar.select (IntOp.cmpi .slt (clipW O (ix1 c)) 0#32) (IntOp.addi (clipW O (ix1 c)) 507#32) (clipW O (ix1 c)) = _
  rw [clipW_apply]
  have h := (clip_range (O (ix1 ⟨c.val / 16, by have := c.isLt; omega⟩) + BitVec.ofNat 32 (c.val % 16))).1
  exact Cert.Lib.select_slt_zero_of_toInt (p := (rowWord O c).toInt.toNat) (Int.toNat_of_nonneg h).symm

/-- Entry (c, d) of the re-laid table is entry (rowK c, d) of the embedding table. -/
theorem e2Of_apply (E : S507x16.Idx → EReal) (O : IVec S39 32) (c : Fin 624) (d : Fin 16) :
    e2Of E O (ix2 c d) = E (ix2 (rowK O c) d) := by
  unfold e2Of
  refine (Cert.Lib.gather_rows_apply (N := 507) (E := 624) (C := 16) (by decide)
    gather_S507x16_S624x1_S624x16_1_0_n_n_0_1_116 rfl rfl rfl rfl rfl rfl rfl E _ c d).trans ?_
  refine congrArg E (congrArg (fun r => ix2 r d) (Fin.ext ?_))
  show min ((broadcastInDim S624x1 ![0] bcast_S624_S624x1_0 (rowW O) (ix2 c 0)).toInt.toNat) (507 - 1) = (rowK O c).val
  rw [column_apply, rowW_apply]
  rfl

section RunValue
variable (m : (ℓ : Loc nD τ sig) → Buf (Elt Ideal) ℓ) (ρ : Dev nD → PrngReg)

/-- THE EMBEDDING WINDOW of the first region: row c of the re-laid table is row rowK c of the embedding table. -/
theorem e2_eq (c : Dev nD) :
    (V1 m ρ c main_call0_v20 : S624x16.Idx → EReal)
      = fun i => m ((c : Thread nD τ).loc main_arg1)
          (ValueIdx.ix2 (rowK (m ((c : Thread nD τ).loc main_arg2)) (i 0)) (i 1)) := by
  rw [e2_term]
  funext i
  obtain ⟨r, d, rfl⟩ : ∃ (r : Fin 624) (d : Fin 16), i = ix2 r d := ⟨i 0, i 1, eq_ix2 i⟩
  exact e2Of_apply _ _ r d

end RunValue

/-- Where the offset of field f plus the local category v, as words, reads signed as a row number of the table, that
    row is the one selected for window row 16 f + v. -/
theorem rowK_eq (O : (⟨1, ![39]⟩ : Shape).Idx → BitVec 32) (f : Fin 39) (v : Fin 16)
    (h0 : 0 ≤ (O (ValueIdx.ix1 f) + BitVec.ofNat 32 v.val).toInt)
    (h1 : (O (ValueIdx.ix1 f) + BitVec.ofNat 32 v.val).toInt < 507) :
    (rowK O (Cert.Spec.fcol f v)).val = (O (ValueIdx.ix1 f) + BitVec.ofNat 32 v.val).toInt.toNat := by
  have hv := v.isLt
  have hf : (⟨(Cert.Spec.fcol f v).val / 16, by have := (Cert.Spec.fcol f v).isLt; omega⟩ : Fin 39) = f :=
    Fin.ext (by show (16 * f.val + v.val) / 16 = f.val; omega)
  have hc : (Cert.Spec.fcol f v).val % 16 = v.val := by show (16 * f.val + v.val) % 16 = v.val; omega
  show min (IntOp.minsi 506#32 (IntOp.maxsi 0#32 (O (ix1 ⟨(Cert.Spec.fcol f v).val / 16, _⟩)
    + BitVec.ofNat 32 ((Cert.Spec.fcol f v).val % 16)))).toInt.toNat 506 = _
  rw [hf, hc, clip_of_range _ h0 h1]
  omega

end Cert.KernelIdeal.TableValue

end
-- ==== Proof.KValue.lean ====
/-
  The idealized kernel's result as a function of its argument arrays.

  The network region's output block t is the body's arithmetic on the point's blocks. The body first forms layer 1 —
  the [256, 624] table against the 624-wide indicator of (field, local category) of the block's 1024 batch rows — and then
  applies the rest of the network, which is, operation for operation, the function the reference applies to its own
  layer-1 block. The table is what the table region left: entry (h, 16 f + v) is Σ_d W1(16 f + d, h) · e2(16 f + v, d) with
  e2 the embedding rows the host re-laid one 16-row window per field: row 16 f + v of e2 is the embedding row the host
  chain selects for it (the field's offset plus v as words, clipped to the table). The index block is columns 1024 t … of the transposed
  index array, and the resident blocks are the transposed biases and weights.
-/
import proofs.«142501_g2000002412256652_pallasbulk_1227_4_alg».proof.Proof.KRun
import proofs.«142501_g2000002412256652_pallasbulk_1227_4_alg».proof.Proof.KTail
import proofs.«142501_g2000002412256652_pallasbulk_1227_4_alg».proof.Proof.KEntry
import proofs.«142501_g2000002412256652_pallasbulk_1227_4_alg».proof.Proof.KLayer1
import proofs.«142501_g2000002412256652_pallasbulk_1227_4_alg».proof.Proof.TabTable
import proofs.«142501_g2000002412256652_pallasbulk_1227_4_alg».proof.Proof.TabArgs
import proofs.«142501_g2000002412256652_pallasbulk_1227_4_alg».proof.Proof.TabHost
import proofs.«142501_g2000002412256652_pallasbulk_1227_4_alg».proof.Proof.Spec

set_option maxRecDepth 16384

noncomputable section

namespace Cert.KernelIdeal.KValue

open Cert.KernelIdeal Cert.KernelIdeal.Gen Cert.KernelIdeal.BlockValue Cert.KernelIdeal.TailValue Cert.KernelIdeal.EntryValue
open Cert.KernelIdeal.Layer1Value Cert.KernelIdeal.TableValue
open Idealize.ShloMosaic Idealize.ShloMosaic.TcCoe Idealize.SL.Sem Idealize.ShloMosaic.ValueIdx

variable (m : (ℓ : Loc nD τ sig) → Buf (Elt Ideal) ℓ) (ρ : Dev nD → PrngReg)

/-- Layer 1 of the block of columns 1024 t … of a transposed index array is the table form of the specification. -/
theorem L1_block (X : S131072x39.Idx → BitVec 32) (T : Vec Ideal S256x624 .bf16) (t : Fin 128) :
    L1 (F := Ideal) (idxBlk (F := Ideal) (fun i => X (ix2 (i 1) (i 0))) t) T = Cert.Spec.layer1K X T t := by
  funext i
  obtain ⟨h, j, rfl⟩ : ∃ (h : Fin 256) (j : Fin 1024), i = ix2 h j := ⟨i 0, i 1, eq_ix2 i⟩
  rw [L1_apply]
  rfl

/-- The kernel's result over a given re-laid embedding array e2 [624, 16]. -/
def resultOver (e2 : S624x16.Idx → EReal) (c : Dev nD) : Buf (Elt Ideal) ((c.tc : Thread nD τ).loc main_v0) :=
  Cert.Spec.resultOf fun t => Cert.ReferenceIdeal.Gen.k0_pay22 (F := Ideal)
    (Cert.Spec.layer1K (m ((c.tc : Thread nD τ).loc main_arg0)) (Cert.Spec.tableOf e2 (m ((c.tc : Thread nD τ).loc main_arg3))) t)
    (Cert.Spec.tr (a := 1) (b := 256) (m ((c.tc : Thread nD τ).loc main_arg4)))
    (Cert.Spec.tr (a := 256) (b := 128) (m ((c.tc : Thread nD τ).loc main_arg5)))
    (Cert.Spec.tr (a := 1) (b := 128) (m ((c.tc : Thread nD τ).loc main_arg6)))
    (Cert.Spec.tr (a := 128) (b := 64) (m ((c.tc : Thread nD τ).loc main_arg7)))
    (Cert.Spec.tr (a := 1) (b := 64) (m ((c.tc : Thread nD τ).loc main_arg8)))
    (m ((c.tc : Thread nD τ).loc main_arg9)) (m ((c.tc : Thread nD τ).loc main_arg10))

/-- The output block over variables: the body's arithmetic on a transposed index array's block and resident arrays is the
    rest of the network applied to the specification's table-form layer 1. -/
theorem outBlk_eq (X : S131072x39.Idx → BitVec 32) (A0 : S39x131072.Idx → BitVec 32) (hA : A0 = fun i => X (ix2 (i 1) (i 0)))
    (T : Vec Ideal S256x624 .bf16) (A2 : Vec Ideal S256x1 .f32) (A3 : Vec Ideal S128x256 .f32) (A4 : Vec Ideal S128x1 .f32)
    (A5 : Vec Ideal S64x128 .f32) (A6 : Vec Ideal S64x1 .f32) (A7 : Vec Ideal S64x1 .f32) (A8 : Vec Ideal S1x1 .f32) (t : Fin 128) :
    outBlk (F := Ideal) A0 T A2 A3 A4 A5 A6 A7 A8 t
      = Cert.ReferenceIdeal.Gen.k0_pay22 (F := Ideal) (Cert.Spec.layer1K X T t) A2 A3 A4 A5 A6 A7 A8 := by
  subst hA
  unfold outBlk
  rw [pay_split, L1_block]

/-- What the last stretch of host operations leaves in the result buffer, over the re-laid embedding array the first
    stretch left. -/
theorem W5_resultOver (c : Dev nD) :
    W5 m ρ c (Proc.devRef .tc main_v0) = resultOver m (V1 m ρ c main_call0_v20) c := by
  refine (result_blocks m ρ c).trans ?_
  unfold resultOver
  refine congrArg Cert.Spec.resultOf (funext fun t => ?_)
  refine (outBlk_eq (m ((c.tc : Thread nD τ).loc main_arg0)) _ ((entry_idx m ρ c).trans (idxT_eq m ρ c)) _ _ _ _ _ _ _ _ t).trans ?_
  have hT : V3 m ρ c main_call0_v21 = Cert.Spec.tableOf (V1 m ρ c main_call0_v20) (m ((c.tc : Thread nD τ).loc main_arg3)) :=
    (entry_table m ρ c).trans ((table_eq m ρ c).trans (congrArg (Cert.Spec.tableOf _) (V1_arg3 m ρ c)))
  rw [hT]
  rw [entry_b1 m ρ c, entry_w2 m ρ c, entry_b2 m ρ c, entry_w3 m ρ c, entry_b3 m ρ c, entry_w4 m ρ c, entry_b4 m ρ c]
  rw [V1_arg4 m ρ c, V1_arg5 m ρ c, V1_arg6 m ρ c, V1_arg7 m ρ c, V1_arg8 m ρ c, V1_arg9 m ρ c, V1_arg10 m ρ c]

/-- The kernel's result as a function of its eleven argument arrays: the re-laid embedding array is the embedding rows
    the host chain selects. -/
def result (c : Dev nD) : Buf (Elt Ideal) ((c.tc : Thread nD τ).loc main_v0) :=
  resultOver m (fun i => m ((c.tc : Thread nD τ).loc main_arg1) (ix2 (rowK (m ((c.tc : Thread nD τ).loc main_arg2)) (i 0)) (i 1))) c

/-- What the last stretch of host operations leaves in the result buffer is `result`. -/
theorem W5_result (c : Dev nD) : W5 m ρ c (Proc.devRef .tc main_v0) = result m c :=
  (W5_resultOver m ρ c).trans (congrArg (fun e => resultOver m e c) (e2_eq m ρ c))

/-- Every weakly fair execution of the idealized kernel terminates with the result buffer at `result` and the
    arguments as launched. -/
theorem run : θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨(h c).1.trans (W5_result m ρ c), (h c).2⟩)
    (Cert.KernelIdeal.RunValue.run_named (F := Ideal) m ρ)

end Cert.KernelIdeal.KValue

end
-- ==== Proof.RefChainDef.lean ====
/-
  The reference body's layer-1 accumulation as one term of the body's three loaded blocks: the index block [39, 1024], the
  transposed padded table [16, 512] and the per-field first weights [39, 256, 16]. Starting from zeros, field after field
  (39 of them) it adds the field's [256, 16] weights times (the table times the 512-wide indicator of the field's row).
  What the body stores is the rest of the network applied to this block.
-/
import proofs.«142501_g2000002412256652_pallasbulk_1227_4_alg».proof.Proof.Gen.ReferenceIdeal.Frame

set_option maxRecDepth 16384

noncomputable section

namespace Cert.ReferenceIdeal.RefValue

open Cert.ReferenceIdeal Cert.ReferenceIdeal.Gen
open Idealize.ShloMosaic

variable {F : FTy → Type} [FloatOps F]

/-- The layer-1 block: the 39-field accumulation over the three loaded blocks. -/
def chain (x0 : Vec F S39x1024 .i32) (x1 : Vec F S16x512 .f32) (x2 : Vec F S39x256x16 .f32) : FVec F S256x1024 .f32 :=
  k0_pay21 (k0_pay1 (View.ld x0 r0_0)) (k0_pay2 (View.ld x1 r0_1)) (iota .tc S512x1024 32 [0] iota_S512x1024_d0_w32) (k0_pay19 (k0_pay1 (View.ld x0 r0_0)) (k0_pay2 (View.ld x1 r0_1)) (iota .tc S512x1024 32 [0] iota_S512x1024_d0_w32) (k0_pay17 (k0_pay1 (View.ld x0 r0_0)) (k0_pay2 (View.ld x1 r0_1)) (iota .tc S512x1024 32 [0] iota_S512x1024_d0_w32) (k0_pay15 (k0_pay1 (View.ld x0 r0_0)) (k0_pay2 (View.ld x1 r0_1)) (iota .tc S512x1024 32 [0] iota_S512x1024_d0_w32) (k0_pay13 (k0_pay1 (View.ld x0 r0_0)) (k0_pay2 (View.ld x1 r0_1)) (iota .tc S512x1024 32 [0] iota_S512x1024_d0_w32) (k0_pay11 (k0_pay1 (View.ld x0 r0_0)) (k0_pay2 (View.ld x1 r0_1)) (iota .tc S512x1024 32 [0] iota_S512x1024_d0_w32) (k0_pay9 (k0_pay1 (View.ld x0 r0_0)) (k0_pay2 (View.ld x1 r0_1)) (iota .tc S512x1024 32 [0] iota_S512x1024_d0_w32) (k0_pay7 (k0_pay1 (View.ld x0 r0_0)) (k0_pay2 (View.ld x1 r0_1)) (iota .tc S512x1024 32 [0] iota_S512x1024_d0_w32) (k0_pay5 (k0_pay1 (View.ld x0 r0_0)) (k0_pay2 (View.ld x1 r0_1)) (iota .tc S512x1024 32 [0] iota_S512x1024_d0_w32) (k0_pay3 (View.ld x0 r0_0) (View.ld x1 r0_1) (View.ld x2 r0_2) (View.ld x2 r0_3) (View.ld x2 r0_4)) (k0_pay4 (View.ld x0 r0_0)) (View.ld x2 r0_5) (View.ld x2 r0_6) (View.ld x2 r0_7) (View.ld x2 r0_8)) (k0_pay6 (k0_pay1 (View.ld x0 r0_0)) (iota .tc S512x1024 32 [0] iota_S512x1024_d0_w32)) (View.ld x2 r0_9) (View.ld x2 r0_10) (View.ld x2 r0_11) (View.ld x2 r0_12)) (k0_pay8 (k0_pay1 (View.ld x0 r0_0)) (iota .tc S512x1024 32 [0] iota_S512x1024_d0_w32)) (View.ld x2 r0_13) (View.ld x2 r0_14) (View.ld x2 r0_15) (View.ld x2 r0_16)) (k0_pay10 (k0_pay1 (View.ld x0 r0_0)) (iota .tc S512x1024 32 [0] iota_S512x1024_d0_w32)) (View.ld x2 r0_17) (View.ld x2 r0_18) (View.ld x2 r0_19) (View.ld x2 r0_20)) (k0_pay12 (k0_pay1 (View.ld x0 r0_0)) (iota .tc S512x1024 32 [0] iota_S512x1024_d0_w32)) (View.ld x2 r0_21) (View.ld x2 r0_22) (View.ld x2 r0_23) (View.ld x2 r0_24)) (k0_pay14 (k0_pay1 (View.ld x0 r0_0)) (iota .tc S512x1024 32 [0] iota_S512x1024_d0_w32)) (View.ld x2 r0_25) (View.ld x2 r0_26) (View.ld x2 r0_27) (View.ld x2 r0_28)) (k0_pay16 (k0_pay1 (View.ld x0 r0_0)) (iota .tc S512x1024 32 [0] iota_S512x1024_d0_w32)) (View.ld x2 r0_29) (View.ld x2 r0_30) (View.ld x2 r0_31) (View.ld x2 r0_32)) (k0_pay18 (k0_pay1 (View.ld x0 r0_0)) (iota .tc S512x1024 32 [0] iota_S512x1024_d0_w32)) (View.ld x2 r0_33) (View.ld x2 r0_34) (View.ld x2 r0_35) (View.ld x2 r0_36)) (k0_pay20 (k0_pay1 (View.ld x0 r0_0)) (iota .tc S512x1024 32 [0] iota_S512x1024_d0_w32)) (View.ld x2 r0_37) (View.ld x2 r0_38) (View.ld x2 r0_39) (View.ld x2 r0_40)

/-- The body's one store is the rest of the network applied to the layer-1 block. -/
theorem out0_10_eq (x0 : Vec F S39x1024 .i32) (x1 : Vec F S16x512 .f32) (x2 : Vec F S39x256x16 .f32) (x3 : Vec F S256x1 .f32)
    (x4 : Vec F S128x256 .f32) (x5 : Vec F S128x1 .f32) (x6 : Vec F S64x128 .f32) (x7 : Vec F S64x1 .f32) (x8 : Vec F S64x1 .f32)
    (x9 : Vec F S1x1 .f32) :
    out0_10 x0 x1 x2 x3 x4 x5 x6 x7 x8 x9
      = View.canon [⟨r0_47, k0_pay22 (chain x0 x1 x2) (View.ld x3 r0_41) (View.ld x4 r0_42) (View.ld x5 r0_43) (View.ld x6 r0_44) (View.ld x7 r0_45) (View.ld x8 r0_45) (View.ld x9 r0_46)⟩] := rfl

end Cert.ReferenceIdeal.RefValue

end
-- ==== Proof.RefBlocks.lean ====
/-
  The reference's region (the network on column blocks of 1024 batch rows), read as values at the buffer contents the
  region is entered with.

  The grid has 128 points. Point t reads columns 1024 t … 1024 t + 1023 of the [39, 131072] index array and the nine
  resident arrays whole (the padded transposed table, the per-field first weights, the three transposed biases, the two
  transposed weight matrices, the last layer's column and its bias), and writes columns 1024 t … 1024 t + 1023 of the
  [1, 131072] result row: one store of the rest of the network applied to the layer-1 block of those blocks. So the result
  row after the run is, at column b, entry b % 1024 of that arithmetic on block b / 1024.
-/
import proofs.«142501_g2000002412256652_pallasbulk_1227_4_alg».proof.Proof.Gen.ReferenceIdeal.Frame
import proofs.«142501_g2000002412256652_pallasbulk_1227_4_alg».proof.Proof.RefChainDef
import Idealize.ShloMosaic.Lib.Pipeline.Value
import Idealize.ShloMosaic.Lib.ValueIdx

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

theorem hzB : (![0, 0] : Fin 2 → Nat) = fun _ => 0 := funext fun a => by fin_cases a <;> rfl

/-- Columns 1024 t … 1024 t + 1023 of the index array. -/
def idxBlk (A : S39x131072.Idx → Elt F .i32) (t : Fin 128) : Vec F S39x1024 .i32 :=
  fun y => A (ix2 (⟨(y 0).val, (y 0).isLt⟩ : Fin 39) (⟨1024 * t.val + (y 1).val, by have : (y 1).val < 1024 := (y 1).isLt; omega⟩ : Fin 131072))

/-- The output block of point t: the rest of the network applied to the layer-1 block of the point's blocks. -/
def outBlkR (A0 : S39x131072.Idx → Elt F .i32) (A1 : Vec F S16x512 .f32) (A2 : Vec F S39x256x16 .f32) (A3 : Vec F S256x1 .f32)
    (A4 : Vec F S128x256 .f32) (A5 : Vec F S128x1 .f32) (A6 : Vec F S64x128 .f32) (A7 : Vec F S64x1 .f32) (A8 : Vec F S64x1 .f32)
    (A9 : Vec F S1x1 .f32) (t : Fin 128) : Vec F S1x1024 .f32 :=
  k0_pay22 (chain (idxBlk A0 t) A1 A2) A3 A4 A5 A6 A7 A8 A9

/-- The result row: column b is entry b % 1024 of block b / 1024. -/
def rowR (B : Fin 128 → Vec F S1x1024 .f32) : S1x131072.Idx → Elt F .f32 :=
  fun i => B ⟨(i 1).val / 1024, by have : (i 1).val < 131072 := (i 1).isLt; omega⟩ (ix2 (0 : Fin 1) (⟨(i 1).val % 1024, Nat.mod_lt _ (by norm_num)⟩ : Fin 1024))

/-- The printed index maps over the grid: the index array's and the result row's blocks move along axis 1 with the
    point, every other window stays at its one block. -/
theorem idx_facts : ∀ t : Fin cfg0.N, win0_0.index t (0 : Fin 2) = 0 ∧ win0_0.index t (1 : Fin 2) = t.val
    ∧ win0_10.index t (0 : Fin 2) = 0 ∧ win0_10.index t (1 : Fin 2) = t.val
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

theorem tlt (t : Fin cfg0.N) : t.val < 128 := by have h1 := t.isLt; have h2 : cfg0.N = 128 := N_0; omega

/-- The index window's block at point t is columns 1024 t … of its array. -/
theorem iblk_idx (c : Dev nD) (t : Fin cfg0.N) :
    (iblk m c 0 t : Vec F S39x1024 .i32) = idxBlk (V m c main_call0_v4) ⟨t.val, tlt t⟩ := by
  obtain ⟨e0, e1, -⟩ := idx_facts t
  funext y
  unfold iblk idxBlk
  rw [View.read_apply]
  show V m c main_call0_v4 _ = V m c main_call0_v4 _
  congr 1
  funext a
  apply Fin.ext
  match a with
  | ⟨0, _⟩ => show win0_0.index t (0 : Fin 2) * 39 + 1 * (y 0).val = (y 0).val; rw [e0]; omega
  | ⟨1, _⟩ => show win0_0.index t (1 : Fin 2) * 1024 + 1 * (y 1).val = 1024 * t.val + (y 1).val; rw [e1]; omega

/-- Window 1 is resident: its block at every point is its whole array. -/
theorem iblk_res1 (c : Dev nD) (t : Fin cfg0.N) : (iblk m c 1 t : Vec F S16x512 .f32) = V m c main_call0_v6 := by
  have hf := idx_facts t
  have e0 : win0_1.index t (0 : Fin 2) = 0 := by tauto
  have e1 : win0_1.index t (1 : Fin 2) = 0 := by tauto
  funext y
  unfold iblk
  rw [View.read_apply]
  show V m c main_call0_v6 _ = V m c main_call0_v6 y
  congr 1
  funext a
  apply Fin.ext
  match a with
  | ⟨0, _⟩ => show win0_1.index t (0 : Fin 2) * 16 + 1 * (y 0).val = (y 0).val; rw [e0]; omega
  | ⟨1, _⟩ => show win0_1.index t (1 : Fin 2) * 512 + 1 * (y 1).val = (y 1).val; rw [e1]; omega

/-- Window 2 is resident: its block at every point is its whole array. -/
theorem iblk_res2 (c : Dev nD) (t : Fin cfg0.N) : (iblk m c 2 t : Vec F S39x256x16 .f32) = V m c main_call0_v9 := by
  have hf := idx_facts t
  have e0 : win0_2.index t (0 : Fin 3) = 0 := by tauto
  have e1 : win0_2.index t (1 : Fin 3) = 0 := by tauto
  have e2 : win0_2.index t (2 : Fin 3) = 0 := by tauto
  funext y
  unfold iblk
  rw [View.read_apply]
  show V m c main_call0_v9 _ = V m c main_call0_v9 y
  congr 1
  funext a
  apply Fin.ext
  match a with
  | ⟨0, _⟩ => show win0_2.index t (0 : Fin 3) * 39 + 1 * (y 0).val = (y 0).val; rw [e0]; omega
  | ⟨1, _⟩ => show win0_2.index t (1 : Fin 3) * 256 + 1 * (y 1).val = (y 1).val; rw [e1]; omega
  | ⟨2, _⟩ => show win0_2.index t (2 : Fin 3) * 16 + 1 * (y 2).val = (y 2).val; rw [e2]; omega

/-- Window 3 is resident: its block at every point is its whole array. -/
theorem iblk_res3 (c : Dev nD) (t : Fin cfg0.N) : (iblk m c 3 t : Vec F S256x1 .f32) = V m c main_call0_v12 := by
  have hf := idx_facts t
  have e0 : win0_3.index t (0 : Fin 2) = 0 := by tauto
  have e1 : win0_3.index t (1 : Fin 2) = 0 := by tauto
  funext y
  unfold iblk
  rw [View.read_apply]
  show V m c main_call0_v12 _ = V m c main_call0_v12 y
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 1 + 1 * (y 1).val = (y 1).val; rw [e1]; omega

/-- Window 4 is resident: its block at every point is its whole array. -/
theorem iblk_res4 (c : Dev nD) (t : Fin cfg0.N) : (iblk m c 4 t : Vec F S128x256 .f32) = V m c main_call0_v10 := by
  have hf := idx_facts t
  have e0 : win0_4.index t (0 : Fin 2) = 0 := by tauto
  have e1 : win0_4.index t (1 : Fin 2) = 0 := by tauto
  funext y
  unfold iblk
  rw [View.read_apply]
  show V m c main_call0_v10 _ = V m c main_call0_v10 y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega

/-- Window 5 is resident: its block at every point is its whole array. -/
theorem iblk_res5 (c : Dev nD) (t : Fin cfg0.N) : (iblk m c 5 t : Vec F S128x1 .f32) = V m c main_call0_v13 := by
  have hf := idx_facts t
  have e0 : win0_5.index t (0 : Fin 2) = 0 := by tauto
  have e1 : win0_5.index t (1 : Fin 2) = 0 := by tauto
  funext y
  unfold iblk
  rw [View.read_apply]
  show V m c main_call0_v13 _ = V m c main_call0_v13 y
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 1 + 1 * (y 1).val = (y 1).val; rw [e1]; omega

/-- Window 6 is resident: its block at every point is its whole array. -/
theorem iblk_res6 (c : Dev nD) (t : Fin cfg0.N) : (iblk m c 6 t : Vec F S64x128 .f32) = V m c main_call0_v11 := by
  have hf := idx_facts t
  have e0 : win0_6.index t (0 : Fin 2) = 0 := by tauto
  have e1 : win0_6.index t (1 : Fin 2) = 0 := by tauto
  funext y
  unfold iblk
  rw [View.read_apply]
  show V m c main_call0_v11 _ = V m c main_call0_v11 y
  congr 1
  funext a
  apply Fin.ext
  match a with
  | ⟨0, _⟩ => show win0_6.index t (0 : Fin 2) * 64 + 1 * (y 0).val = (y 0).val; rw [e0]; omega
  | ⟨1, _⟩ => show win0_6.index t (1 : Fin 2) * 128 + 1 * (y 1).val = (y 1).val; rw [e1]; omega

/-- Window 7 is resident: its block at every point is its whole array. -/
theorem iblk_res7 (c : Dev nD) (t : Fin cfg0.N) : (iblk m c 7 t : Vec F S64x1 .f32) = V m c main_call0_v14 := by
  have hf := idx_facts t
  have e0 : win0_7.index t (0 : Fin 2) = 0 := by tauto
  have e1 : win0_7.index t (1 : Fin 2) = 0 := by tauto
  funext y
  unfold iblk
  rw [View.read_apply]
  show V m c main_call0_v14 _ = V m c main_call0_v14 y
  congr 1
  funext a
  apply Fin.ext
  match a with
  | ⟨0, _⟩ => show win0_7.index t (0 : Fin 2) * 64 + 1 * (y 0).val = (y 0).val; rw [e0]; omega
  | ⟨1, _⟩ => show win0_7.index t (1 : Fin 2) * 1 + 1 * (y 1).val = (y 1).val; rw [e1]; omega

/-- Window 8 is resident: its block at every point is its whole array. -/
theorem iblk_res8 (c : Dev nD) (t : Fin cfg0.N) : (iblk m c 8 t : Vec F S64x1 .f32) = V m c main_arg9 := by
  have hf := idx_facts t
  have e0 : win0_8.index t (0 : Fin 2) = 0 := by tauto
  have e1 : win0_8.index t (1 : Fin 2) = 0 := by tauto
  funext y
  unfold iblk
  rw [View.read_apply]
  show V m c main_arg9 _ = V m c main_arg9 y
  congr 1
  funext a
  apply Fin.ext
  match a with
  | ⟨0, _⟩ => show win0_8.index t (0 : Fin 2) * 64 + 1 * (y 0).val = (y 0).val; rw [e0]; omega
  | ⟨1, _⟩ => show win0_8.index t (1 : Fin 2) * 1 + 1 * (y 1).val = (y 1).val; rw [e1]; omega

/-- Window 9 is resident: its block at every point is its whole array. -/
theorem iblk_res9 (c : Dev nD) (t : Fin cfg0.N) : (iblk m c 9 t : Vec F S1x1 .f32) = V m c main_arg10 := by
  have hf := idx_facts t
  have e0 : win0_9.index t (0 : Fin 2) = 0 := by tauto
  have e1 : win0_9.index t (1 : Fin 2) = 0 := by tauto
  funext y
  unfold iblk
  rw [View.read_apply]
  show V m c main_arg10 _ = V m c main_arg10 y
  congr 1
  funext a
  apply Fin.ext
  match a with
  | ⟨0, _⟩ => show win0_9.index t (0 : Fin 2) * 1 + 1 * (y 0).val = (y 0).val; rw [e0]; omega
  | ⟨1, _⟩ => show win0_9.index t (1 : Fin 2) * 1 + 1 * (y 1).val = (y 1).val; rw [e1]; omega

/-- The result row of the region as a function of the arrays the region finds. -/
def arr10 (c : Dev nD) : S1x131072.Idx → Elt F .f32 :=
  rowR fun t => outBlkR (V m c main_call0_v4) (V m c main_call0_v6) (V m c main_call0_v9) (V m c main_call0_v12) (V m c main_call0_v10)
    (V m c main_call0_v13) (V m c main_call0_v11) (V m c main_call0_v14) (V m c main_arg9) (V m c main_arg10) t

/-- What point t writes back is block t of the result row. -/
theorem flushed_eq (c : Dev nD) (t : Fin cfg0.N) :
    (dats m 0 c).flushed 10 t = ((cfg0.win 10).blk t).view.read (Elt F) (arr10 m c) := by
  show (cfg0.win 10).cut (grid0.coords t) ((dats m 0 c).after 10 t) = _
  rw [after0_10, out0_10_eq]
  rw [View.canon_unit_zero hzB]
  simp only [View.ld_unit_zero (S := S256x1) hzB, View.ld_unit_zero (S := S128x256) hzB, View.ld_unit_zero (S := S128x1) hzB,
    View.ld_unit_zero (S := S64x128) hzB, View.ld_unit_zero (S := S64x1) hzB, View.ld_unit_zero (S := S1x1) hzB]
  rw [iblk_idx m c t, iblk_res1 m c t, iblk_res2 m c t, iblk_res3 m c t, iblk_res4 m c t, iblk_res5 m c t, iblk_res6 m c t,
    iblk_res7 m c t, iblk_res8 m c t, iblk_res9 m c t]
  obtain ⟨-, -, e0, e1, -⟩ := idx_facts t
  funext j
  rw [View.read_apply]
  have hj0 : (j 0).val = 0 := by have : (j 0).val < 1 := (j 0).isLt; omega
  have hj1 : (j 1).val < 1024 := (j 1).isLt
  have ht := tlt t
  have hemb : ((((cfg0.win 10).blk t).view.emb j) 1).val = 1024 * t.val + (j 1).val := by
    show win0_10.index t (1 : Fin 2) * 1024 + 1 * (j 1).val = _
    rw [e1]; omega
  unfold arr10 rowR
  dsimp only
  have hq : (⟨((((cfg0.win 10).blk t).view.emb j) 1).val / 1024, by rw [hemb]; omega⟩ : Fin 128) = ⟨t.val, ht⟩ :=
    Fin.ext (by show ((((cfg0.win 10).blk t).view.emb j) 1).val / 1024 = t.val; rw [hemb]; omega)
  have hr : (ix2 (0 : Fin 1) (⟨((((cfg0.win 10).blk t).view.emb j) 1).val % 1024, Nat.mod_lt _ (by norm_num)⟩ : Fin 1024) : S1x1024.Idx) = j := by
    funext a
    apply Fin.ext
    match a with
    | ⟨0, _⟩ => show (0 : Nat) = (j 0).val; omega
    | ⟨1, _⟩ => show ((((cfg0.win 10).blk t).view.emb j) 1).val % 1024 = (j 1).val; rw [hemb]; omega
  rw [hq, hr]
  rfl

/-- An index of the result row is in point t's block iff each coordinate is in the block's range. -/
theorem mem_blk (t : Fin cfg0.N) (i : S1x131072.Idx) :
    i ∈ ((cfg0.win 10).blk t).view.set ↔ ∀ a : Fin 2, win0_10.index t a * S1x1024.size a ≤ (i a).val ∧ (i a).val < win0_10.index t a * S1x1024.size a + S1x1024.size a := by
  show i ∈ ((View.whole main_call0_v15).slice (win0_10.rect t)).set ↔ _
  rw [View.set_slice_whole, Rect.mem_set_unit]
  exact Iff.rfl

/-- Every column block of the result row is some point's block. -/
theorem idx_onto : ∀ q : Fin 128, ∃ t : Fin cfg0.N, win0_10.index t = ![0, q.val] :=
  (by decide +kernel : ∀ q : Fin 128, ∃ t : Fin grid0.N, win0_10.index t = ![0, q.val])

/-- The result row after the region: the blocks tile it, so it is the function of the entry arrays everywhere. -/
theorem arrAt10 (c : Dev nD) : (dats m 0 c).arrAt 10 cfg0.N = arr10 m c :=
  (dats m 0 c).arrAt_eq_of_cover 10 (arr10 m c) (fun t _ => flushed_eq m c t) fun i => by
    have hi0 : (i 0).val < 1 := (i 0).isLt
    have hi1 : (i 1).val < 131072 := (i 1).isLt
    obtain ⟨t, ht⟩ := idx_onto ⟨(i 1).val / 1024, by omega⟩
    have q0 : win0_10.index t (0 : Fin 2) = 0 := congrFun ht 0
    have q1 : win0_10.index t (1 : Fin 2) = (i 1).val / 1024 := congrFun ht 1
    refine ⟨t, flush0_10 t, ?_⟩
    rw [mem_blk]
    intro a
    match a with
    | ⟨0, _⟩ => show win0_10.index t (0 : Fin 2) * 1 ≤ (i 0).val ∧ (i 0).val < win0_10.index t (0 : Fin 2) * 1 + 1; omega
    | ⟨1, _⟩ => show win0_10.index t (1 : Fin 2) * 1024 ≤ (i 1).val ∧ (i 1).val < win0_10.index t (1 : Fin 2) * 1024 + 1024; omega

end Cert.ReferenceIdeal.RefValue

end
-- ==== Proof.RefHost.lean ====
/-
  What the host operations before the kernel leave in the arrays the kernel reads.

  The index array is x + offsets (the offsets broadcast down the batch), transposed: entry (f, b) is x(b, f) + off(f) as
  32-bit words. The table array is the embedding table padded with five zero rows and transposed: entry (d, u) is
  E(u, d) for u < 507 and 0 above. The stacked weights are W1 transposed, its 624 columns split 39 × 16, the field axis
  brought to the front: entry (f, h, d) is W1(16 f + d, h). The remaining arrays are plain transposes or the arguments
  themselves.
-/
import proofs.«142501_g2000002412256652_pallasbulk_1227_4_alg».proof.Proof.Spec
import proofs.«142501_g2000002412256652_pallasbulk_1227_4_alg».proof.Proof.Gen.ReferenceIdeal.Frame
import Idealize.ShloMosaic.Lib.Pipeline.Value
import Idealize.ShloMosaic.Lib.ValueLayout
import Idealize.ShloMosaic.Lib.KernelVsHost
import Idealize.ShloMosaic.Lib.StableHlo.Run

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.Spec

variable (m : (ℓ : Loc nD τ sig) → Buf (Elt Ideal) ℓ)

/-- The arguments the first layer reads, as plain arrays: the categorical inputs, the embedding table, the field offsets,
    the first weight matrix. -/
abbrev aX (c : Dev nD) : (⟨2, ![131072, 39]⟩ : Shape).Idx → BitVec 32 := m ((c.tc : Thread nD τ).loc main_arg0)
abbrev aE (c : Dev nD) : (⟨2, ![507, 16]⟩ : Shape).Idx → EReal := m ((c.tc : Thread nD τ).loc main_arg1)
abbrev aO (c : Dev nD) : (⟨1, ![39]⟩ : Shape).Idx → BitVec 32 := m ((c.tc : Thread nD τ).loc main_arg2)
abbrev aW1 (c : Dev nD) : (⟨2, ![624, 256]⟩ : Shape).Idx → EReal := m ((c.tc : Thread nD τ).loc main_arg3)

/-! ## The arrays as terms of the arguments -/

theorem hostIdx (c : Dev nD) : (V m c main_call0_v4 : S39x131072.Idx → BitVec 32) =
    pad S39x131072 ![0, 0] ![0, 0] ![0, 0]
      (transpose S39x131072 [1, 0]
        (addi (m ((c.tc : Thread nD τ).loc main_arg0) : S131072x39.Idx → BitVec 32)
          (broadcastInDim S131072x39 ![0, 1] bcast_S1x39_S131072x39_0_1
            (broadcastInDim S1x39 ![1] bcast_S39_S1x39_1 (m ((c.tc : Thread nD τ).loc main_arg2) : S39.Idx → BitVec 32))))
        transposes_S131072x39_S39x131072_1_0)
      (id (constantI S_ 32 0#32)) pads_S39x131072_S39x131072_000_000 h_S_ := by
  show StableHlo.after hostOps0 (fun b => m (c, b)) (Proc.devRef .tc main_call0_v4) = _
  after_results
  rfl

theorem hostTab (c : Dev nD) : (V m c main_call0_v6 : S16x512.Idx → EReal) =
    transpose S16x512 [1, 0]
      (pad S512x16 ![0, 0] ![5, 0] ![0, 0] (m ((c.tc : Thread nD τ).loc main_arg1) : S507x16.Idx → EReal)
        (sitofp (F := Ideal) .f32 (constantI S_ 32 0#32)) pads_S507x16_S512x16_050_000 h_S_)
      transposes_S512x16_S16x512_1_0 := by
  show StableHlo.after hostOps0 (fun b => m (c, b)) (Proc.devRef .tc main_call0_v6) = _
  after_results
  rfl

theorem hostW1 (c : Dev nD) : (V m c main_call0_v9 : S39x256x16.Idx → EReal) =
    transpose S39x256x16 [1, 0, 2]
      (shapeCast S256x39x16
        (transpose S256x624 [1, 0] (m ((c.tc : Thread nD τ).loc main_arg3) : S624x256.Idx → EReal) transposes_S624x256_S256x624_1_0)
        shapeCasts_S256x624_S256x39x16)
      transposes_S256x39x16_S39x256x16_1_0_2 := by
  show StableHlo.after hostOps0 (fun b => m (c, b)) (Proc.devRef .tc main_call0_v9) = _
  after_results
  rfl

theorem hostB1 (c : Dev nD) : (V m c main_call0_v12 : S256x1.Idx → EReal) =
    transpose S256x1 [1, 0] (m ((c.tc : Thread nD τ).loc main_arg4) : S1x256.Idx → EReal) transposes_S1x256_S256x1_1_0 := by
  show StableHlo.after hostOps0 (fun b => m (c, b)) (Proc.devRef .tc main_call0_v12) = _
  after_results
  rfl

theorem hostW2 (c : Dev nD) : (V m c main_call0_v10 : S128x256.Idx → EReal) =
    transpose S128x256 [1, 0] (m ((c.tc : Thread nD τ).loc main_arg5) : S256x128.Idx → EReal) transposes_S256x128_S128x256_1_0 := by
  show StableHlo.after hostOps0 (fun b => m (c, b)) (Proc.devRef .tc main_call0_v10) = _
  after_results
  rfl

theorem hostB2 (c : Dev nD) : (V m c main_call0_v13 : S128x1.Idx → EReal) =
    transpose S128x1 [1, 0] (m ((c.tc : Thread nD τ).loc main_arg6) : S1x128.Idx → EReal) transposes_S1x128_S128x1_1_0 := by
  show StableHlo.after hostOps0 (fun b => m (c, b)) (Proc.devRef .tc main_call0_v13) = _
  after_results
  rfl

theorem hostW3 (c : Dev nD) : (V m c main_call0_v11 : S64x128.Idx → EReal) =
    transpose S64x128 [1, 0] (m ((c.tc : Thread nD τ).loc main_arg7) : S128x64.Idx → EReal) transposes_S128x64_S64x128_1_0 := by
  show StableHlo.after hostOps0 (fun b => m (c, b)) (Proc.devRef .tc main_call0_v11) = _
  after_results
  rfl

theorem hostB3 (c : Dev nD) : (V m c main_call0_v14 : S64x1.Idx → EReal) =
    transpose S64x1 [1, 0] (m ((c.tc : Thread nD τ).loc main_arg8) : S1x64.Idx → EReal) transposes_S1x64_S64x1_1_0 := by
  show StableHlo.after hostOps0 (fun b => m (c, b)) (Proc.devRef .tc main_call0_v14) = _
  after_results
  rfl

/-! ## Read at an index -/

/-- A transposed matrix is the matrix read transposed. -/
theorem transpose_eq_tr {a b : Nat} (M : (⟨2, ![a, b]⟩ : Shape).Idx → EReal)
    (h : (⟨2, ![a, b]⟩ : Shape).Transposes [1, 0] ⟨2, ![b, a]⟩) :
    transpose ⟨2, ![b, a]⟩ [1, 0] M h = tr M := by
  funext i
  obtain ⟨p, q, rfl⟩ : ∃ (p : Fin b) (q : Fin a), i = ix2 p q := ⟨i 0, i 1, eq_ix2 i⟩
  rw [transpose_ix2_apply]
  rfl

/-- Entry (f, b) of the index array: the row's value of field f plus the field's offset, as 32-bit words. -/
theorem idx_at (c : Dev nD) (f : Fin 39) (b : Fin 131072) :
    (V m c main_call0_v4 : S39x131072.Idx → BitVec 32) (ix2 f b)
      = aX m c (ix2 b f) + aO m c (ix1 f) := by
  rw [hostIdx]
  rw [pad_apply_of_inside (s := S39x131072) (t := S39x131072) ![0, 0] ![0, 0] ![0, 0] _ _ pads_S39x131072_S39x131072_000_000 h_S_ (ix2 f b) (ix2 f b) (fun a => by
    match a with
    | ⟨0, _⟩ => show f.val = 0 + f.val * (0 + 1); omega
    | ⟨1, _⟩ => show b.val = 0 + b.val * (0 + 1); omega)]
  rw [transpose_ix2_apply]
  show aX m c (ix2 b f) + _ = _
  refine congrArg (aX m c (ix2 b f) + ·) ?_
  rw [broadcastInDim_apply ![0, 1] bcast_S1x39_S131072x39_0_1 _ (ix2 b f) (ix2 (0 : Fin 1) f) (fun a => by
    match a with
    | ⟨0, _⟩ => rfl
    | ⟨1, _⟩ => rfl)]
  rw [broadcastInDim_apply ![1] bcast_S39_S1x39_1 _ (ix2 (0 : Fin 1) f) (ix1 f) (fun a => by
    match a with
    | ⟨0, _⟩ => rfl)]

/-- Entry (d, u) of the table array: the padded, transposed embedding table. -/
theorem tab_at (c : Dev nD) (d : Fin 16) (u : Fin 512) :
    (V m c main_call0_v6 : S16x512.Idx → EReal) (ix2 d u)
      = padE (aE m c) d u := by
  rw [hostTab, transpose_ix2_apply]
  unfold padE
  by_cases hu : u.val < 507
  · rw [dif_pos hu]
    exact pad_apply_of_inside (s := S507x16) (t := S512x16) ![0, 0] ![5, 0] ![0, 0] _ _ pads_S507x16_S512x16_050_000 h_S_ (ix2 u d) (ix2 ⟨u.val, hu⟩ d) (fun a => by
      match a with
      | ⟨0, _⟩ => show u.val = 0 + u.val * (0 + 1); omega
      | ⟨1, _⟩ => show d.val = 0 + d.val * (0 + 1); omega)
  · rw [dif_neg hu]
    refine (pad_apply_of_not_inside (s := S507x16) (t := S512x16) ![0, 0] ![5, 0] ![0, 0] _ _ pads_S507x16_S512x16_050_000 h_S_ (ix2 u d) (0 : Fin 2) (fun hh => hu ?_)).trans ?_
    · have h3 : (u.val - 0) / (0 + 1) < 507 := hh.2.2
      omega
    · show (((0#32 : BitVec 32).toInt : ℝ) : EReal) = 0
      simp

/-- Entry (f, h, d) of the stacked weights: row 16 f + d, column h of the first weight matrix. -/
theorem w1_at (c : Dev nD) (f : Fin 39) (h : Fin 256) (d : Fin 16) :
    (V m c main_call0_v9 : S39x256x16.Idx → EReal) (ix3 f h d)
      = aW1 m c (ix2 (fcol f d) h) := by
  rw [hostW1]
  rw [transpose_apply [1, 0, 2] _ transposes_S256x39x16_S39x256x16_1_0_2 (ix3 f h d) (ix3 h f d) (fun b => by
    match b with
    | ⟨0, _⟩ => rfl
    | ⟨1, _⟩ => rfl
    | ⟨2, _⟩ => rfl)]
  rw [shapeCast_apply _ shapeCasts_S256x624_S256x39x16 (ix3 h f d) (ix2 h (fcol f d)) (by
    rw [Shape.rowMajor_val_two, Shape.rowMajor_val_three]
    show h.val * 624 + (16 * f.val + d.val) = (h.val * 39 + f.val) * 16 + d.val
    omega)]
  rw [transpose_ix2_apply]

end Cert.ReferenceIdeal.RefValue

end
-- ==== Proof.RefStep.lean ====
/-
  One field of layer 1, read at an index.

  For field f the program compares a 512-row iota against row f of the index block (a 0/1 block, "one-hot" down each
  column), multiplies the 16 × 512 table by it, multiplies the field's 256 × 16 weight block by the result, and adds
  that to the accumulator. Over the extended reals every one of these operations is exact, so at entry (h, j) the
  field adds  Σ_d w(h, d) · Σ_u tab(d, u) · [u = idx(f, j)].  Nothing is collapsed here: the sum over u stays.
-/
import proofs.«142501_g2000002412256652_pallasbulk_1227_4_alg».proof.Proof.Spec
import proofs.«142501_g2000002412256652_pallasbulk_1227_4_alg».proof.Proof.Gen.ReferenceIdeal.Skeleton
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx Cert.ReferenceIdeal Cert.ReferenceIdeal.Gen Cert.Spec

/-- A truth value as a one-bit word, widened to 32 bits and read as a signed integer, is 1 or 0. -/
theorem toInt_setWidth_ofBool (b : Bool) : (((BitVec.ofBool b).setWidth 32).toInt : ℝ) = if b then 1 else 0 := by
  cases b
  · have h : ((BitVec.ofBool false).setWidth 32).toInt = 0 := by decide
    rw [h]; simp
  · have h : ((BitVec.ofBool true).setWidth 32).toInt = 1 := by decide
    rw [h]; simp

theorem d1r : dot_S16x512_S512x1024_S16x1024_1_0_0_1_n_n.contr.rank = 1 := by decide
theorem d1s : dot_S16x512_S512x1024_S16x1024_1_0_0_1_n_n.contr.size ⟨0, by rw [d1r]; exact Nat.one_pos⟩ = 512 := by decide
theorem d2r : dot_S256x16_S16x1024_S256x1024_1_0_0_1_n_n.contr.rank = 1 := by decide
theorem d2s : dot_S256x16_S16x1024_S256x1024_1_0_0_1_n_n.contr.size ⟨0, by rw [d2r]; exact Nat.one_pos⟩ = 16 := by decide

theorem lhs1_0 (i : S16x1024.Idx) (q : dot_S16x512_S512x1024_S16x1024_1_0_0_1_n_n.contr.Idx) :
    (dot_S16x512_S512x1024_S16x1024_1_0_0_1_n_n.lhsIdx i q 0).val = (i 0).val := by
  unfold DotDims.lhsIdx
  rw [dif_neg (show ¬(0 : Fin S16x512.rank) ∈ dot_S16x512_S512x1024_S16x1024_1_0_0_1_n_n.lhsBatch by decide),
    dif_pos (show (0 : Fin S16x512.rank) ∈ dot_S16x512_S512x1024_S16x1024_1_0_0_1_n_n.lhsNonContracting by decide)]
  rfl
theorem rhs1_1 (i : S16x1024.Idx) (q : dot_S16x512_S512x1024_S16x1024_1_0_0_1_n_n.contr.Idx) :
    (dot_S16x512_S512x1024_S16x1024_1_0_0_1_n_n.rhsIdx i q 1).val = (i 1).val := by
  unfold DotDims.rhsIdx
  rw [dif_neg (show ¬(1 : Fin S512x1024.rank) ∈ dot_S16x512_S512x1024_S16x1024_1_0_0_1_n_n.rhsBatch by decide),
    dif_pos (show (1 : Fin S512x1024.rank) ∈ dot_S16x512_S512x1024_S16x1024_1_0_0_1_n_n.rhsNonContracting by decide)]
  rfl
theorem lhs2_0 (i : S256x1024.Idx) (q : dot_S256x16_S16x1024_S256x1024_1_0_0_1_n_n.contr.Idx) :
    (dot_S256x16_S16x1024_S256x1024_1_0_0_1_n_n.lhsIdx i q 0).val = (i 0).val := by
  unfold DotDims.lhsIdx
  rw [dif_neg (show ¬(0 : Fin S256x16.rank) ∈ dot_S256x16_S16x1024_S256x1024_1_0_0_1_n_n.lhsBatch by decide),
    dif_pos (show (0 : Fin S256x16.rank) ∈ dot_S256x16_S16x1024_S256x1024_1_0_0_1_n_n.lhsNonContracting by decide)]
  rfl
theorem rhs2_1 (i : S256x1024.Idx) (q : dot_S256x16_S16x1024_S256x1024_1_0_0_1_n_n.contr.Idx) :
    (dot_S256x16_S16x1024_S256x1024_1_0_0_1_n_n.rhsIdx i q 1).val = (i 1).val := by
  unfold DotDims.rhsIdx
  rw [dif_neg (show ¬(1 : Fin S16x1024.rank) ∈ dot_S256x16_S16x1024_S256x1024_1_0_0_1_n_n.rhsBatch by decide),
    dif_pos (show (1 : Fin S16x1024.rank) ∈ dot_S256x16_S16x1024_S256x1024_1_0_0_1_n_n.rhsNonContracting by decide)]
  rfl

/-- The table times a 512 × 1024 block: entry (d, j) is the sum over the 512 rows. -/
theorem mm1_apply (tab : FVec Ideal S16x512 .f32) (oh : FVec Ideal S512x1024 .f32) (d : Fin 16) (j : Fin 1024) :
    matmul dot_S16x512_S512x1024_S16x1024_1_0_0_1_n_n none tab oh (constant (F := Ideal) S16x1024 .f32 0x00000000#32) (ix2 d j)
      = ∑ u : Fin 512, tab (ix2 d u) * oh (ix2 u j) := by
  refine (Ideal.matmul_constant_zero_apply dot_S16x512_S512x1024_S16x1024_1_0_0_1_n_n none tab oh (ix2 d j)).trans ?_
  rw [← Equiv.sum_comp (contrEquiv1 dot_S16x512_S512x1024_S16x1024_1_0_0_1_n_n 512 d1r d1s).symm]
  refine Finset.sum_congr rfl fun k _ => ?_
  have hk := contrEquiv1_symm_val dot_S16x512_S512x1024_S16x1024_1_0_0_1_n_n 512 d1r d1s k
  have el : dot_S16x512_S512x1024_S16x1024_1_0_0_1_n_n.lhsIdx (ix2 d j)
      ((contrEquiv1 dot_S16x512_S512x1024_S16x1024_1_0_0_1_n_n 512 d1r d1s).symm k) = ix2 d k :=
    funext fun a => Fin.ext (by
      match a with
      | ⟨0, _⟩ => exact lhs1_0 _ _
      | ⟨1, _⟩ => exact (dot_S16x512_S512x1024_S16x1024_1_0_0_1_n_n.lhsIdx_val_of_single rfl _ _).trans hk)
  have er : dot_S16x512_S512x1024_S16x1024_1_0_0_1_n_n.rhsIdx (ix2 d j)
      ((contrEquiv1 dot_S16x512_S512x1024_S16x1024_1_0_0_1_n_n 512 d1r d1s).symm k) = ix2 k j :=
    funext fun a => Fin.ext (by
      match a with
      | ⟨0, _⟩ => exact (dot_S16x512_S512x1024_S16x1024_1_0_0_1_n_n.rhsIdx_val_of_single rfl _ _).trans hk
      | ⟨1, _⟩ => exact rhs1_1 _ _)
  rw [el, er]

/-- The weight block times a 16 × 1024 block: entry (h, j) is the sum over the 16 embedding coordinates. -/
theorem mm2_apply (wl : FVec Ideal S256x16 .f32) (e : FVec Ideal S16x1024 .f32) (h : Fin 256) (j : Fin 1024) :
    matmul dot_S256x16_S16x1024_S256x1024_1_0_0_1_n_n none wl e (constant (F := Ideal) S256x1024 .f32 0x00000000#32) (ix2 h j)
      = ∑ d : Fin 16, wl (ix2 h d) * e (ix2 d j) := by
  refine (Ideal.matmul_constant_zero_apply dot_S256x16_S16x1024_S256x1024_1_0_0_1_n_n none wl e (ix2 h j)).trans ?_
  rw [← Equiv.sum_comp (contrEquiv1 dot_S256x16_S16x1024_S256x1024_1_0_0_1_n_n 16 d2r d2s).symm]
  refine Finset.sum_congr rfl fun k _ => ?_
  have hk := contrEquiv1_symm_val dot_S256x16_S16x1024_S256x1024_1_0_0_1_n_n 16 d2r d2s k
  have el : dot_S256x16_S16x1024_S256x1024_1_0_0_1_n_n.lhsIdx (ix2 h j)
      ((contrEquiv1 dot_S256x16_S16x1024_S256x1024_1_0_0_1_n_n 16 d2r d2s).symm k) = ix2 h k :=
    funext fun a => Fin.ext (by
      match a with
      | ⟨0, _⟩ => exact lhs2_0 _ _
      | ⟨1, _⟩ => exact (dot_S256x16_S16x1024_S256x1024_1_0_0_1_n_n.lhsIdx_val_of_single rfl _ _).trans hk)
  have er : dot_S256x16_S16x1024_S256x1024_1_0_0_1_n_n.rhsIdx (ix2 h j)
      ((contrEquiv1 dot_S256x16_S16x1024_S256x1024_1_0_0_1_n_n 16 d2r d2s).symm k) = ix2 k j :=
    funext fun a => Fin.ext (by
      match a with
      | ⟨0, _⟩ => exact (dot_S256x16_S16x1024_S256x1024_1_0_0_1_n_n.rhsIdx_val_of_single rfl _ _).trans hk
      | ⟨1, _⟩ => exact rhs2_1 _ _)
  rw [el, er]

/-- The comparison block of the field whose row of the index block starts at offsets `off`: entry (u, j) is the
    one-bit answer to "is word (u, j) of `iot` the field's index at column j?". -/
def cmpAt (iot : IVec S512x1024 32) (idx : IVec S39x1024 32) (off : Fin 2 → Nat) (hs : S39x1024.Slices off S1x1024) :
    IVec S512x1024 1 :=
  cmpi .eq iot (broadcastTo S512x1024 (extractStridedSlice S1x1024 off idx hs) broadcasts_S1x1024_S512x1024)

theorem cmpAt_apply (iot : IVec S512x1024 32) (idx : IVec S39x1024 32) (n : Nat) (hn : n < 39)
    (hs : S39x1024.Slices ![n, 0] S1x1024) (u : Fin 512) (j : Fin 1024) :
    cmpAt iot idx ![n, 0] hs (ix2 u j) = BitVec.ofBool (decide (iot (ix2 u j) = idx (ix2 ⟨n, hn⟩ j))) := by
  show IntOp.cmpi .eq (iot (ix2 u j))
    (broadcastTo S512x1024 (extractStridedSlice S1x1024 ![n, 0] idx hs) broadcasts_S1x1024_S512x1024 (ix2 u j)) = _
  rw [broadcastTo_1b_ab_apply, slice2_axis0_apply n idx hs (0 : Fin 1) j ⟨n, hn⟩ (by simp)]
  rfl

/-- A 0/1 comparison block widened and converted is the indicator, entry by entry. -/
theorem onehot_apply (c : IVec S512x1024 1) (u : Fin 512) (j : Fin 1024) (p : Prop) [Decidable p]
    (hc : c (ix2 u j) = BitVec.ofBool (decide p)) :
    (sitofp .f32 (extui 32 c natLt_1_32) : FVec Ideal S512x1024 .f32) (ix2 u j) = hot p := by
  show ((((c (ix2 u j)).setWidth 32).toInt : ℝ) : EReal) = hot p
  rw [hc, toInt_setWidth_ofBool]
  unfold hot
  by_cases hp : p <;> simp [hp]

/-- One field's product added to the accumulator. -/
def step (tab : FVec Ideal S16x512 .f32) (acc : FVec Ideal S256x1024 .f32) (w : Vec Ideal S1x256x16 .f32)
    (c : IVec S512x1024 1) : FVec Ideal S256x1024 .f32 :=
  addf acc (matmul dot_S256x16_S16x1024_S256x1024_1_0_0_1_n_n none (shapeCast S256x16 w shapeCasts_S1x256x16_S256x16 : FVec Ideal S256x16 .f32)
    (matmul dot_S16x512_S512x1024_S16x1024_1_0_0_1_n_n none tab (sitofp .f32 (extui 32 c natLt_1_32))
      (constant S16x1024 .f32 0x00000000#32)) (constant S256x1024 .f32 0x00000000#32))

/-- The step at entry (h, j), for a comparison block that answers the propositions `P u`. -/
theorem step_apply (tab : FVec Ideal S16x512 .f32) (acc : FVec Ideal S256x1024 .f32) (w : Vec Ideal S1x256x16 .f32)
    (c : IVec S512x1024 1) (h : Fin 256) (j : Fin 1024) (P : Fin 512 → Prop) [∀ u, Decidable (P u)]
    (hc : ∀ u, c (ix2 u j) = BitVec.ofBool (decide (P u))) :
    step tab acc w c (ix2 h j)
      = acc (ix2 h j) + ∑ d : Fin 16, w (ix3 (0 : Fin 1) h d) * ∑ u : Fin 512, tab (ix2 d u) * hot (P u) := by
  unfold step
  rw [addf_apply]
  refine congrArg (acc (ix2 h j) + ·) ?_
  refine (mm2_apply _ _ h j).trans ?_
  refine Finset.sum_congr rfl fun d _ => ?_
  rw [shapeCast_1ab_ab_apply, mm1_apply]
  refine congrArg (w (ix3 (0 : Fin 1) h d) * ·) ?_
  refine Finset.sum_congr rfl fun u _ => ?_
  rw [onehot_apply c u j (P u) (hc u)]

end Cert.ReferenceIdeal.RefValue

end
-- ==== Proof.RefChain.lean ====
/-
  The 39 fields of layer 1 accumulated.

  The block is built as ((0 + D_0) + D_1) + … + D_38, one field after the other, in ten stretches (three fields, then
  nine times four). At entry (h, j) every D_f is the field's double sum (RefStep), so the entry is a left-nested sum of
  39 extended reals; addition there being a plain recursion on the number of fields, it is the sum over f : Fin 39.
-/
import proofs.«142501_g2000002412256652_pallasbulk_1227_4_alg».proof.Proof.RefStep
import proofs.«142501_g2000002412256652_pallasbulk_1227_4_alg».proof.Proof.Gen.ReferenceIdeal.Frame
import proofs.«142501_g2000002412256652_pallasbulk_1227_4_alg».proof.Proof.RefChainDef

noncomputable section

namespace Cert.ReferenceIdeal.RefValue

open Idealize.ShloMosaic Idealize.ShloMosaic.ValueIdx Cert.ReferenceIdeal Cert.ReferenceIdeal.Gen Cert.Spec

/-- What field f adds at entry (h, j): Σ_d w(f, h, d) · Σ_u tab(d, u) · [u = idx(f, j)]. -/
def term (idx : IVec S39x1024 32) (tab : FVec Ideal S16x512 .f32) (x2 : FVec Ideal S39x256x16 .f32)
    (h : Fin 256) (j : Fin 1024) (f : Fin 39) : EReal :=
  ∑ d : Fin 16, x2 (ix3 f h d) * ∑ u : Fin 512, tab (ix2 d u) * hot (BitVec.ofNat 32 u.val = idx (ix2 f j))

/-- The same indexed by a natural number (zero past the last field). -/
def termN (idx : IVec S39x1024 32) (tab : FVec Ideal S16x512 .f32) (x2 : FVec Ideal S39x256x16 .f32)
    (h : Fin 256) (j : Fin 1024) (n : Nat) : EReal :=
  if hn : n < 39 then term idx tab x2 h j ⟨n, hn⟩ else 0

/-- A left-nested accumulation of the first n terms, from zero. -/
def accR (T : Nat → EReal) : Nat → EReal
  | 0 => 0
  | n + 1 => accR T n + T n

theorem accR_eq_sum (T : Nat → EReal) (n : Nat) : accR T n = ∑ i ∈ Finset.range n, T i := by
  induction n with
  | zero => rfl
  | succ n ih => rw [Finset.sum_range_succ, ← ih]; rfl

/-- All 39 terms accumulated are the sum over the fields. -/
theorem accR_fields (idx : IVec S39x1024 32) (tab : FVec Ideal S16x512 .f32) (x2 : FVec Ideal S39x256x16 .f32)
    (h : Fin 256) (j : Fin 1024) :
    accR (termN idx tab x2 h j) 39 = ∑ f : Fin 39, term idx tab x2 h j f := by
  rw [accR_eq_sum, ← Fin.sum_univ_eq_sum_range]
  refine Finset.sum_congr rfl fun f _ => ?_
  unfold termN
  rw [dif_pos f.isLt]

/-- The iota every field is compared against: word (u, j) is u. -/
abbrev rowIota : IVec S512x1024 32 := iota .tc S512x1024 32 [0] iota_S512x1024_d0_w32

theorem rowIota_apply (u : Fin 512) (j : Fin 1024) : rowIota (ix2 u j) = BitVec.ofNat 32 u.val :=
  iota_single_apply .tc S512x1024 32 0 iota_S512x1024_d0_w32 (ix2 u j)

/-- One field added, at entry (h, j): the field's weight block is block n of the stacked weights, its index row is
    row n of the index block. -/
theorem field_apply (idx : IVec S39x1024 32) (tab : FVec Ideal S16x512 .f32) (x2 : Vec Ideal S39x256x16 .f32)
    (acc : FVec Ideal S256x1024 .f32) (n : Nat) (hn : n < 39) (hs : S39x1024.Slices ![n, 0] S1x1024)
    (hr : ∀ a, (![n, 0, 0] : Fin 3 → Nat) a + S1x256x16.size a ≤ S39x256x16.size a)
    (h : Fin 256) (j : Fin 1024) (A : EReal) (hacc : acc (ix2 h j) = A) :
    step tab acc (View.ld x2 (Rect.unit (s := S39x256x16) ![n, 0, 0] S1x256x16.size hr)) (cmpAt rowIota idx ![n, 0] hs) (ix2 h j)
      = A + termN idx tab x2 h j n := by
  rw [step_apply tab acc _ _ h j (fun u => BitVec.ofNat 32 u.val = idx (ix2 ⟨n, hn⟩ j)) (fun u => by
    rw [cmpAt_apply rowIota idx n hn hs u j, rowIota_apply]), hacc]
  unfold termN
  rw [dif_pos hn]
  unfold term
  refine congrArg (A + ·) (Finset.sum_congr rfl fun d _ => ?_)
  refine congrArg (· * _) ?_
  show x2 _ = x2 _
  refine congrArg x2 (funext fun a => Fin.ext ?_)
  match a with
  | ⟨0, _⟩ => show n + 1 * 0 = n; omega
  | ⟨1, _⟩ => show 0 + 1 * h.val = h.val; omega
  | ⟨2, _⟩ => show 0 + 1 * d.val = d.val; omega

/-- Four consecutive fields added. -/
theorem four_apply (idx : IVec S39x1024 32) (tab : FVec Ideal S16x512 .f32) (x2 : Vec Ideal S39x256x16 .f32)
    (acc : FVec Ideal S256x1024 .f32) (n0 n1 n2 n3 m : Nat) (h1 : n1 = n0 + 1) (h2 : n2 = n0 + 2) (h3 : n3 = n0 + 3)
    (hm : m = n0 + 4) (hn : n0 + 3 < 39)
    (hs0 : S39x1024.Slices ![n0, 0] S1x1024) (hs1 : S39x1024.Slices ![n1, 0] S1x1024)
    (hs2 : S39x1024.Slices ![n2, 0] S1x1024) (hs3 : S39x1024.Slices ![n3, 0] S1x1024)
    (hr0 : ∀ a, (![n0, 0, 0] : Fin 3 → Nat) a + S1x256x16.size a ≤ S39x256x16.size a)
    (hr1 : ∀ a, (![n1, 0, 0] : Fin 3 → Nat) a + S1x256x16.size a ≤ S39x256x16.size a)
    (hr2 : ∀ a, (![n2, 0, 0] : Fin 3 → Nat) a + S1x256x16.size a ≤ S39x256x16.size a)
    (hr3 : ∀ a, (![n3, 0, 0] : Fin 3 → Nat) a + S1x256x16.size a ≤ S39x256x16.size a)
    (h : Fin 256) (j : Fin 1024) (hacc : acc (ix2 h j) = accR (termN idx tab x2 h j) n0) :
    step tab (step tab (step tab (step tab acc
        (View.ld x2 (Rect.unit (s := S39x256x16) ![n0, 0, 0] S1x256x16.size hr0)) (cmpAt rowIota idx ![n0, 0] hs0))
        (View.ld x2 (Rect.unit (s := S39x256x16) ![n1, 0, 0] S1x256x16.size hr1)) (cmpAt rowIota idx ![n1, 0] hs1))
        (View.ld x2 (Rect.unit (s := S39x256x16) ![n2, 0, 0] S1x256x16.size hr2)) (cmpAt rowIota idx ![n2, 0] hs2))
        (View.ld x2 (Rect.unit (s := S39x256x16) ![n3, 0, 0] S1x256x16.size hr3)) (cmpAt rowIota idx ![n3, 0] hs3) (ix2 h j)
      = accR (termN idx tab x2 h j) m := by
  subst h1 h2 h3 hm
  exact field_apply idx tab x2 _ (n0 + 3) (by omega) hs3 hr3 h j _
    (field_apply idx tab x2 _ (n0 + 2) (by omega) hs2 hr2 h j _
      (field_apply idx tab x2 _ (n0 + 1) (by omega) hs1 hr1 h j _
        (field_apply idx tab x2 _ n0 (by omega) hs0 hr0 h j _ hacc)))

/-- The accumulator after the first three fields. -/
def c3 (v0 : Vec Ideal S39x1024 .i32) (v2 : Vec Ideal S16x512 .f32) (x2 : Vec Ideal S39x256x16 .f32) : FVec Ideal S256x1024 .f32 :=
  k0_pay3 v0 v2 (View.ld x2 r0_2) (View.ld x2 r0_3) (View.ld x2 r0_4)

theorem c3_apply (v0 : Vec Ideal S39x1024 .i32) (v2 : Vec Ideal S16x512 .f32) (x2 : Vec Ideal S39x256x16 .f32)
    (h : Fin 256) (j : Fin 1024) :
    c3 v0 v2 x2 (ix2 h j) = accR (termN (k0_pay1 v0) (k0_pay2 v2) x2 h j) 3 :=
  field_apply (k0_pay1 v0) (k0_pay2 v2) x2 _ 2 (by omega) _ _ h j _
    (field_apply (k0_pay1 v0) (k0_pay2 v2) x2 _ 1 (by omega) _ _ h j _
      (field_apply (k0_pay1 v0) (k0_pay2 v2) x2 (broadcast S256x1024 (Scalar.ofBits .f32 0x00000000#32)) 0 (by omega) _ _ h j _
        (show (Ideal.ofBits .f32 0x00000000#32 : EReal) = 0 from Ideal.ofBits_zero_f32)))

/-- The accumulator after field 6. -/
def c7 (v0 : Vec Ideal S39x1024 .i32) (v2 : Vec Ideal S16x512 .f32) (x2 : Vec Ideal S39x256x16 .f32) : FVec Ideal S256x1024 .f32 :=
  k0_pay5 (k0_pay1 v0) (k0_pay2 v2) rowIota (c3 v0 v2 x2) (k0_pay4 v0) (View.ld x2 r0_5) (View.ld x2 r0_6) (View.ld x2 r0_7) (View.ld x2 r0_8)

theorem c7_apply (v0 : Vec Ideal S39x1024 .i32) (v2 : Vec Ideal S16x512 .f32) (x2 : Vec Ideal S39x256x16 .f32)
    (h : Fin 256) (j : Fin 1024) :
    c7 v0 v2 x2 (ix2 h j) = accR (termN (k0_pay1 v0) (k0_pay2 v2) x2 h j) 7 :=
  four_apply (k0_pay1 v0) (k0_pay2 v2) x2 (c3 v0 v2 x2) 3 4 5 6 7 rfl rfl rfl rfl (by omega) _ _ _ _ _ _ _ _ h j
    (c3_apply v0 v2 x2 h j)

/-- The accumulator after field 10. -/
def c11 (v0 : Vec Ideal S39x1024 .i32) (v2 : Vec Ideal S16x512 .f32) (x2 : Vec Ideal S39x256x16 .f32) : FVec Ideal S256x1024 .f32 :=
  k0_pay7 (k0_pay1 v0) (k0_pay2 v2) rowIota (c7 v0 v2 x2) (k0_pay6 (k0_pay1 v0) rowIota) (View.ld x2 r0_9) (View.ld x2 r0_10) (View.ld x2 r0_11) (View.ld x2 r0_12)

theorem c11_apply (v0 : Vec Ideal S39x1024 .i32) (v2 : Vec Ideal S16x512 .f32) (x2 : Vec Ideal S39x256x16 .f32)
    (h : Fin 256) (j : Fin 1024) :
    c11 v0 v2 x2 (ix2 h j) = accR (termN (k0_pay1 v0) (k0_pay2 v2) x2 h j) 11 :=
  four_apply (k0_pay1 v0) (k0_pay2 v2) x2 (c7 v0 v2 x2) 7 8 9 10 11 rfl rfl rfl rfl (by omega) _ _ _ _ _ _ _ _ h j
    (c7_apply v0 v2 x2 h j)

/-- The accumulator after field 14. -/
def c15 (v0 : Vec Ideal S39x1024 .i32) (v2 : Vec Ideal S16x512 .f32) (x2 : Vec Ideal S39x256x16 .f32) : FVec Ideal S256x1024 .f32 :=
  k0_pay9 (k0_pay1 v0) (k0_pay2 v2) rowIota (c11 v0 v2 x2) (k0_pay8 (k0_pay1 v0) rowIota) (View.ld x2 r0_13) (View.ld x2 r0_14) (View.ld x2 r0_15) (View.ld x2 r0_16)

theorem c15_apply (v0 : Vec Ideal S39x1024 .i32) (v2 : Vec Ideal S16x512 .f32) (x2 : Vec Ideal S39x256x16 .f32)
    (h : Fin 256) (j : Fin 1024) :
    c15 v0 v2 x2 (ix2 h j) = accR (termN (k0_pay1 v0) (k0_pay2 v2) x2 h j) 15 :=
  four_apply (k0_pay1 v0) (k0_pay2 v2) x2 (c11 v0 v2 x2) 11 12 13 14 15 rfl rfl rfl rfl (by omega) _ _ _ _ _ _ _ _ h j
    (c11_apply v0 v2 x2 h j)

/-- The accumulator after field 18. -/
def c19 (v0 : Vec Ideal S39x1024 .i32) (v2 : Vec Ideal S16x512 .f32) (x2 : Vec Ideal S39x256x16 .f32) : FVec Ideal S256x1024 .f32 :=
  k0_pay11 (k0_pay1 v0) (k0_pay2 v2) rowIota (c15 v0 v2 x2) (k0_pay10 (k0_pay1 v0) rowIota) (View.ld x2 r0_17) (View.ld x2 r0_18) (View.ld x2 r0_19) (View.ld x2 r0_20)

theorem c19_apply (v0 : Vec Ideal S39x1024 .i32) (v2 : Vec Ideal S16x512 .f32) (x2 : Vec Ideal S39x256x16 .f32)
    (h : Fin 256) (j : Fin 1024) :
    c19 v0 v2 x2 (ix2 h j) = accR (termN (k0_pay1 v0) (k0_pay2 v2) x2 h j) 19 :=
  four_apply (k0_pay1 v0) (k0_pay2 v2) x2 (c15 v0 v2 x2) 15 16 17 18 19 rfl rfl rfl rfl (by omega) _ _ _ _ _ _ _ _ h j
    (c15_apply v0 v2 x2 h j)

/-- The accumulator after field 22. -/
def c23 (v0 : Vec Ideal S39x1024 .i32) (v2 : Vec Ideal S16x512 .f32) (x2 : Vec Ideal S39x256x16 .f32) : FVec Ideal S256x1024 .f32 :=
  k0_pay13 (k0_pay1 v0) (k0_pay2 v2) rowIota (c19 v0 v2 x2) (k0_pay12 (k0_pay1 v0) rowIota) (View.ld x2 r0_21) (View.ld x2 r0_22) (View.ld x2 r0_23) (View.ld x2 r0_24)

theorem c23_apply (v0 : Vec Ideal S39x1024 .i32) (v2 : Vec Ideal S16x512 .f32) (x2 : Vec Ideal S39x256x16 .f32)
    (h : Fin 256) (j : Fin 1024) :
    c23 v0 v2 x2 (ix2 h j) = accR (termN (k0_pay1 v0) (k0_pay2 v2) x2 h j) 23 :=
  four_apply (k0_pay1 v0) (k0_pay2 v2) x2 (c19 v0 v2 x2) 19 20 21 22 23 rfl rfl rfl rfl (by omega) _ _ _ _ _ _ _ _ h j
    (c19_apply v0 v2 x2 h j)

/-- The accumulator after field 26. -/
def c27 (v0 : Vec Ideal S39x1024 .i32) (v2 : Vec Ideal S16x512 .f32) (x2 : Vec Ideal S39x256x16 .f32) : FVec Ideal S256x1024 .f32 :=
  k0_pay15 (k0_pay1 v0) (k0_pay2 v2) rowIota (c23 v0 v2 x2) (k0_pay14 (k0_pay1 v0) rowIota) (View.ld x2 r0_25) (View.ld x2 r0_26) (View.ld x2 r0_27) (View.ld x2 r0_28)

theorem c27_apply (v0 : Vec Ideal S39x1024 .i32) (v2 : Vec Ideal S16x512 .f32) (x2 : Vec Ideal S39x256x16 .f32)
    (h : Fin 256) (j : Fin 1024) :
    c27 v0 v2 x2 (ix2 h j) = accR (termN (k0_pay1 v0) (k0_pay2 v2) x2 h j) 27 :=
  four_apply (k0_pay1 v0) (k0_pay2 v2) x2 (c23 v0 v2 x2) 23 24 25 26 27 rfl rfl rfl rfl (by omega) _ _ _ _ _ _ _ _ h j
    (c23_apply v0 v2 x2 h j)

/-- The accumulator after field 30. -/
def c31 (v0 : Vec Ideal S39x1024 .i32) (v2 : Vec Ideal S16x512 .f32) (x2 : Vec Ideal S39x256x16 .f32) : FVec Ideal S256x1024 .f32 :=
  k0_pay17 (k0_pay1 v0) (k0_pay2 v2) rowIota (c27 v0 v2 x2) (k0_pay16 (k0_pay1 v0) rowIota) (View.ld x2 r0_29) (View.ld x2 r0_30) (View.ld x2 r0_31) (View.ld x2 r0_32)

theorem c31_apply (v0 : Vec Ideal S39x1024 .i32) (v2 : Vec Ideal S16x512 .f32) (x2 : Vec Ideal S39x256x16 .f32)
    (h : Fin 256) (j : Fin 1024) :
    c31 v0 v2 x2 (ix2 h j) = accR (termN (k0_pay1 v0) (k0_pay2 v2) x2 h j) 31 :=
  four_apply (k0_pay1 v0) (k0_pay2 v2) x2 (c27 v0 v2 x2) 27 28 29 30 31 rfl rfl rfl rfl (by omega) _ _ _ _ _ _ _ _ h j
    (c27_apply v0 v2 x2 h j)

/-- The accumulator after field 34. -/
def c35 (v0 : Vec Ideal S39x1024 .i32) (v2 : Vec Ideal S16x512 .f32) (x2 : Vec Ideal S39x256x16 .f32) : FVec Ideal S256x1024 .f32 :=
  k0_pay19 (k0_pay1 v0) (k0_pay2 v2) rowIota (c31 v0 v2 x2) (k0_pay18 (k0_pay1 v0) rowIota) (View.ld x2 r0_33) (View.ld x2 r0_34) (View.ld x2 r0_35) (View.ld x2 r0_36)

theorem c35_apply (v0 : Vec Ideal S39x1024 .i32) (v2 : Vec Ideal S16x512 .f32) (x2 : Vec Ideal S39x256x16 .f32)
    (h : Fin 256) (j : Fin 1024) :
    c35 v0 v2 x2 (ix2 h j) = accR (termN (k0_pay1 v0) (k0_pay2 v2) x2 h j) 35 :=
  four_apply (k0_pay1 v0) (k0_pay2 v2) x2 (c31 v0 v2 x2) 31 32 33 34 35 rfl rfl rfl rfl (by omega) _ _ _ _ _ _ _ _ h j
    (c31_apply v0 v2 x2 h j)

/-- The accumulator after field 38. -/
def c39 (v0 : Vec Ideal S39x1024 .i32) (v2 : Vec Ideal S16x512 .f32) (x2 : Vec Ideal S39x256x16 .f32) : FVec Ideal S256x1024 .f32 :=
  k0_pay21 (k0_pay1 v0) (k0_pay2 v2) rowIota (c35 v0 v2 x2) (k0_pay20 (k0_pay1 v0) rowIota) (View.ld x2 r0_37) (View.ld x2 r0_38) (View.ld x2 r0_39) (View.ld x2 r0_40)

theorem c39_apply (v0 : Vec Ideal S39x1024 .i32) (v2 : Vec Ideal S16x512 .f32) (x2 : Vec Ideal S39x256x16 .f32)
    (h : Fin 256) (j : Fin 1024) :
    c39 v0 v2 x2 (ix2 h j) = accR (termN (k0_pay1 v0) (k0_pay2 v2) x2 h j) 39 :=
  four_apply (k0_pay1 v0) (k0_pay2 v2) x2 (c35 v0 v2 x2) 35 36 37 38 39 rfl rfl rfl rfl (by omega) _ _ _ _ _ _ _ _ h j
    (c35_apply v0 v2 x2 h j)

/-- The whole block: entry (h, j) is the sum over the 39 fields. -/
theorem c39_eq (v0 : Vec Ideal S39x1024 .i32) (v2 : Vec Ideal S16x512 .f32) (x2 : Vec Ideal S39x256x16 .f32) :
    c39 v0 v2 x2 = fun i => ∑ f : Fin 39, term v0 v2 x2 (i 0) (i 1) f := by
  funext i
  obtain ⟨h, j, rfl⟩ : ∃ (h : Fin 256) (j : Fin 1024), i = ix2 h j := ⟨i 0, i 1, eq_ix2 i⟩
  rw [c39_apply, accR_fields]
  have e0 : k0_pay1 v0 = v0 := shapeCast_self _ _
  have e2 : k0_pay2 v2 = v2 := shapeCast_self _ _
  rw [e0, e2]

theorem hz2 : (![0, 0] : Fin 2 → Nat) = fun _ => 0 := funext fun a => by fin_cases a <;> rfl

/-- The layer-1 block of the three loaded blocks, entry (h, j): the sum over fields, embedding coordinates and table rows. -/
theorem chain_apply (x0 : Vec Ideal S39x1024 .i32) (x1 : Vec Ideal S16x512 .f32) (x2 : Vec Ideal S39x256x16 .f32)
    (h : Fin 256) (j : Fin 1024) :
    chain (F := Ideal) x0 x1 x2 (ValueIdx.ix2 h j)
      = ∑ f : Fin 39, ∑ d : Fin 16, x2 (ValueIdx.ix3 f h d) * ∑ u : Fin 512, x1 (ValueIdx.ix2 d u) * Cert.Spec.hot (BitVec.ofNat 32 u.val = x0 (ValueIdx.ix2 f j)) := by
  have e : chain (F := Ideal) x0 x1 x2 = c39 (View.ld x0 r0_0) (View.ld x1 r0_1) x2 := rfl
  rw [e, c39_eq, View.ld_unit_zero (S := S39x1024) hz2, View.ld_unit_zero (S := S16x512) hz2]
  rfl

/-- What the body leaves in the output block, with the first layer named. -/
theorem out_eq (x0 : Vec Ideal S39x1024 .i32) (x1 : Vec Ideal S16x512 .f32) (x2 : Vec Ideal S39x256x16 .f32)
    (x3 : Vec Ideal S256x1 .f32) (x4 : Vec Ideal S128x256 .f32) (x5 : Vec Ideal S128x1 .f32) (x6 : Vec Ideal S64x128 .f32)
    (x7 : Vec Ideal S64x1 .f32) (x8 : Vec Ideal S64x1 .f32) (x9 : Vec Ideal S1x1 .f32) :
    out0_10 x0 x1 x2 x3 x4 x5 x6 x7 x8 x9
      = View.canon [⟨r0_47, k0_pay22 (c39 (View.ld x0 r0_0) (View.ld x1 r0_1) x2) (View.ld x3 r0_41) (View.ld x4 r0_42)
          (View.ld x5 r0_43) (View.ld x6 r0_44) (View.ld x7 r0_45) (View.ld x8 r0_45) (View.ld x9 r0_46)⟩] := rfl

end Cert.ReferenceIdeal.RefValue

end
-- ==== Proof.RefLayer1.lean ====
/-
  The layer-1 block is the specification's field-by-field form, once the three loaded blocks are read as the arguments:
  the index block's entry (f, j) as x(1024 t + j, f) + off(f), the table block's entry (d, u) as the padded transposed
  embedding table, the stacked weights' entry (f, h, d) as W1(16 f + d, h). Both sides are the same triple sum.
-/
import proofs.«142501_g2000002412256652_pallasbulk_1227_4_alg».proof.Proof.RefChain

noncomputable section

namespace Cert.ReferenceIdeal.RefValue

open Idealize.ShloMosaic Idealize.ShloMosaic.ValueIdx Cert.ReferenceIdeal Cert.ReferenceIdeal.Gen Cert.Spec

theorem chain_eq_layer1R (x0 : Vec Ideal S39x1024 .i32) (x1 : Vec Ideal S16x512 .f32) (x2 : Vec Ideal S39x256x16 .f32)
    (X : (⟨2, ![131072, 39]⟩ : Shape).Idx → BitVec 32) (E : (⟨2, ![507, 16]⟩ : Shape).Idx → EReal)
    (O : (⟨1, ![39]⟩ : Shape).Idx → BitVec 32) (W1 : (⟨2, ![624, 256]⟩ : Shape).Idx → EReal) (t : Fin 128)
    (h0 : ∀ (f : Fin 39) (j : Fin 1024), x0 (ix2 f j) = X (ix2 (brow t j) f) + O (ix1 f))
    (h1 : ∀ (d : Fin 16) (u : Fin 512), x1 (ix2 d u) = padE E d u)
    (h2 : ∀ (f : Fin 39) (h : Fin 256) (d : Fin 16), x2 (ix3 f h d) = W1 (ix2 (fcol f d) h)) :
    chain (F := Ideal) x0 x1 x2 = layer1R X E O W1 t := by
  funext i
  obtain ⟨h, j, rfl⟩ : ∃ (h : Fin 256) (j : Fin 1024), i = ix2 h j := ⟨i 0, i 1, eq_ix2 i⟩
  rw [chain_apply]
  unfold layer1R
  refine Finset.sum_congr rfl fun f _ => Finset.sum_congr rfl fun d _ => ?_
  rw [h2 f h d]
  refine congrArg (W1 (ix2 (fcol f d) h) * ·) (Finset.sum_congr rfl fun u _ => ?_)
  rw [h1 d u, h0 f j]

end Cert.ReferenceIdeal.RefValue

end
-- ==== Proof.RefRun.lean ====
/-
  The reference's run with its result named. After the region the host reshapes the [1, 131072] result row to [131072]
  and then to [131072, 1]: entry (b, 0) of the result is column b of the row, which the region left at entry b % 1024 of
  the output block of point b / 1024. That block is the rest of the network applied to the layer-1 block, and the layer-1
  block, read through what the host operations before the region left in the region's arrays, is the specification's
  field-by-field form on the arguments.
-/
import proofs.«142501_g2000002412256652_pallasbulk_1227_4_alg».proof.Proof.RefBlocks
import proofs.«142501_g2000002412256652_pallasbulk_1227_4_alg».proof.Proof.RefHost
import proofs.«142501_g2000002412256652_pallasbulk_1227_4_alg».proof.Proof.RefLayer1
import proofs.«142501_g2000002412256652_pallasbulk_1227_4_alg».proof.Proof.Spec
import Idealize.ShloMosaic.Lib.StableHlo.Run

set_option maxRecDepth 16384

noncomputable section

namespace Cert.ReferenceIdeal.RefValue

open Cert.ReferenceIdeal Cert.ReferenceIdeal.Gen Cert.Spec
open Idealize.ShloMosaic Idealize.ShloMosaic.TcCoe Idealize.SL.Sem Idealize.ShloMosaic.ValueIdx Idealize.ShloMosaic.StableHlo
open Idealize.ShloMosaic.Pipeline (Dat)

section AnyF
variable {F : FTy → Type} [FloatOps F]
variable (m : (ℓ : Loc nD τ sig) → Buf (Elt F) ℓ)

/-- The two reshapes read at an index: entry (b, 0) of the result is column b of the result row. -/
theorem tail_eq (c : Dev nD) :
    (Pipeline.afterTail₀ cfgs (dats m) 0 (V0 m) [hostOps1] c main_v0 : S131072x1.Idx → Elt F .f32)
      = fun i => ((dats m 0 c).arrAt 10 cfg0.N : S1x131072.Idx → Elt F .f32) (ix2 (0 : Fin 1) (⟨(i 0).val, (i 0).isLt⟩ : Fin 131072)) := by
  have e : (Pipeline.afterTail₀ cfgs (dats m) 0 (V0 m) [hostOps1] c main_v0 : S131072x1.Idx → Elt F .f32)
      = shapeCast S131072x1 (shapeCast S131072 ((dats m 0 c).arrAt 10 cfg0.N : S1x131072.Idx → Elt F .f32) shapeCasts_S1x131072_S131072) shapeCasts_S131072_S131072x1 := by
    unfold Pipeline.afterTail₀
    show StableHlo.after hostOps1 _ (Proc.devRef .tc main_v0) = _
    after_results
    have hw : Pipeline.withArrays (cfgs 0).spec c (V0 m c) (fun w => (dats m 0 c).arrAt w (cfgs 0).N) (Proc.devRef .tc (Pipeline.arrRef spec0 10))
        = (dats m 0 c).arrAt 10 cfg0.N :=
      Pipeline.withArrays_arr spec0 launch0.win.arr_inj c _ _ 10
    exact congrArg (fun A : S1x131072.Idx → Elt F .f32 =>
      shapeCast S131072x1 (shapeCast S131072 A shapeCasts_S1x131072_S131072) shapeCasts_S131072_S131072x1) hw
  rw [e]
  funext i
  have hi0 : (i 0).val < 131072 := (i 0).isLt
  have hi1 : (i 1).val < 1 := (i 1).isLt
  refine (shapeCast_apply _ _ i (ix1 (⟨(i 0).val, hi0⟩ : Fin 131072)) ?_).trans
    (shapeCast_apply _ _ (ix1 (⟨(i 0).val, hi0⟩ : Fin 131072)) (ix2 (0 : Fin 1) (⟨(i 0).val, hi0⟩ : Fin 131072)) ?_)
  · rw [Shape.rowMajor_val_one, Shape.rowMajor_val_two]
    show (i 0).val = (i 0).val * 1 + (i 1).val
    omega
  · rw [Shape.rowMajor_val_one, Shape.rowMajor_val_two]
    show (0 : Nat) * 131072 + (i 0).val = (i 0).val
    omega

end AnyF

variable (m : (ℓ : Loc nD τ sig) → Buf (Elt Ideal) ℓ) (ρ : Dev nD → PrngReg)

/-- The output block of point t is the rest of the network applied to the specification's layer 1 of block t: the
    layer-1 block read through the arrays the host left is the field-by-field form on the arguments, and the remaining
    arrays are the transposed biases and weights and the last layer's column and bias. -/
theorem outBlk_spec (c : Dev nD) (t : Fin 128) :
    outBlkR (F := Ideal) (V m c main_call0_v4) (V m c main_call0_v6) (V m c main_call0_v9) (V m c main_call0_v12) (V m c main_call0_v10)
        (V m c main_call0_v13) (V m c main_call0_v11) (V m c main_call0_v14) (V m c main_arg9) (V m c main_arg10) t
      = k0_pay22 (F := Ideal) (layer1R (m ((c.tc : Thread nD τ).loc main_arg0)) (m ((c.tc : Thread nD τ).loc main_arg1)) (m ((c.tc : Thread nD τ).loc main_arg2)) (m ((c.tc : Thread nD τ).loc main_arg3)) t)
      (tr (a := 1) (b := 256) (m ((c.tc : Thread nD τ).loc main_arg4))) (tr (a := 256) (b := 128) (m ((c.tc : Thread nD τ).loc main_arg5))) (tr (a := 1) (b := 128) (m ((c.tc : Thread nD τ).loc main_arg6)))
      (tr (a := 128) (b := 64) (m ((c.tc : Thread nD τ).loc main_arg7))) (tr (a := 1) (b := 64) (m ((c.tc : Thread nD τ).loc main_arg8))) (m ((c.tc : Thread nD τ).loc main_arg9)) (m ((c.tc : Thread nD τ).loc main_arg10)) := by
  unfold outBlkR
  rw [chain_eq_layer1R _ _ _ (aX m c) (aE m c) (aO m c) (aW1 m c) t (fun f j => idx_at m c f (brow t j)) (tab_at m c) (w1_at m c)]
  rw [hostB1 m c, hostW2 m c, hostB2 m c, hostW3 m c, hostB3 m c]
  rw [transpose_eq_tr, transpose_eq_tr, transpose_eq_tr, transpose_eq_tr, transpose_eq_tr]
  rw [V_main_arg9 m c, V_main_arg10 m c]

/-- The reference's result: row b is entry b % 1024 of the rest of the network applied to the specification's layer 1 of
    block b / 1024. -/
def result (c : Dev nD) : Buf (Elt Ideal) ((c.tc : Thread nD τ).loc main_v0) :=
  Cert.Spec.resultOf fun t => Gen.k0_pay22 (F := Ideal) (Cert.Spec.layer1R (m ((c.tc : Thread nD τ).loc main_arg0)) (m ((c.tc : Thread nD τ).loc main_arg1)) (m ((c.tc : Thread nD τ).loc main_arg2)) (m ((c.tc : Thread nD τ).loc main_arg3)) t)
      (tr (a := 1) (b := 256) (m ((c.tc : Thread nD τ).loc main_arg4))) (tr (a := 256) (b := 128) (m ((c.tc : Thread nD τ).loc main_arg5))) (tr (a := 1) (b := 128) (m ((c.tc : Thread nD τ).loc main_arg6)))
      (tr (a := 128) (b := 64) (m ((c.tc : Thread nD τ).loc main_arg7))) (tr (a := 1) (b := 64) (m ((c.tc : Thread nD τ).loc main_arg8))) (m ((c.tc : Thread nD τ).loc main_arg9)) (m ((c.tc : Thread nD τ).loc main_arg10))

/-- What the host operations after the region leave in the result buffer. -/
theorem result_eq (c : Dev nD) : Pipeline.afterTail₀ cfgs (dats m) 0 (V0 m) [hostOps1] c main_v0 = result m c := by
  refine (tail_eq m c).trans ?_
  rw [arrAt10 m c]
  unfold arr10 rowR result Cert.Spec.resultOf
  funext i
  dsimp only
  rw [outBlk_spec m c]

/-- THE RUN, with the result named: every weakly fair execution of @main from a memory with zero counters terminates, and
    in every final state the result buffer holds `result` and the eleven argument arrays are as launched. -/
theorem run : θ_run (defs (F := Ideal)) (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c)))⟩) (run_main m ρ)

end Cert.ReferenceIdeal.RefValue

end
-- ==== Proof.PreDecode.lean ====
/-
  The certificate's precondition, read back. Its last two conjuncts are all-true reductions of element-wise integer
  comparisons: every x(b, f) lies in [0, 13), and every x(b, f) + off(f), the sum taken as 32-bit words, lies in [0, 507),
  both read signed. A conjunction of one-bit words is 1 exactly when each is; an and-reduction over every axis that
  came out 1 met a 1 at every index; a signed comparison word that is 1 says the signed readings compare.
-/
import proofs.«142501_g2000002412256652_pallasbulk_1227_4_alg».proof.Pre_finite_inputs
import proofs.«142501_g2000002412256652_pallasbulk_1227_4_alg».proof.Proof.Gen.Pre_finite_inputs
import Idealize.ShloMosaic.Lib.ReduceAll
import Idealize.ShloMosaic.Lib.ValueIdx

noncomputable section

namespace Cert.PreDecode

open Idealize.ShloMosaic Idealize.ShloMosaic.ValueIdx Cert.Pre_finite_inputs

attribute [local instance] Cert.Pre_finite_inputs.Gen.facts

/-- The scalar shape has one index. -/
instance : Subsingleton S_.Idx := ⟨fun a b => funext fun d => d.elim0⟩

/-- The offsets [39], broadcast to one row [1, 39] and then down the 131072 rows, read at (b, f): the offset of field f. -/
theorem off_apply (O : IVec S39 32) (h1 : S39.BroadcastsInDim S1x39 ![1]) (h2 : S1x39.BroadcastsInDim S131072x39 ![0, 1])
    (b : Fin 131072) (f : Fin 39) :
    broadcastInDim S131072x39 ![0, 1] h2 (broadcastInDim S1x39 ![1] h1 O) (ix2 b f) = O (ix1 f) := by
  unfold broadcastInDim
  refine congrArg O (funext fun a => ?_)
  match a with
  | ⟨0, _⟩ => rfl

/-- A scalar constant broadcast to the whole array reads the constant. -/
theorem splat_apply (c : BitVec 32) (h : S_.BroadcastsInDim S131072x39 ![]) (j : S131072x39.Idx) :
    broadcastInDim S131072x39 ![] h (constantI S_ 32 c) j = c := rfl

theorem ranges_of_pre (X : IVec S131072x39 32) (E : FVec Ideal S507x16 .f32) (O : IVec S39 32)
    (W1 : FVec Ideal S624x256 .f32) (B1 : FVec Ideal S1x256 .f32) (W2 : FVec Ideal S256x128 .f32) (B2 : FVec Ideal S1x128 .f32)
    (W3 : FVec Ideal S128x64 .f32) (B3 : FVec Ideal S1x64 .f32) (W4 : FVec Ideal S64x1 .f32) (B4 : FVec Ideal S1x1 .f32)
    (h : Cert.Pre_finite_inputs.fn (F := Ideal) X E O W1 B1 W2 B2 W3 B3 W4 B4 = fun _ => 1#1) :
    (∀ (b : Fin 131072) (f : Fin 39), 0 ≤ (X (ValueIdx.ix2 b f)).toInt ∧ (X (ValueIdx.ix2 b f)).toInt < 13)
    ∧ (∀ (b : Fin 131072) (f : Fin 39), 0 ≤ (X (ValueIdx.ix2 b f) + O (ValueIdx.ix1 f)).toInt ∧ (X (ValueIdx.ix2 b f) + O (ValueIdx.ix1 f)).toInt < 507) := by
  have e := congrFun h ix0
  dsimp only [fn, fn_part1, fn_part2, fn_part3] at e
  obtain ⟨e50, e62⟩ := IntOp.andi_eq_one.1 e
  obtain ⟨-, e49⟩ := IntOp.andi_eq_one.1 e50
  clear e e50
  have a49 := fun i => Host.reduce_andi_all _ _ _ _ _ e49 i
  have a62 := fun i => Host.reduce_andi_all _ _ _ _ _ e62 i
  have z0 : (0#32 : BitVec 32).toInt = 0 := by decide
  have z13 : (13#32 : BitVec 32).toInt = 13 := by decide
  have z507 : (507#32 : BitVec 32).toInt = 507 := by decide
  refine ⟨fun b f => ?_, fun b f => ?_⟩
  · obtain ⟨c0, c1⟩ := IntOp.andi_eq_one.1 (a49 (ix2 b f))
    have d0 : (0#32 : BitVec 32).toInt ≤ (X (ix2 b f)).toInt := IntOp.cmpi_sge.1 c0
    have d1 : (X (ix2 b f)).toInt < (13#32 : BitVec 32).toInt := IntOp.cmpi_slt.1 c1
    rw [z0] at d0
    rw [z13] at d1
    exact ⟨d0, d1⟩
  · obtain ⟨c0, c1⟩ := IntOp.andi_eq_one.1 (a62 (ix2 b f))
    have d0 := IntOp.cmpi_sge.1 c0
    have d1 := IntOp.cmpi_slt.1 c1
    rw [← off_apply O Facts.bcast_S39_S1x39_1 Facts.bcast_S1x39_S131072x39_0_1 b f]
    refine ⟨?_, ?_⟩
    · rw [← z0]; exact d0
    · rw [← z507]; exact d1

end Cert.PreDecode

end
-- ==== Proof.Bridge.lean ====
/-
  The two forms of layer 1 agree. Fix an output row h and a batch row b. The table form sums, over the 624 columns
  c = 16 f + v, the table entry T(h, c) against the indicator [x(b, f) = v]; for each field f exactly one v below 16
  matches, the value of x(b, f) itself (it is below 13), so the sum over v keeps the single entry T(h, 16 f + x(b, f)),
  which is Σ_d W1(16 f + d, h) · E(row(16 f + x(b, f)), d), and that row is x(b, f) + off(f). The field-by-field form
  sums, for each f and d, W1(16 f + d, h) against Σ_u padE(d, u) · [u = x(b, f) + off(f)]; exactly one u below 512
  matches, it is below 507, and there the padded table is the table. In the extended reals 0 · y = 0 and 1 · y = y for
  every y, so collapsing a sum against an indicator needs no finiteness.
-/
import proofs.«142501_g2000002412256652_pallasbulk_1227_4_alg».proof.Proof.Spec
import Mathlib.Algebra.BigOperators.Fin
import Mathlib.Algebra.BigOperators.Ring.Finset
import Mathlib.Data.Fintype.BigOperators
import Idealize.ShloMosaic.Lib.ValueIdx

noncomputable section

namespace Cert.Bridge

open Idealize.ShloMosaic Idealize.ShloMosaic.ValueIdx Cert.Spec

/-! ## Words -/

/-- A word whose signed reading lies in [0, n), n at most 2³¹, reads the same unsigned, below n. -/
theorem toNat_of_range (w : BitVec 32) (n : Nat) (hn : n ≤ 2 ^ 31) (h0 : 0 ≤ w.toInt) (h1 : w.toInt < n) :
    w.toNat < n ∧ w.toInt.toNat = w.toNat := by
  have h := BitVec.toInt_eq_toNat_cond w
  have hl := w.isLt
  split at h <;> omega

/-- A number below 2³² is a given word exactly when it is the word's unsigned reading. -/
theorem ofNat_eq_iff (w : BitVec 32) (k : Nat) (hk : k < 2 ^ 32) : BitVec.ofNat 32 k = w ↔ k = w.toNat := by
  rw [← BitVec.toNat_inj, BitVec.toNat_ofNat, Nat.mod_eq_of_lt hk]

/-- A word is the word of its unsigned reading. -/
theorem ofNat_toNat (w : BitVec 32) : BitVec.ofNat 32 w.toNat = w := by
  rw [ofNat_eq_iff w w.toNat w.isLt]

/-! ## Sums against an indicator -/

/-- A sum against the indicator of a predicate that holds at exactly one index keeps that index's term. -/
theorem sum_hot_single {ι : Type} [Fintype ι] [DecidableEq ι] (g : ι → EReal) (p : ι → Prop) [DecidablePred p] (a : ι)
    (hp : ∀ v, p v ↔ v = a) : ∑ v, g v * hot (p v) = g a := by
  rw [Finset.sum_eq_single a]
  · have : p a := (hp a).2 rfl
    unfold hot; rw [if_pos this, mul_one]
  · intro v _ hv
    have : ¬ p v := fun h => hv ((hp v).1 h)
    unfold hot; rw [if_neg this, mul_zero]
  · intro h; exact absurd (Finset.mem_univ a) h

/-! ## The 624 columns as 39 fields of 16 -/

/-- Column c = 16 f + v, as the pair (f, v). -/
def fvEquiv : Fin 39 × Fin 16 ≃ Fin 624 where
  toFun p := fcol p.1 p.2
  invFun c := (⟨c.val / 16, by have := c.isLt; omega⟩, ⟨c.val % 16, Nat.mod_lt _ (by norm_num)⟩)
  left_inv p := by
    obtain ⟨f, v⟩ := p
    have hf := f.isLt; have hv := v.isLt
    refine Prod.ext (Fin.ext ?_) (Fin.ext ?_)
    · show (16 * f.val + v.val) / 16 = f.val; omega
    · show (16 * f.val + v.val) % 16 = v.val; omega
  right_inv c := by
    refine Fin.ext ?_
    show 16 * (c.val / 16) + c.val % 16 = c.val; omega

theorem fcol_div (f : Fin 39) (v : Fin 16) (h : (fcol f v).val / 16 < 39) : (⟨(fcol f v).val / 16, h⟩ : Fin 39) = f :=
  Fin.ext (by have hv := v.isLt; show (16 * f.val + v.val) / 16 = f.val; omega)

theorem fcol_mod (f : Fin 39) (v : Fin 16) : (fcol f v).val % 16 = v.val := by
  have hv := v.isLt; show (16 * f.val + v.val) % 16 = v.val; omega

/-- A sum over the 624 columns, field by field. -/
theorem sum_cols (F : Fin 624 → EReal) : ∑ c : Fin 624, F c = ∑ f : Fin 39, ∑ v : Fin 16, F (fcol f v) := by
  rw [← Equiv.sum_comp fvEquiv F, Fintype.sum_prod_type]
  rfl

/-! ## The table form, field by field -/

theorem layer1K_apply (X : (⟨2, ![131072, 39]⟩ : Shape).Idx → BitVec 32) (e2 : (⟨2, ![624, 16]⟩ : Shape).Idx → EReal)
    (W1 : (⟨2, ![624, 256]⟩ : Shape).Idx → EReal) (t : Fin 128) (h : Fin 256) (j : Fin 1024) :
    layer1K X (tableOf e2 W1) t (ix2 h j) = ∑ f : Fin 39, ∑ v : Fin 16,
      (∑ d : Fin 16, W1 (ix2 (fcol f d) h) * e2 (ix2 (fcol f v) d)) * hot (X (ix2 (brow t j) f) = BitVec.ofNat 32 v.val) := by
  unfold layer1K
  rw [sum_cols]
  refine Finset.sum_congr rfl fun f _ => Finset.sum_congr rfl fun v _ => ?_
  unfold tableOf
  show (∑ d : Fin 16, W1 (ix2 (fcol ⟨(fcol f v).val / 16, _⟩ d) h) * e2 (ix2 (fcol f v) d))
      * hot (X (ix2 (brow t j) ⟨(fcol f v).val / 16, _⟩) = BitVec.ofNat 32 ((fcol f v).val % 16)) = _
  rw [fcol_mod]
  simp only [fcol_div]

/-! ## The bridge -/

theorem layer1_eq (X : (⟨2, ![131072, 39]⟩ : Shape).Idx → BitVec 32) (E : (⟨2, ![507, 16]⟩ : Shape).Idx → EReal)
    (O : (⟨1, ![39]⟩ : Shape).Idx → BitVec 32) (W1 : (⟨2, ![624, 256]⟩ : Shape).Idx → EReal)
    (row : Fin 624 → Fin 507)
    (hx : ∀ (b : Fin 131072) (f : Fin 39), 0 ≤ (X (ValueIdx.ix2 b f)).toInt ∧ (X (ValueIdx.ix2 b f)).toInt < 13)
    (hs : ∀ (b : Fin 131072) (f : Fin 39), 0 ≤ (X (ValueIdx.ix2 b f) + O (ValueIdx.ix1 f)).toInt ∧ (X (ValueIdx.ix2 b f) + O (ValueIdx.ix1 f)).toInt < 507)
    (hrow : ∀ (f : Fin 39) (v : Fin 16), 0 ≤ (O (ValueIdx.ix1 f) + BitVec.ofNat 32 v.val).toInt → (O (ValueIdx.ix1 f) + BitVec.ofNat 32 v.val).toInt < 507 → (row (Cert.Spec.fcol f v)).val = (O (ValueIdx.ix1 f) + BitVec.ofNat 32 v.val).toInt.toNat)
    (t : Fin 128) :
    Cert.Spec.layer1K X (Cert.Spec.tableOf (fun i => E (ValueIdx.ix2 (row (i 0)) (i 1))) W1) t = Cert.Spec.layer1R X E O W1 t := by
  funext i
  obtain ⟨h, j, rfl⟩ : ∃ (h : Fin 256) (j : Fin 1024), i = ix2 h j := ⟨i 0, i 1, eq_ix2 i⟩
  rw [layer1K_apply]
  show (∑ f : Fin 39, ∑ v : Fin 16, (∑ d : Fin 16, W1 (ix2 (fcol f d) h) * E (ix2 (row (fcol f v)) d))
        * hot (X (ix2 (brow t j) f) = BitVec.ofNat 32 v.val))
      = ∑ f : Fin 39, ∑ d : Fin 16, W1 (ix2 (fcol f d) h) *
        ∑ u : Fin 512, padE E d u * hot (BitVec.ofNat 32 u.val = X (ix2 (brow t j) f) + O (ix1 f))
  refine Finset.sum_congr rfl fun f _ => ?_
  obtain ⟨hx0, hx1⟩ := hx (brow t j) f
  obtain ⟨hs0, hs1⟩ := hs (brow t j) f
  generalize X (ix2 (brow t j) f) = x at hx0 hx1 hs0 hs1 ⊢
  obtain ⟨hxn, -⟩ := toNat_of_range x 13 (by norm_num) hx0 hx1
  obtain ⟨hwn, hwi⟩ := toNat_of_range (x + O (ix1 f)) 507 (by norm_num) hs0 hs1
  -- the one local category that matches
  have hv : ∀ v : Fin 16, x = BitVec.ofNat 32 v.val ↔ v = (⟨x.toNat, by omega⟩ : Fin 16) := fun v => by
    have hv := v.isLt
    rw [eq_comm, ofNat_eq_iff x v.val (by omega), Fin.ext_iff]
  rw [sum_hot_single _ _ _ hv]
  refine Finset.sum_congr rfl fun d _ => ?_
  -- the one global row that matches
  have hu : ∀ u : Fin 512, BitVec.ofNat 32 u.val = x + O (ix1 f) ↔ u = (⟨(x + O (ix1 f)).toNat, by omega⟩ : Fin 512) := fun u => by
    have hu := u.isLt
    rw [ofNat_eq_iff _ u.val (by omega), Fin.ext_iff]
  rw [sum_hot_single _ _ _ hu]
  unfold padE
  rw [dif_pos (show (x + O (ix1 f)).toNat < 507 from hwn)]
  have hw : O (ix1 f) + BitVec.ofNat 32 x.toNat = x + O (ix1 f) := by rw [ofNat_toNat, BitVec.add_comm]
  have hr := hrow f ⟨x.toNat, by omega⟩ (by rw [hw]; exact hs0) (by rw [hw]; exact hs1)
  rw [hw, hwi] at hr
  exact congrArg (fun r => W1 (ix2 (fcol f d) h) * E (ix2 r d)) (Fin.ext hr)

end Cert.Bridge

end
-- ==== Proof.lean ====
/-
  The certificate of the embedding-plus-network kernel against its reference, over the extended reals.

  Both programs compute, per batch row, the 39 categorical embeddings pushed through a four-layer network. The kernel folds
  the embedding lookup into a per-(field, category) table and multiplies it against a 624-wide indicator; the reference
  multiplies, field by field, the zero-padded embedding table against a 512-wide indicator of the global row and then the
  field's slice of the first weights. Under the precondition — every local category in [0, 13), every global row in
  [0, 507) — each indicator sum keeps exactly one term, the same embedding row in both programs, so the two layer-1 blocks
  are one function; the rest of the network is the same term on both sides and is never opened. The frames are the
  generated ones; the ideal pass rewrote nothing.
-/
import proofs.«142501_g2000002412256652_pallasbulk_1227_4_alg».proof.Defs
import proofs.«142501_g2000002412256652_pallasbulk_1227_4_alg».proof.Proof.Gen.Kernel
import proofs.«142501_g2000002412256652_pallasbulk_1227_4_alg».proof.Proof.Gen.Kernel.Frame
import proofs.«142501_g2000002412256652_pallasbulk_1227_4_alg».proof.Proof.Gen.KernelIdeal
import proofs.«142501_g2000002412256652_pallasbulk_1227_4_alg».proof.Proof.Gen.KernelIdeal.Frame
import proofs.«142501_g2000002412256652_pallasbulk_1227_4_alg».proof.Proof.Gen.ReferenceIdeal
import proofs.«142501_g2000002412256652_pallasbulk_1227_4_alg».proof.Proof.Gen.ReferenceIdeal.Frame
import proofs.«142501_g2000002412256652_pallasbulk_1227_4_alg».proof.Proof.Gen.Pre_finite_inputs
import proofs.«142501_g2000002412256652_pallasbulk_1227_4_alg».proof.Proof.KValue
import proofs.«142501_g2000002412256652_pallasbulk_1227_4_alg».proof.Proof.RefRun
import proofs.«142501_g2000002412256652_pallasbulk_1227_4_alg».proof.Proof.PreDecode
import proofs.«142501_g2000002412256652_pallasbulk_1227_4_alg».proof.Proof.Bridge

noncomputable section

namespace Cert.Proof

open Idealize.ShloMosaic Idealize.SL.Sem Idealize.ShloMosaic.ValueIdx

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The ideal pass rewrote no operation. -/
theorem preserves : Cert.preserves_Kernel_KernelIdeal := trivial

/-- From memories agreeing on the arguments both idealized programs end with the same result array: the kernel's run
    names it, the reference's run names its own, and under the precondition's integer ranges the two layer-1 blocks
    agree block by block. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run (Cert.ReferenceIdeal.defs (F := Ideal)) _ _).mono (fun _ h c => ⟨(h c).1.trans ?_, (h c).2⟩)
    (Cert.ReferenceIdeal.RefValue.run m' ρ')
  obtain ⟨a0, a1, a2, a3, a4, a5, a6, a7, a8, a9, a10⟩ := hagree c
  obtain ⟨hx, hs⟩ := Cert.PreDecode.ranges_of_pre _ _ _ _ _ _ _ _ _ _ _ (hpre c)
  unfold Cert.ReferenceIdeal.RefValue.result Cert.KernelIdeal.KValue.result Cert.KernelIdeal.KValue.resultOver
  rw [a0, a1, a2, a3, a4, a5, a6, a7, a8, a9, a10]
  refine congrArg Cert.Spec.resultOf (funext fun t => ?_)
  rw [Cert.Bridge.layer1_eq _ _ _ _ (Cert.KernelIdeal.TableValue.rowK _) hx hs (Cert.KernelIdeal.TableValue.rowK_eq _) t]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
